-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S2x4096x4096 : Shape := ⟨3, ![2, 4096, 4096]⟩
abbrev S3x256x64 : Shape := ⟨3, ![3, 256, 64]⟩
abbrev S3x64 : Shape := ⟨2, ![3, 64]⟩
abbrev S2x64x64 : Shape := ⟨3, ![2, 64, 64]⟩
abbrev S2x64 : Shape := ⟨2, ![2, 64]⟩
abbrev S3 : Shape := ⟨1, ![3]⟩
abbrev S192x40 : Shape := ⟨2, ![192, 40]⟩
abbrev S40 : Shape := ⟨1, ![40]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S2x4096x4096 : S_.BroadcastsInDim S2x4096x4096 (![] : Fin 0 → Fin S2x4096x4096.rank)
  reducesTo_S2x4096x4096_S_d0_1_2 : S2x4096x4096.ReducesTo [0, 1, 2] S_
  bcast_S_S3x256x64 : S_.BroadcastsInDim S3x256x64 (![] : Fin 0 → Fin S3x256x64.rank)
  reducesTo_S3x256x64_S_d0_1_2 : S3x256x64.ReducesTo [0, 1, 2] S_
  bcast_S_S3x64 : S_.BroadcastsInDim S3x64 (![] : Fin 0 → Fin S3x64.rank)
  reducesTo_S3x64_S_d0_1 : S3x64.ReducesTo [0, 1] S_
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_
  bcast_S_S3 : S_.BroadcastsInDim S3 (![] : Fin 0 → Fin S3.rank)
  reducesTo_S3_S_d0 : S3.ReducesTo [0] S_
  bcast_S_S192x40 : S_.BroadcastsInDim S192x40 (![] : Fin 0 → Fin S192x40.rank)
  reducesTo_S192x40_S_d0_1 : S192x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_arg11 : FVec F S40 .f32) (main_v48 : IVec S_ 1) (main_v49 : FVec F S192x40 .f32) (main_v50 : FVec F S192x40 .f32) : IVec S_ 1 :=
  let main_v51 : IVec S192x40 1 := cmpf .olt main_v49 main_v50
  let main_c_19 : IVec S_ 1 := constantI S_ 1 1#1
  let main_v52 : IVec S_ 1 := (fun x v => Host.reduce IntOp.andi x v reducesTo_S192x40_S_d0_1 h_S_) main_v51 main_c_19
  let main_v53 : IVec S_ 1 := andi main_v48 main_v52
  let main_v54 : FVec F S40 .f32 := Host.absf main_arg11
  let main_cst_20 : FVec F S_ .f32 := constant S_ .f32 0x7F800000#32
  let main_v55 : FVec F S40 .f32 := broadcastInDim S40 ![] bcast_S_S40 main_cst_20
  let main_v56 : IVec S40 1 := cmpf .olt main_v54 main_v55
  let main_c_21 : IVec S_ 1 := constantI S_ 1 1#1
  let main_v57 : IVec S_ 1 := (fun x v => Host.reduce IntOp.andi x v reducesTo_S40_S_d0 h_S_) main_v56 main_c_21
  let main_v58 : IVec S_ 1 := andi main_v53 main_v57
  main_v58

def fn_part2 {F : FTy → Type} [FloatOps F] (main_arg7 : FVec F S2x64x64 .f32) (main_arg8 : FVec F S2x64 .f32) (main_arg9 : FVec F S3 .f32) (main_arg10 : FVec F S192x40 .f32) (main_arg11 : FVec F S40 .f32) (main_v33 : IVec S_ 1) : IVec S_ 1 :=
  let main_v34 : FVec F S2x64x64 .f32 := Host.absf main_arg7
  let main_cst_12 : FVec F S_ .f32 := constant S_ .f32 0x7F800000#32
  let main_v35 : FVec F S2x64x64 .f32 := broadcastInDim S2x64x64 ![] bcast_S_S2x64x64 main_cst_12
  let main_v36 : IVec S2x64x64 1 := cmpf .olt main_v34 main_v35
  let main_c_13 : IVec S_ 1 := constantI S_ 1 1#1
  let main_v37 : IVec S_ 1 := (fun x v => Host.reduce IntOp.andi x v reducesTo_S2x64x64_S_d0_1_2 h_S_) main_v36 main_c_13
  let main_v38 : IVec S_ 1 := andi main_v33 main_v37
  let main_v39 : FVec F S2x64 .f32 := Host.absf main_arg8
  let main_cst_14 : FVec F S_ .f32 := constant S_ .f32 0x7F800000#32
  let main_v40 : FVec F S2x64 .f32 := broadcastInDim S2x64 ![] bcast_S_S2x64 main_cst_14
  let main_v41 : IVec S2x64 1 := cmpf .olt main_v39 main_v40
  let main_c_15 : IVec S_ 1 := constantI S_ 1 1#1
  let main_v42 : IVec S_ 1 := (fun x v => Host.reduce IntOp.andi x v reducesTo_S2x64_S_d0_1 h_S_) main_v41 main_c_15
  let main_v43 : IVec S_ 1 := andi main_v38 main_v42
  let main_v44 : FVec F S3 .f32 := Host.absf main_arg9
  let main_cst_16 : FVec F S_ .f32 := constant S_ .f32 0x7F800000#32
  let main_v45 : FVec F S3 .f32 := broadcastInDim S3 ![] bcast_S_S3 main_cst_16
  let main_v46 : IVec S3 1 := cmpf .olt main_v44 main_v45
  let main_c_17 : IVec S_ 1 := constantI S_ 1 1#1
  let main_v47 : IVec S_ 1 := (fun x v => Host.reduce IntOp.andi x v reducesTo_S3_S_d0 h_S_) main_v46 main_c_17
  let main_v48 : IVec S_ 1 := andi main_v43 main_v47
  let main_v49 : FVec F S192x40 .f32 := Host.absf main_arg10
  let main_cst_18 : FVec F S_ .f32 := constant S_ .f32 0x7F800000#32
  let main_v50 : FVec F S192x40 .f32 := broadcastInDim S192x40 ![] bcast_S_S192x40 main_cst_18
  fn_part3 (F := F) main_arg11 main_v48 main_v49 main_v50

def fn_part1 {F : FTy → Type} [FloatOps F] (main_arg4 : FVec F S3x64 .f32) (main_arg5 : FVec F S2x64x64 .f32) (main_arg6 : FVec F S2x64 .f32) (main_arg7 : FVec F S2x64x64 .f32) (main_arg8 : FVec F S2x64 .f32) (main_arg9 : FVec F S3 .f32) (main_arg10 : FVec F S192x40 .f32) (main_arg11 : FVec F S40 .f32) (main_v13 : IVec S_ 1) (main_v16 : IVec S3x256x64 1) : IVec S_ 1 :=
  let main_c_5 : IVec S_ 1 := constantI S_ 1 1#1
  let main_v17 : IVec S_ 1 := (fun x v => Host.reduce IntOp.andi x v reducesTo_S3x256x64_S_d0_1_2 h_S_) main_v16 main_c_5
  let main_v18 : IVec S_ 1 := andi main_v13 main_v17
  let main_v19 : FVec F S3x64 .f32 := Host.absf main_arg4
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S2x64x64 .f32 := Host.absf main_arg5
  let main_cst_8 : FVec F S_ .f32 := constant S_ .f32 0x7F800000#32
  let main_v25 : FVec F S2x64x64 .f32 := broadcastInDim S2x64x64 ![] bcast_S_S2x64x64 main_cst_8
  let main_v26 : IVec S2x64x64 1 := cmpf .olt main_v24 main_v25
  let main_c_9 : IVec S_ 1 := constantI S_ 1 1#1
  let main_v27 : IVec S_ 1 := (fun x v => Host.reduce IntOp.andi x v reducesTo_S2x64x64_S_d0_1_2 h_S_) main_v26 main_c_9
  let main_v28 : IVec S_ 1 := andi main_v23 main_v27
  let main_v29 : FVec F S2x64 .f32 := Host.absf main_arg6
  let main_cst_10 : FVec F S_ .f32 := constant S_ .f32 0x7F800000#32
  let main_v30 : FVec F S2x64 .f32 := broadcastInDim S2x64 ![] bcast_S_S2x64 main_cst_10
  let main_v31 : IVec S2x64 1 := cmpf .olt main_v29 main_v30
  let main_c_11 : IVec S_ 1 := constantI S_ 1 1#1
  let main_v32 : IVec S_ 1 := (fun x v => Host.reduce IntOp.andi x v reducesTo_S2x64_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S4096x256 .f32) (main_arg1 : FVec F S4096x4096 .f32) (main_arg2 : FVec F S2x4096x4096 .f32) (main_arg3 : FVec F S3x256x64 .f32) (main_arg4 : FVec F S3x64 .f32) (main_arg5 : FVec F S2x64x64 .f32) (main_arg6 : FVec F S2x64 .f32) (main_arg7 : FVec F S2x64x64 .f32) (main_arg8 : FVec F S2x64 .f32) (main_arg9 : FVec F S3 .f32) (main_arg10 : FVec F S192x40 .f32) (main_arg11 : FVec F S40 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S2x4096x4096 .f32 := Host.absf main_arg2
  let main_cst_2 : FVec F S_ .f32 := constant S_ .f32 0x7F800000#32
  let main_v10 : FVec F S2x4096x4096 .f32 := broadcastInDim S2x4096x4096 ![] bcast_S_S2x4096x4096 main_cst_2
  let main_v11 : IVec S2x4096x4096 1 := cmpf .olt main_v9 main_v10
  let main_c_3 : IVec S_ 1 := constantI S_ 1 1#1
  let main_v12 : IVec S_ 1 := (fun x v => Host.reduce IntOp.andi x v reducesTo_S2x4096x4096_S_d0_1_2 h_S_) main_v11 main_c_3
  let main_v13 : IVec S_ 1 := andi main_v8 main_v12
  let main_v14 : FVec F S3x256x64 .f32 := Host.absf main_arg3
  let main_cst_4 : FVec F S_ .f32 := constant S_ .f32 0x7F800000#32
  let main_v15 : FVec F S3x256x64 .f32 := broadcastInDim S3x256x64 ![] bcast_S_S3x256x64 main_cst_4
  let main_v16 : IVec S3x256x64 1 := cmpf .olt main_v14 main_v15
  fn_part1 (F := F) main_arg4 main_arg5 main_arg6 main_arg7 main_arg8 main_arg9 main_arg10 main_arg11 main_v13 main_v16
-- ==== Kernel.lean ====
abbrev S4096x256 : Shape := ⟨2, ![4096, 256]⟩
abbrev S4096x4096 : Shape := ⟨2, ![4096, 4096]⟩
abbrev S2x4096x4096 : Shape := ⟨3, ![2, 4096, 4096]⟩
abbrev S3x256x64 : Shape := ⟨3, ![3, 256, 64]⟩
abbrev S3x64 : Shape := ⟨2, ![3, 64]⟩
abbrev S2x64x64 : Shape := ⟨3, ![2, 64, 64]⟩
abbrev S2x64 : Shape := ⟨2, ![2, 64]⟩
abbrev S3 : Shape := ⟨1, ![3]⟩
abbrev S192x40 : Shape := ⟨2, ![192, 40]⟩
abbrev S40 : Shape := ⟨1, ![40]⟩
abbrev S_ : Shape := ⟨0, ![]⟩
abbrev S1 : Shape := ⟨1, ![1]⟩
abbrev S1x256x64 : Shape := ⟨3, ![1, 256, 64]⟩
abbrev S256x64 : Shape := ⟨2, ![256, 64]⟩
abbrev S4096x64 : Shape := ⟨2, ![4096, 64]⟩
abbrev S1x64 : Shape := ⟨2, ![1, 64]⟩
abbrev S64 : Shape := ⟨1, ![64]⟩
abbrev S4096 : Shape := ⟨1, ![4096]⟩
abbrev S4096x1 : Shape := ⟨2, ![4096, 1]⟩
abbrev S1x4096x64 : Shape := ⟨3, ![1, 4096, 64]⟩
abbrev S2x4096x64 : Shape := ⟨3, ![2, 4096, 64]⟩
abbrev S512x4096 : Shape := ⟨2, ![512, 4096]⟩
abbrev S2x512x64 : Shape := ⟨3, ![2, 512, 64]⟩
abbrev S512x64 : Shape := ⟨2, ![512, 64]⟩
abbrev S1x512x64 : Shape := ⟨3, ![1, 512, 64]⟩
abbrev S2x1x64 : Shape := ⟨3, ![2, 1, 64]⟩
abbrev S2x128x64 : Shape := ⟨3, ![2, 128, 64]⟩
abbrev S2x128x4096 : Shape := ⟨3, ![2, 128, 4096]⟩
abbrev S1x128x64 : Shape := ⟨3, ![1, 128, 64]⟩
abbrev S128x64 : Shape := ⟨2, ![128, 64]⟩
abbrev S64x4096 : Shape := ⟨2, ![64, 4096]⟩
abbrev S128x4096 : Shape := ⟨2, ![128, 4096]⟩
abbrev S1x128x4096 : Shape := ⟨3, ![1, 128, 4096]⟩
abbrev S2x4096 : Shape := ⟨2, ![2, 4096]⟩
abbrev S2x4096x1 : Shape := ⟨3, ![2, 4096, 1]⟩
abbrev S4096x192 : Shape := ⟨2, ![4096, 192]⟩
abbrev S4096x40 : Shape := ⟨2, ![4096, 40]⟩
abbrev S1x40 : Shape := ⟨2, ![1, 40]⟩

abbrev nBuf : Space → Nat
  | .hbm => 121
  | .vmem => 13
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S2x4096x4096, .f32⟩
  | .hbm, ⟨3, _⟩ => ⟨S3x256x64, .f32⟩
  | .hbm, ⟨4, _⟩ => ⟨S3x64, .f32⟩
  | .hbm, ⟨5, _⟩ => ⟨S2x64x64, .f32⟩
  | .hbm, ⟨6, _⟩ => ⟨S2x64, .f32⟩
  | .hbm, ⟨7, _⟩ => ⟨S2x64x64, .f32⟩
  | .hbm, ⟨8, _⟩ => ⟨S2x64, .f32⟩
  | .hbm, ⟨9, _⟩ => ⟨S3, .f32⟩
  | .hbm, ⟨10, _⟩ => ⟨S192x40, .f32⟩
  | .hbm, ⟨11, _⟩ => ⟨S40, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1, .f32⟩
  | .hbm, ⟨17, _⟩ => ⟨S3, .f32⟩
  | .hbm, ⟨18, _⟩ => ⟨S3, .f32⟩
  | .hbm, ⟨19, _⟩ => ⟨S3, .f32⟩
  | .hbm, ⟨20, _⟩ => ⟨S_, .f32⟩
  | .hbm, ⟨21, _⟩ => ⟨S_, .f32⟩
  | .hbm, ⟨22, _⟩ => ⟨S1, .f32⟩
  | .hbm, ⟨23, _⟩ => ⟨S3, .f32⟩
  | .hbm, ⟨24, _⟩ => ⟨S3, .f32⟩
  | .hbm, ⟨25, _⟩ => ⟨S1x256x64, .f32⟩
  | .hbm, ⟨26, _⟩ => ⟨S256x64, .f32⟩
  | .hbm, ⟨27, _⟩ => ⟨S4096x64, .f32⟩
  | .hbm, ⟨28, _⟩ => ⟨S1x64, .f32⟩
  | .hbm, ⟨29, _⟩ => ⟨S64, .f32⟩
  | .hbm, ⟨30, _⟩ => ⟨S1x64, .f32⟩
  | .hbm, ⟨31, _⟩ => ⟨S4096x64, .f32⟩
  | .hbm, ⟨32, _⟩ => ⟨S4096x64, .f32⟩
  | .hbm, ⟨33, _⟩ => ⟨S4096x64, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x64, .f32⟩
  | .hbm, ⟨42, _⟩ => ⟨S4096x64, .f32⟩
  | .hbm, ⟨43, _⟩ => ⟨S1, .f32⟩
  | .hbm, ⟨44, _⟩ => ⟨S_, .f32⟩
  | .hbm, ⟨45, _⟩ => ⟨S4096x64, .f32⟩
  | .hbm, ⟨46, _⟩ => ⟨S4096x64, .f32⟩
  | .hbm, ⟨47, _⟩ => ⟨S1x256x64, .f32⟩
  | .hbm, ⟨48, _⟩ => ⟨S256x64, .f32⟩
  | .hbm, ⟨49, _⟩ => ⟨S4096x64, .f32⟩
  | .hbm, ⟨50, _⟩ => ⟨S1x64, .f32⟩
  | .hbm, ⟨51, _⟩ => ⟨S64, .f32⟩
  | .hbm, ⟨52, _⟩ => ⟨S1x64, .f32⟩
  | .hbm, ⟨53, _⟩ => ⟨S4096x64, .f32⟩
  | .hbm, ⟨54, _⟩ => ⟨S4096x64, .f32⟩
  | .hbm, ⟨55, _⟩ => ⟨S1x256x64, .f32⟩
  | .hbm, ⟨56, _⟩ => ⟨S256x64, .f32⟩
  | .hbm, ⟨57, _⟩ => ⟨S4096x64, .f32⟩
  | .hbm, ⟨58, _⟩ => ⟨S1x64, .f32⟩
  | .hbm, ⟨59, _⟩ => ⟨S64, .f32⟩
  | .hbm, ⟨60, _⟩ => ⟨S1x64, .f32⟩
  | .hbm, ⟨61, _⟩ => ⟨S4096x64, .f32⟩
  | .hbm, ⟨62, _⟩ => ⟨S4096x64, .f32⟩
  | .hbm, ⟨63, _⟩ => ⟨S1x4096x64, .f32⟩
  | .hbm, ⟨64, _⟩ => ⟨S1x4096x64, .f32⟩
  | .hbm, ⟨65, _⟩ => ⟨S2x4096x64, .f32⟩
  | .hbm, ⟨66, _⟩ => ⟨S2x4096x64, .f32⟩
  | .hbm, ⟨67, _⟩ => ⟨S2x4096x64, .f32⟩
  | .hbm, ⟨68, _⟩ => ⟨S2x1x64, .f32⟩
  | .hbm, ⟨69, _⟩ => ⟨S2x4096x64, .f32⟩
  | .hbm, ⟨70, _⟩ => ⟨S2x4096x64, .f32⟩
  | .hbm, ⟨71, _⟩ => ⟨S2x4096x64, .f32⟩
  | .hbm, ⟨72, _⟩ => ⟨S2x1x64, .f32⟩
  | .hbm, ⟨73, _⟩ => ⟨S2x4096x64, .f32⟩
  | .hbm, ⟨74, _⟩ => ⟨S2x4096x64, .f32⟩
  | .hbm, ⟨75, _⟩ => ⟨S2x4096x64, .f32⟩
  | .hbm, ⟨76, _⟩ => ⟨S2x4096x64, .f32⟩
  | .hbm, ⟨77, _⟩ => ⟨S_, .f32⟩
  | .hbm, ⟨78, _⟩ => ⟨S2x4096, .f32⟩
  | .hbm, ⟨79, _⟩ => ⟨S2x4096x1, .f32⟩
  | .hbm, ⟨80, _⟩ => ⟨S2x4096x1, .f32⟩
  | .hbm, ⟨81, _⟩ => ⟨S_, .f32⟩
  | .hbm, ⟨82, _⟩ => ⟨S2x4096x1, .f32⟩
  | .hbm, ⟨83, _⟩ => ⟨S2x4096x1, .f32⟩
  | .hbm, ⟨84, _⟩ => ⟨S2x4096x64, .f32⟩
  | .hbm, ⟨85, _⟩ => ⟨S2x4096x64, .f32⟩
  | .hbm, ⟨86, _⟩ => ⟨S1, .f32⟩
  | .hbm, ⟨87, _⟩ => ⟨S_, .f32⟩
  | .hbm, ⟨88, _⟩ => ⟨S1x4096x64, .f32⟩
  | .hbm, ⟨89, _⟩ => ⟨S4096x64, .f32⟩
  | .hbm, ⟨90, _⟩ => ⟨S4096x64, .f32⟩
  | .hbm, ⟨91, _⟩ => ⟨S4096x64, .f32⟩
  | .hbm, ⟨92, _⟩ => ⟨S1, .f32⟩
  | .hbm, ⟨93, _⟩ => ⟨S_, .f32⟩
  | .hbm, ⟨94, _⟩ => ⟨S1x4096x64, .f32⟩
  | .hbm, ⟨95, _⟩ => ⟨S4096x64, .f32⟩
  | .hbm, ⟨96, _⟩ => ⟨S4096x64, .f32⟩
  | .hbm, ⟨97, _⟩ => ⟨S4096x64, .f32⟩
  | .hbm, ⟨98, _⟩ => ⟨S4096x192, .f32⟩
  | .hbm, ⟨99, _⟩ => ⟨S_, .f32⟩
  | .hbm, ⟨100, _⟩ => ⟨S4096x192, .f32⟩
  | .hbm, ⟨101, _⟩ => ⟨S4096x192, .f32⟩
  | .hbm, ⟨102, _⟩ => ⟨S4096x40, .f32⟩
  | .hbm, ⟨103, _⟩ => ⟨S1x40, .f32⟩
  | .hbm, ⟨104, _⟩ => ⟨S4096x40, .f32⟩
  | .hbm, ⟨105, _⟩ => ⟨S4096x40, .f32⟩
  | .hbm, ⟨106, _⟩ => ⟨S_, .f32⟩
  | .hbm, ⟨107, _⟩ => ⟨S4096, .f32⟩
  | .hbm, ⟨108, _⟩ => ⟨S_, .f32⟩
  | .hbm, ⟨109, _⟩ => ⟨S4096, .f32⟩
  | .hbm, ⟨110, _⟩ => ⟨S4096, .f32⟩
  | .hbm, ⟨111, _⟩ => ⟨S4096x1, .f32⟩
  | .hbm, ⟨112, _⟩ => ⟨S4096x40, .f32⟩
  | .hbm, ⟨113, _⟩ => ⟨S4096x40, .f32⟩
  | .hbm, ⟨114, _⟩ => ⟨S4096x40, .f32⟩
  | .hbm, ⟨115, _⟩ => ⟨S_, .f32⟩
  | .hbm, ⟨116, _⟩ => ⟨S4096, .f32⟩
  | .hbm, ⟨117, _⟩ => ⟨S4096x1, .f32⟩
  | .hbm, ⟨118, _⟩ => ⟨S4096x1, .f32⟩
  | .hbm, ⟨119, _⟩ => ⟨S4096x40, .f32⟩
  | .hbm, ⟨120, _⟩ => ⟨S4096x40, .f32⟩
  | .local _ .vmem, ⟨0, _⟩ => ⟨S512x4096, .f32⟩
  | .local _ .vmem, ⟨1, _⟩ => ⟨S512x4096, .f32⟩
  | .local _ .vmem, ⟨2, _⟩ => ⟨S2x4096x64, .f32⟩
  | .local _ .vmem, ⟨3, _⟩ => ⟨S2x512x64, .f32⟩
  | .local _ .vmem, ⟨4, _⟩ => ⟨S2x512x64, .f32⟩
  | .local _ .vmem, ⟨5, _⟩ => ⟨S2x128x64, .f32⟩
  | .local _ .vmem, ⟨6, _⟩ => ⟨S2x128x64, .f32⟩
  | .local _ .vmem, ⟨7, _⟩ => ⟨S2x4096x64, .f32⟩
  | .local _ .vmem, ⟨8, _⟩ => ⟨S2x4096x64, .f32⟩
  | .local _ .vmem, ⟨9, _⟩ => ⟨S2x128x4096, .f32⟩
  | .local _ .vmem, ⟨10, _⟩ => ⟨S2x128x4096, .f32⟩
  | .local _ .vmem, ⟨11, _⟩ => ⟨S2x128x64, .f32⟩
  | .local _ .vmem, ⟨12, _⟩ => ⟨S2x128x64, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_4 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_5 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_call0_cst : Ref sig .tc := ⟨.hbm, 99, rfl⟩
abbrev main_call0_v0 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_call1_cst : Ref sig .tc := ⟨.hbm, 106, rfl⟩
abbrev main_call1_v0 : Ref sig .tc := ⟨.hbm, 107, rfl⟩
abbrev main_call1_cst_0 : Ref sig .tc := ⟨.hbm, 108, rfl⟩
abbrev main_call1_v1 : Ref sig .tc := ⟨.hbm, 109, rfl⟩
abbrev main_call1_v2 : Ref sig .tc := ⟨.hbm, 110, rfl⟩
abbrev main_call1_v3 : Ref sig .tc := ⟨.hbm, 111, rfl⟩
abbrev main_call1_v4 : Ref sig .tc := ⟨.hbm, 112, rfl⟩
abbrev main_call1_v5 : Ref sig .tc := ⟨.hbm, 113, rfl⟩
abbrev main_call1_v6 : Ref sig .tc := ⟨.hbm, 114, rfl⟩
abbrev main_call1_cst_1 : Ref sig .tc := ⟨.hbm, 115, rfl⟩
abbrev main_call1_v7 : Ref sig .tc := ⟨.hbm, 116, rfl⟩
abbrev main_call1_v8 : Ref sig .tc := ⟨.hbm, 117, rfl⟩
abbrev main_call1_v9 : Ref sig .tc := ⟨.hbm, 118, rfl⟩
abbrev main_call1_v10 : Ref sig .tc := ⟨.hbm, 119, rfl⟩
abbrev main_v85 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S2x128x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x4096x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2x4096x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2x128x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2x128x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  reducesTo_S3_S_d0 : S3.ReducesTo [0] S_
  h_S_ : 0 < S_.numel
  bcast_S_S1 : S_.BroadcastsInDim S1 (![] : Fin 0 → Fin S1.rank)
  bcast_S1_S3_0 : S1.BroadcastsInDim S3 (![0] : Fin 1 → Fin S3.rank)
  slices_S3x256x64_S1x256x64_0_0_0 : S3x256x64.Slices ![0, 0, 0] S1x256x64
  shapeCasts_S1x256x64_S256x64 : S1x256x64.ShapeCasts S256x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  reducesTo_S4096x64_S4096_d1 : S4096x64.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x64_0_1 : S4096x1.BroadcastsInDim S4096x64 (![0, 1] : Fin 2 → Fin S4096x64.rank)
  slices_S3_S1_0 : S3.Slices ![0] S1
  shapeCasts_S1_S_ : S1.ShapeCasts S_
  bcast_S_S4096x64 : S_.BroadcastsInDim S4096x64 (![] : Fin 0 → Fin S4096x64.rank)
  slices_S3x256x64_S1x256x64_1_0_0 : S3x256x64.Slices ![1, 0, 0] S1x256x64
  slices_S3x64_S1x64_1_0 : S3x64.Slices ![1, 0] S1x64
  slices_S3x256x64_S1x256x64_2_0_0 : S3x256x64.Slices ![2, 0, 0] S1x256x64
  slices_S3x64_S1x64_2_0 : S3x64.Slices ![2, 0] S1x64
  bcast_S4096x64_S1x4096x64_1_2 : S4096x64.BroadcastsInDim S1x4096x64 (![1, 2] : Fin 2 → Fin S1x4096x64.rank)
  concatenates_S1x4096x64_S1x4096x64_S2x4096x64_d0 : Shape.Concatenates [S1x4096x64, S1x4096x64] S2x4096x64 0
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S2x4096x64_S1x4096x64_0_0_0 : ∀ a, (![0, 0, 0] : Fin 3 → Nat) a + S1x4096x64.size a ≤ S2x4096x64.size a
  h_S1x4096x64 : 0 < S1x4096x64.numel
  shapeCasts_S1x4096x64_S4096x64 : S1x4096x64.ShapeCasts S4096x64
  inb_S2x512x64_S1x512x64_0_0_0 : ∀ a, (![0, 0, 0] : Fin 3 → Nat) a + S1x512x64.size a ≤ S2x512x64.size a
  h_S1x512x64 : 0 < S1x512x64.numel
  shapeCasts_S1x512x64_S512x64 : S1x512x64.ShapeCasts S512x64
  shapeCasts_S512x64_S1x512x64 : S512x64.ShapeCasts S1x512x64
  inb_S2x4096x64_S1x4096x64_1_0_0 : ∀ a, (![1, 0, 0] : Fin 3 → Nat) a + S1x4096x64.size a ≤ S2x4096x64.size a
  inb_S2x512x64_S1x512x64_1_0_0 : ∀ a, (![1, 0, 0] : Fin 3 → Nat) a + S1x512x64.size a ≤ S2x512x64.size a
  bcast_S2x64_S2x1x64_0_2 : S2x64.BroadcastsInDim S2x1x64 (![0, 2] : Fin 2 → Fin S2x1x64.rank)
  bcast_S2x1x64_S2x4096x64_0_1_2 : S2x1x64.BroadcastsInDim S2x4096x64 (![0, 1, 2] : Fin 3 → Fin S2x4096x64.rank)
  inb_S2x128x64_S1x128x64_0_0_0 : ∀ a, (![0, 0, 0] : Fin 3 → Nat) a + S1x128x64.size a ≤ S2x128x64.size a
  h_S1x128x64 : 0 < S1x128x64.numel
  shapeCasts_S1x128x64_S128x64 : S1x128x64.ShapeCasts S128x64
  transposes_S4096x64_p1_0_S64x4096 : S4096x64.Transposes [1, 0] S64x4096
  inb_S2x128x4096_S1x128x4096_0_0_0 : ∀ a, (![0, 0, 0] : Fin 3 → Nat) a + S1x128x4096.size a ≤ S2x128x4096.size a
  h_S1x128x4096 : 0 < S1x128x4096.numel
  shapeCasts_S1x128x4096_S128x4096 : S1x128x4096.ShapeCasts S128x4096
  shapeCasts_S128x64_S1x128x64 : S128x64.ShapeCasts S1x128x64
  inb_S2x128x64_S1x128x64_1_0_0 : ∀ a, (![1, 0, 0] : Fin 3 → Nat) a + S1x128x64.size a ≤ S2x128x64.size a
  inb_S2x128x4096_S1x128x4096_1_0_0 : ∀ a, (![1, 0, 0] : Fin 3 → Nat) a + S1x128x4096.size a ≤ S2x128x4096.size a
  reducesTo_S2x4096x64_S2x4096_d2 : S2x4096x64.ReducesTo [2] S2x4096
  bcast_S2x4096_S2x4096x1_0_1 : S2x4096.BroadcastsInDim S2x4096x1 (![0, 1] : Fin 2 → Fin S2x4096x1.rank)
  bcast_S_S2x4096x1 : S_.BroadcastsInDim S2x4096x1 (![] : Fin 0 → Fin S2x4096x1.rank)
  bcast_S2x4096x1_S2x4096x64_0_1_2 : S2x4096x1.BroadcastsInDim S2x4096x64 (![0, 1, 2] : Fin 3 → Fin S2x4096x64.rank)
  slices_S3_S1_1 : S3.Slices ![1] S1
  slices_S2x4096x64_S1x4096x64_0_0_0 : S2x4096x64.Slices ![0, 0, 0] S1x4096x64
  slices_S3_S1_2 : S3.Slices ![2] S1
  slices_S2x4096x64_S1x4096x64_1_0_0 : S2x4096x64.Slices ![1, 0, 0] S1x4096x64
  concatenates_S4096x64_S4096x64_S4096x64_S4096x192_d1 : Shape.Concatenates [S4096x64, S4096x64, S4096x64] S4096x192 1
  bcast_S_S4096x192 : S_.BroadcastsInDim S4096x192 (![] : Fin 0 → Fin S4096x192.rank)
  bcast_S40_S1x40_1 : S40.BroadcastsInDim S1x40 (![1] : Fin 1 → Fin S1x40.rank)
  bcast_S1x40_S4096x40_0_1 : S1x40.BroadcastsInDim S4096x40 (![0, 1] : Fin 2 → Fin S4096x40.rank)
  reducesTo_S4096x40_S4096_d1 : S4096x40.ReducesTo [1] S4096
  bcast_S_S4096 : S_.BroadcastsInDim S4096 (![] : Fin 0 → Fin S4096.rank)
  bcast_S4096x1_S4096x40_0_1 : S4096x1.BroadcastsInDim S4096x40 (![0, 1] : Fin 2 → Fin S4096x40.rank)
  dot_S4096x256_S256x64_S4096x64_1_0_0_1_n_n_wf : DotDims.WF S4096x256 S256x64 S4096x64 [1] [0] [0] [1] [] []
  dot_S512x4096_S4096x64_S512x64_1_0_0_1_n_n_wf : DotDims.WF S512x4096 S4096x64 S512x64 [1] [0] [0] [1] [] []
  dot_S2x4096x64_S2x64x64_S2x4096x64_2_1_1_2_0_0_wf : DotDims.WF S2x4096x64 S2x64x64 S2x4096x64 [2] [1] [1] [2] [0] [0]
  dot_S128x64_S64x4096_S128x4096_1_0_0_1_n_n_wf : DotDims.WF S128x64 S64x4096 S128x4096 [1] [0] [0] [1] [] []
  dot_S128x4096_S4096x64_S128x64_1_0_0_1_n_n_wf : DotDims.WF S128x4096 S4096x64 S128x64 [1] [0] [0] [1] [] []
  dot_S4096x192_S192x40_S4096x40_1_0_0_1_n_n_wf : DotDims.WF S4096x192 S192x40 S4096x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x4096x64.size a ≤ S2x4096x64.size a
  hwx0_1 : ∀ i : grid0.Coords, EltTy.bits .f32 = 32 ∨ (Rect.block (s := S2x4096x64) S2x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x512x64.size a ≤ S2x4096x64.size a
  hwx0_2 : ∀ i : grid0.Coords, EltTy.bits .f32 = 32 ∨ (Rect.block (s := S2x4096x64) S2x512x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x128x64.size a ≤ S2x4096x64.size a
  hwx1_0 : ∀ i : grid1.Coords, EltTy.bits .f32 = 32 ∨ (Rect.block (s := S2x4096x64) S2x128x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x4096x64.size a ≤ S2x4096x64.size a
  hwx1_1 : ∀ i : grid1.Coords, EltTy.bits .f32 = 32 ∨ (Rect.block (s := S2x4096x64) S2x4096x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x4096x64.size a ≤ S2x4096x64.size a
  hwx1_2 : ∀ i : grid1.Coords, EltTy.bits .f32 = 32 ∨ (Rect.block (s := S2x4096x64) S2x4096x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2x128x4096.size a ≤ S2x4096x4096.size a
  hwx1_3 : ∀ i : grid1.Coords, EltTy.bits .f32 = 32 ∨ (Rect.block (s := S2x4096x4096) S2x128x4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2x128x64.size a ≤ S2x4096x64.size a
  hwx1_4 : ∀ i : grid1.Coords, EltTy.bits .f32 = 32 ∨ (Rect.block (s := S2x4096x64) S2x128x64.size (cc1_transform_4 i) (hinb1_4 i)).WholeWords (EltTy.packing .f32)

variable [Facts₀]

def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf
def dot_S2x4096x64_S2x64x64_S2x4096x64_2_1_1_2_0_0 : DotDims S2x4096x64 S2x64x64 S2x4096x64 where
  lhsContracting := [2]
  rhsContracting := [1]
  lhsNonContracting := [1]
  rhsNonContracting := [2]
  lhsBatch := [0]
  rhsBatch := [0]
  wf := dot_S2x4096x64_S2x64x64_S2x4096x64_2_1_1_2_0_0_wf
def dot_S128x64_S64x4096_S128x4096_1_0_0_1_n_n : DotDims S128x64 S64x4096 S128x4096 where
  lhsContracting := [1]
  rhsContracting := [0]
  lhsNonContracting := [0]
  rhsNonContracting := [1]
  lhsBatch := []
  rhsBatch := []
  wf := dot_S128x64_S64x4096_S128x4096_1_0_0_1_n_n_wf
def dot_S128x4096_S4096x64_S128x64_1_0_0_1_n_n : DotDims S128x4096 S4096x64 S128x64 where
  lhsContracting := [1]
  rhsContracting := [0]
  lhsNonContracting := [0]
  rhsNonContracting := [1]
  lhsBatch := []
  rhsBatch := []
  wf := dot_S128x4096_S4096x64_S128x64_1_0_0_1_n_n_wf
def dot_S4096x192_S192x40_S4096x40_1_0_0_1_n_n : DotDims S4096x192 S192x40 S4096x40 where
  lhsContracting := [1]
  rhsContracting := [0]
  lhsNonContracting := [0]
  rhsNonContracting := [1]
  lhsBatch := []
  rhsBatch := []
  wf := dot_S4096x192_S192x40_S4096x40_1_0_0_1_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v48) S2x4096x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v49) S2x512x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v53) S2x128x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S2x4096x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2x4096x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S2x128x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v58) S2x128x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4096x256 : Shape := ⟨2, ![4096, 256]⟩
abbrev S4096x4096 : Shape := ⟨2, ![4096, 4096]⟩
abbrev S2x4096x4096 : Shape := ⟨3, ![2, 4096, 4096]⟩
abbrev S3x256x64 : Shape := ⟨3, ![3, 256, 64]⟩
abbrev S3x64 : Shape := ⟨2, ![3, 64]⟩
abbrev S2x64x64 : Shape := ⟨3, ![2, 64, 64]⟩
abbrev S2x64 : Shape := ⟨2, ![2, 64]⟩
abbrev S3 : Shape := ⟨1, ![3]⟩
abbrev S192x40 : Shape := ⟨2, ![192, 40]⟩
abbrev S40 : Shape := ⟨1, ![40]⟩
abbrev S_ : Shape := ⟨0, ![]⟩
abbrev S1 : Shape := ⟨1, ![1]⟩
abbrev S1x256x64 : Shape := ⟨3, ![1, 256, 64]⟩
abbrev S256x64 : Shape := ⟨2, ![256, 64]⟩
abbrev S4096x64 : Shape := ⟨2, ![4096, 64]⟩
abbrev S1x64 : Shape := ⟨2, ![1, 64]⟩
abbrev S64 : Shape := ⟨1, ![64]⟩
abbrev S4096 : Shape := ⟨1, ![4096]⟩
abbrev S4096x1 : Shape := ⟨2, ![4096, 1]⟩
abbrev S1x64x64 : Shape := ⟨3, ![1, 64, 64]⟩
abbrev S64x64 : Shape := ⟨2, ![64, 64]⟩
abbrev S64x4096 : Shape := ⟨2, ![64, 4096]⟩
abbrev S1x4096x4096 : Shape := ⟨3, ![1, 4096, 4096]⟩
abbrev S4096x192 : Shape := ⟨2, ![4096, 192]⟩
abbrev S4096x40 : Shape := ⟨2, ![4096, 40]⟩
abbrev S1x40 : Shape := ⟨2, ![1, 40]⟩

abbrev nBuf : Space → Nat
  | .hbm => 160
  | .vmem => 0
  | .smem => 0
  | _ => 0

abbrev hbmTy0_0 (i : Nat) : BufTy := match i % 128 with
  | 0 => ⟨S4096x256, .f32⟩
  | 1 => ⟨S4096x4096, .f32⟩
  | 2 => ⟨S2x4096x4096, .f32⟩
  | 3 => ⟨S3x256x64, .f32⟩
  | 4 => ⟨S3x64, .f32⟩
  | 5 => ⟨S2x64x64, .f32⟩
  | 6 => ⟨S2x64, .f32⟩
  | 7 => ⟨S2x64x64, .f32⟩
  | 8 => ⟨S2x64, .f32⟩
  | 9 => ⟨S3, .f32⟩
  | 10 => ⟨S192x40, .f32⟩
  | 11 => ⟨S40, .f32⟩
  | 12 => ⟨S_, .f32⟩
  | 13 => ⟨S_, .f32⟩
  | 14 => ⟨S_, .f32⟩
  | 15 => ⟨S_, .f32⟩
  | 16 => ⟨S1, .f32⟩
  | 17 => ⟨S3, .f32⟩
  | 18 => ⟨S3, .f32⟩
  | 19 => ⟨S3, .f32⟩
  | 20 => ⟨S_, .f32⟩
  | 21 => ⟨S_, .f32⟩
  | 22 => ⟨S1, .f32⟩
  | 23 => ⟨S3, .f32⟩
  | 24 => ⟨S3, .f32⟩
  | 25 => ⟨S1x256x64, .f32⟩
  | 26 => ⟨S256x64, .f32⟩
  | 27 => ⟨S4096x64, .f32⟩
  | 28 => ⟨S1x64, .f32⟩
  | 29 => ⟨S64, .f32⟩
  | 30 => ⟨S1x64, .f32⟩
  | 31 => ⟨S4096x64, .f32⟩
  | 32 => ⟨S4096x64, .f32⟩
  | 33 => ⟨S4096x64, .f32⟩
  | 34 => ⟨S_, .f32⟩
  | 35 => ⟨S4096, .f32⟩
  | 36 => ⟨S4096x1, .f32⟩
  | 37 => ⟨S4096x1, .f32⟩
  | 38 => ⟨S_, .f32⟩
  | 39 => ⟨S4096x1, .f32⟩
  | 40 => ⟨S4096x1, .f32⟩
  | 41 => ⟨S4096x64, .f32⟩
  | 42 => ⟨S4096x64, .f32⟩
  | 43 => ⟨S1, .f32⟩
  | 44 => ⟨S_, .f32⟩
  | 45 => ⟨S4096x64, .f32⟩
  | 46 => ⟨S4096x64, .f32⟩
  | 47 => ⟨S1x256x64, .f32⟩
  | 48 => ⟨S256x64, .f32⟩
  | 49 => ⟨S4096x64, .f32⟩
  | 50 => ⟨S1x64, .f32⟩
  | 51 => ⟨S64, .f32⟩
  | 52 => ⟨S1x64, .f32⟩
  | 53 => ⟨S4096x64, .f32⟩
  | 54 => ⟨S4096x64, .f32⟩
  | 55 => ⟨S4096x64, .f32⟩
  | 56 => ⟨S1x64x64, .f32⟩
  | 57 => ⟨S64x64, .f32⟩
  | 58 => ⟨S4096x64, .f32⟩
  | 59 => ⟨S1x64, .f32⟩
  | 60 => ⟨S64, .f32⟩
  | 61 => ⟨S1x64, .f32⟩
  | 62 => ⟨S4096x64, .f32⟩
  | 63 => ⟨S4096x64, .f32⟩
  | 64 => ⟨S1x64x64, .f32⟩
  | 65 => ⟨S64x64, .f32⟩
  | 66 => ⟨S4096x64, .f32⟩
  | 67 => ⟨S1x64, .f32⟩
  | 68 => ⟨S64, .f32⟩
  | 69 => ⟨S1x64, .f32⟩
  | 70 => ⟨S4096x64, .f32⟩
  | 71 => ⟨S4096x64, .f32⟩
  | 72 => ⟨S64x4096, .f32⟩
  | 73 => ⟨S4096x4096, .f32⟩
  | 74 => ⟨S1x4096x4096, .f32⟩
  | 75 => ⟨S4096x4096, .f32⟩
  | 76 => ⟨S4096x4096, .f32⟩
  | 77 => ⟨S4096x64, .f32⟩
  | 78 => ⟨S4096x64, .f32⟩
  | 79 => ⟨S_, .f32⟩
  | 80 => ⟨S4096, .f32⟩
  | 81 => ⟨S4096x1, .f32⟩
  | 82 => ⟨S4096x1, .f32⟩
  | 83 => ⟨S_, .f32⟩
  | 84 => ⟨S4096x1, .f32⟩
  | 85 => ⟨S4096x1, .f32⟩
  | 86 => ⟨S4096x64, .f32⟩
  | 87 => ⟨S4096x64, .f32⟩
  | 88 => ⟨S1, .f32⟩
  | 89 => ⟨S_, .f32⟩
  | 90 => ⟨S4096x64, .f32⟩
  | 91 => ⟨S4096x64, .f32⟩
  | 92 => ⟨S1x256x64, .f32⟩
  | 93 => ⟨S256x64, .f32⟩
  | 94 => ⟨S4096x64, .f32⟩
  | 95 => ⟨S1x64, .f32⟩
  | 96 => ⟨S64, .f32⟩
  | 97 => ⟨S1x64, .f32⟩
  | 98 => ⟨S4096x64, .f32⟩
  | 99 => ⟨S4096x64, .f32⟩
  | 100 => ⟨S4096x64, .f32⟩
  | 101 => ⟨S1x64x64, .f32⟩
  | 102 => ⟨S64x64, .f32⟩
  | 103 => ⟨S4096x64, .f32⟩
  | 104 => ⟨S1x64, .f32⟩
  | 105 => ⟨S64, .f32⟩
  | 106 => ⟨S1x64, .f32⟩
  | 107 => ⟨S4096x64, .f32⟩
  | 108 => ⟨S4096x64, .f32⟩
  | 109 => ⟨S1x64x64, .f32⟩
  | 110 => ⟨S64x64, .f32⟩
  | 111 => ⟨S4096x64, .f32⟩
  | 112 => ⟨S1x64, .f32⟩
  | 113 => ⟨S64, .f32⟩
  | 114 => ⟨S1x64, .f32⟩
  | 115 => ⟨S4096x64, .f32⟩
  | 116 => ⟨S4096x64, .f32⟩
  | 117 => ⟨S64x4096, .f32⟩
  | 118 => ⟨S4096x4096, .f32⟩
  | 119 => ⟨S1x4096x4096, .f32⟩
  | 120 => ⟨S4096x4096, .f32⟩
  | 121 => ⟨S4096x4096, .f32⟩
  | 122 => ⟨S4096x64, .f32⟩
  | 123 => ⟨S4096x64, .f32⟩
  | 124 => ⟨S_, .f32⟩
  | 125 => ⟨S4096, .f32⟩
  | 126 => ⟨S4096x1, .f32⟩
  | 127 => ⟨S4096x1, .f32⟩
  | _ => ⟨S4096x256, .f32⟩

abbrev hbmTy0_1 (i : Nat) : BufTy := match i % 128 with
  | 0 => ⟨S_, .f32⟩
  | 1 => ⟨S4096x1, .f32⟩
  | 2 => ⟨S4096x1, .f32⟩
  | 3 => ⟨S4096x64, .f32⟩
  | 4 => ⟨S4096x64, .f32⟩
  | 5 => ⟨S1, .f32⟩
  | 6 => ⟨S_, .f32⟩
  | 7 => ⟨S4096x64, .f32⟩
  | 8 => ⟨S4096x64, .f32⟩
  | 9 => ⟨S4096x192, .f32⟩
  | 10 => ⟨S_, .f32⟩
  | 11 => ⟨S4096x192, .f32⟩
  | 12 => ⟨S4096x192, .f32⟩
  | 13 => ⟨S4096x40, .f32⟩
  | 14 => ⟨S1x40, .f32⟩
  | 15 => ⟨S4096x40, .f32⟩
  | 16 => ⟨S4096x40, .f32⟩
  | 17 => ⟨S_, .f32⟩
  | 18 => ⟨S4096, .f32⟩
  | 19 => ⟨S_, .f32⟩
  | 20 => ⟨S4096, .f32⟩
  | 21 => ⟨S4096, .f32⟩
  | 22 => ⟨S4096x1, .f32⟩
  | 23 => ⟨S4096x40, .f32⟩
  | 24 => ⟨S4096x40, .f32⟩
  | 25 => ⟨S4096x40, .f32⟩
  | 26 => ⟨S_, .f32⟩
  | 27 => ⟨S4096, .f32⟩
  | 28 => ⟨S4096x1, .f32⟩
  | 29 => ⟨S4096x1, .f32⟩
  | 30 => ⟨S4096x40, .f32⟩
  | 31 => ⟨S4096x40, .f32⟩
  | _ => ⟨S4096x256, .f32⟩

abbrev hbmTy (i : Nat) : BufTy := match i / 128 with
  | 0 => hbmTy0_0 i
  | 1 => hbmTy0_1 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_4 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_5 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_cst_6 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_cst_7 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_call0_cst : Ref sig .tc := ⟨.hbm, 138, rfl⟩
abbrev main_call0_v0 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_call1_cst : Ref sig .tc := ⟨.hbm, 145, rfl⟩
abbrev main_call1_v0 : Ref sig .tc := ⟨.hbm, 146, rfl⟩
abbrev main_call1_cst_0 : Ref sig .tc := ⟨.hbm, 147, rfl⟩
abbrev main_call1_v1 : Ref sig .tc := ⟨.hbm, 148, rfl⟩
abbrev main_call1_v2 : Ref sig .tc := ⟨.hbm, 149, rfl⟩
abbrev main_call1_v3 : Ref sig .tc := ⟨.hbm, 150, rfl⟩
abbrev main_call1_v4 : Ref sig .tc := ⟨.hbm, 151, rfl⟩
abbrev main_call1_v5 : Ref sig .tc := ⟨.hbm, 152, rfl⟩
abbrev main_call1_v6 : Ref sig .tc := ⟨.hbm, 153, rfl⟩
abbrev main_call1_cst_1 : Ref sig .tc := ⟨.hbm, 154, rfl⟩
abbrev main_call1_v7 : Ref sig .tc := ⟨.hbm, 155, rfl⟩
abbrev main_call1_v8 : Ref sig .tc := ⟨.hbm, 156, rfl⟩
abbrev main_call1_v9 : Ref sig .tc := ⟨.hbm, 157, rfl⟩
abbrev main_call1_v10 : Ref sig .tc := ⟨.hbm, 158, rfl⟩
abbrev main_v122 : Ref sig .tc := ⟨.hbm, 159, rfl⟩

abbrev nD : Nat := 1
abbrev τ : Topo := Topo.v7x

variable {F : FTy → Type} [FloatOps F]

class Facts₀ : Prop where
  reducesTo_S3_S_d0 : S3.ReducesTo [0] S_
  h_S_ : 0 < S_.numel
  bcast_S_S1 : S_.BroadcastsInDim S1 (![] : Fin 0 → Fin S1.rank)
  bcast_S1_S3_0 : S1.BroadcastsInDim S3 (![0] : Fin 1 → Fin S3.rank)
  slices_S3x256x64_S1x256x64_0_0_0 : S3x256x64.Slices ![0, 0, 0] S1x256x64
  shapeCasts_S1x256x64_S256x64 : S1x256x64.ShapeCasts S256x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  reducesTo_S4096x64_S4096_d1 : S4096x64.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x64_0_1 : S4096x1.BroadcastsInDim S4096x64 (![0, 1] : Fin 2 → Fin S4096x64.rank)
  slices_S3_S1_0 : S3.Slices ![0] S1
  shapeCasts_S1_S_ : S1.ShapeCasts S_
  bcast_S_S4096x64 : S_.BroadcastsInDim S4096x64 (![] : Fin 0 → Fin S4096x64.rank)
  slices_S3x256x64_S1x256x64_1_0_0 : S3x256x64.Slices ![1, 0, 0] S1x256x64
  slices_S3x64_S1x64_1_0 : S3x64.Slices ![1, 0] S1x64
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  transposes_S4096x64_S64x4096_1_0 : S4096x64.Transposes [1, 0] S64x4096
  slices_S2x4096x4096_S1x4096x4096_0_0_0 : S2x4096x4096.Slices ![0, 0, 0] S1x4096x4096
  shapeCasts_S1x4096x4096_S4096x4096 : S1x4096x4096.ShapeCasts S4096x4096
  slices_S3_S1_1 : S3.Slices ![1] S1
  slices_S3x256x64_S1x256x64_2_0_0 : S3x256x64.Slices ![2, 0, 0] S1x256x64
  slices_S3x64_S1x64_2_0 : S3x64.Slices ![2, 0] S1x64
  slices_S2x64x64_S1x64x64_1_0_0 : S2x64x64.Slices ![1, 0, 0] S1x64x64
  slices_S2x64_S1x64_1_0 : S2x64.Slices ![1, 0] S1x64
  slices_S2x4096x4096_S1x4096x4096_1_0_0 : S2x4096x4096.Slices ![1, 0, 0] S1x4096x4096
  slices_S3_S1_2 : S3.Slices ![2] S1
  concatenates_S4096x64_S4096x64_S4096x64_S4096x192_d1 : Shape.Concatenates [S4096x64, S4096x64, S4096x64] S4096x192 1
  bcast_S_S4096x192 : S_.BroadcastsInDim S4096x192 (![] : Fin 0 → Fin S4096x192.rank)
  bcast_S40_S1x40_1 : S40.BroadcastsInDim S1x40 (![1] : Fin 1 → Fin S1x40.rank)
  bcast_S1x40_S4096x40_0_1 : S1x40.BroadcastsInDim S4096x40 (![0, 1] : Fin 2 → Fin S4096x40.rank)
  reducesTo_S4096x40_S4096_d1 : S4096x40.ReducesTo [1] S4096
  bcast_S_S4096 : S_.BroadcastsInDim S4096 (![] : Fin 0 → Fin S4096.rank)
  bcast_S4096x1_S4096x40_0_1 : S4096x1.BroadcastsInDim S4096x40 (![0, 1] : Fin 2 → Fin S4096x40.rank)
  dot_S4096x256_S256x64_S4096x64_1_0_0_1_n_n_wf : DotDims.WF S4096x256 S256x64 S4096x64 [1] [0] [0] [1] [] []
  dot_S4096x4096_S4096x64_S4096x64_1_0_0_1_n_n_wf : DotDims.WF S4096x4096 S4096x64 S4096x64 [1] [0] [0] [1] [] []
  dot_S4096x64_S64x64_S4096x64_1_0_0_1_n_n_wf : DotDims.WF S4096x64 S64x64 S4096x64 [1] [0] [0] [1] [] []
  dot_S4096x64_S64x4096_S4096x4096_1_0_0_1_n_n_wf : DotDims.WF S4096x64 S64x4096 S4096x4096 [1] [0] [0] [1] [] []
  dot_S4096x192_S192x40_S4096x40_1_0_0_1_n_n_wf : DotDims.WF S4096x192 S192x40 S4096x40 [1] [0] [0] [1] [] []

variable [Facts₀]

def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf
def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def dot_S4096x192_S192x40_S4096x40_1_0_0_1_n_n : DotDims S4096x192 S192x40 S4096x40 where
  lhsContracting := [1]
  rhsContracting := [0]
  lhsNonContracting := [0]
  rhsNonContracting := [1]
  lhsBatch := []
  rhsBatch := []
  wf := dot_S4096x192_S192x40_S4096x40_1_0_0_1_n_n_wf

class Facts : Prop extends Facts₀ where

variable [Facts]
-- ==== Proof.KRegion0.lean ====
/-
  The first region (the aggregation kernel, grid of 8 row tiles) at arbitrary entry contents `V`:
  each window's block at a point, what the body leaves in the output block — its two stores, branch 0 and
  branch 1 of the [2, 512, 64] block, each the product of the point's [512, 4096] tile of the adjacency with one
  of the two stacked [4096, 64] matrices —, the body's triple, the proof data and the body obligation.
-/
import proofs.«159969_j68590627717599_1_alg».proof.Proof.Gen.Kernel.Launch
import proofs.«159969_j68590627717599_1_alg».proof.Proof.Gen.Kernel.Skeleton
import proofs.«159969_j68590627717599_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- the whole adjacency tile -/
abbrev ra0 : Rect S512x4096 := Rect.unit (s := S512x4096) ![0, 0] S512x4096.size inb_S512x4096_S512x4096_0_0
/-- branch 0 / branch 1 of the stacked matrices -/
abbrev rh0_0 : Rect S2x4096x64 := Rect.unit (s := S2x4096x64) ![0, 0, 0] S1x4096x64.size inb_S2x4096x64_S1x4096x64_0_0_0
abbrev rh0_1 : Rect S2x4096x64 := Rect.unit (s := S2x4096x64) ![1, 0, 0] S1x4096x64.size inb_S2x4096x64_S1x4096x64_1_0_0
/-- branch 0 / branch 1 of the output block -/
abbrev ro0_0 : Rect S2x512x64 := Rect.unit (s := S2x512x64) ![0, 0, 0] S1x512x64.size inb_S2x512x64_S1x512x64_0_0_0
abbrev ro0_1 : Rect S2x512x64 := Rect.unit (s := S2x512x64) ![1, 0, 0] S1x512x64.size inb_S2x512x64_S1x512x64_1_0_0

/-! ## What the body leaves in the output block -/

/-- The output block after the body, from the two input blocks: its two stores as pieces, last first. -/
def out0_2 (x0 : Vec F S512x4096 .f32) (x1 : Vec F S2x4096x64 .f32) : Vec F S2x512x64 .f32 :=
  View.canon [⟨ro0_1, k0_pay3 (View.ld x0 ra0) (View.ld x1 rh0_1)⟩, ⟨ro0_0, k0_pay2 (View.ld x0 ra0) (View.ld x1 rh0_0)⟩]

/-- The two stores tile the block, so they cover it. -/
theorem cover0_2 (p0 p1 : Vec F S1x512x64 .f32) (y : S2x512x64.Idx) :
    ∃ pc ∈ ([⟨ro0_1, p0⟩, ⟨ro0_0, p1⟩] : List (View.Piece (Elt F) S2x512x64 .f32)), y ∈ pc.1.set :=
  View.cover_of_tiled [⟨ro0_1, p0⟩, ⟨ro0_0, p1⟩] S1x512x64.size (by rfl) y

/-! ## The body's triple -/

set_option maxHeartbeats 1000000 in
/-- The body on whole staging memrefs, the inputs' at contents `x0`, `x1` and the output's at anything, runs to the
    continuation holding the inputs' as they were and the output's at `out0_2 x0 x1`. -/
theorem sound_kernel0 (c : Dev nD) (E : Set ℕ) (i : grid0.Coords) (arg1 : Memref sig .tc .vmem S512x4096 .f32) (harg1 : arg1.IsWhole)
    (arg2 : Memref sig .tc .vmem S2x4096x64 .f32) (harg2 : arg2.IsWhole) (arg3 : Memref sig .tc .vmem S2x512x64 .f32) (harg3 : arg3.IsWhole)
    (x0 : Vec F S512x4096 .f32) (x1 : Vec F S2x4096x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__agg_kernel i arg1 harg1 arg2 harg2 arg3 harg3) K := by
  simp only [cc0__agg_kernel_eq_skeleton]; unfold cc0__agg_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _)

/-! ## The proof data -/

/-- The proof data of the first pipeline on core `c`: the arrays as the region finds them; after the body each input's
    buffer at its block and the output's at `out0_2` of the input blocks; the scoped rest and the generator register
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Reg

end
-- ==== Proof.KRegion1.lean ====
/-
  The second region (the attention kernel, grid of 32 row tiles) at arbitrary entry contents `V`: for each of
  the two branches the point's [128, 64] tile of Q times the whole Kᵀ, masked entrywise by the point's [128, 4096]
  tile of the adjacency, times the whole [4096, 64] hidden matrix — two stores, branch 0 and branch 1 of the
  [2, 128, 64] output block.
-/
import proofs.«159969_j68590627717599_1_alg».proof.Proof.Gen.Kernel.Launch
import proofs.«159969_j68590627717599_1_alg».proof.Proof.Gen.Kernel.Skeleton
import proofs.«159969_j68590627717599_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not
    fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- branch 0 / branch 1 of the Q tile, of K, of the hidden matrix, of the adjacency tile and of the output block -/
abbrev rq1_0 : Rect S2x128x64 := Rect.unit (s := S2x128x64) ![0, 0, 0] S1x128x64.size inb_S2x128x64_S1x128x64_0_0_0
abbrev rq1_1 : Rect S2x128x64 := Rect.unit (s := S2x128x64) ![1, 0, 0] S1x128x64.size inb_S2x128x64_S1x128x64_1_0_0
abbrev rk1_0 : Rect S2x4096x64 := Rect.unit (s := S2x4096x64) ![0, 0, 0] S1x4096x64.size inb_S2x4096x64_S1x4096x64_0_0_0
abbrev rk1_1 : Rect S2x4096x64 := Rect.unit (s := S2x4096x64) ![1, 0, 0] S1x4096x64.size inb_S2x4096x64_S1x4096x64_1_0_0
abbrev ra1_0 : Rect S2x128x4096 := Rect.unit (s := S2x128x4096) ![0, 0, 0] S1x128x4096.size inb_S2x128x4096_S1x128x4096_0_0_0
abbrev ra1_1 : Rect S2x128x4096 := Rect.unit (s := S2x128x4096) ![1, 0, 0] S1x128x4096.size inb_S2x128x4096_S1x128x4096_1_0_0

/-! ## What the body leaves in the output block -/

/-- The output block after the body, from the four input blocks (Q tile, K, hidden, adjacency tile): its two stores
    as pieces, last first. -/
def out1_4 (x0 : Vec F S2x128x64 .f32) (x1 : Vec F S2x4096x64 .f32) (x2 : Vec F S2x4096x64 .f32) (x3 : Vec F S2x128x4096 .f32) : Vec F S2x128x64 .f32 :=
  View.canon [⟨rq1_1, k1_pay1 (k1_pay3 (View.ld x0 rq1_1) (View.ld x1 rk1_1) (View.ld x3 ra1_1)) (View.ld x2 rk1_1)⟩,
    ⟨rq1_0, k1_pay2 (View.ld x0 rq1_0) (View.ld x1 rk1_0) (View.ld x3 ra1_0) (View.ld x2 rk1_0)⟩]

/-- The two stores tile the block, so they cover it. -/
theorem cover1_4 (p0 p1 : Vec F S1x128x64 .f32) (y : S2x128x64.Idx) :
    ∃ pc ∈ ([⟨rq1_1, p0⟩, ⟨rq1_0, p1⟩] : List (View.Piece (Elt F) S2x128x64 .f32)), y ∈ pc.1.set :=
  View.cover_of_tiled [⟨rq1_1, p0⟩, ⟨rq1_0, p1⟩] S1x128x64.size (by rfl) y

/-! ## The body's triple -/

set_option maxHeartbeats 1000000 in
/-- The body on whole staging memrefs, the inputs' at contents `x0 … x3` and the output's at anything, runs to the
    continuation holding the inputs' as they were and the output's at `out1_4 x0 x1 x2 x3`. -/
theorem sound_kernel1 (c : Dev nD) (E : Set ℕ) (i : grid1.Coords) (arg1 : Memref sig .tc .vmem S2x128x64 .f32) (harg1 : arg1.IsWhole)
    (arg2 : Memref sig .tc .vmem S2x4096x64 .f32) (harg2 : arg2.IsWhole) (arg3 : Memref sig .tc .vmem S2x4096x64 .f32) (harg3 : arg3.IsWhole)
    (arg4 : Memref sig .tc .vmem S2x128x4096 .f32) (harg4 : arg4.IsWhole) (arg5 : Memref sig .tc .vmem S2x128x64 .f32) (harg5 : arg5.IsWhole)
    (x0 : Vec F S2x128x64 .f32) (x1 : Vec F S2x4096x64 .f32) (x2 : Vec F S2x4096x64 .f32) (x3 : Vec F S2x128x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__attn_kernel i arg1 harg1 arg2 harg2 arg3 harg3 arg4 harg4 arg5 harg5) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover1_4 _ _)

/-! ## The proof data -/

/-- The proof data of the second pipeline on core `c`: the arrays as the region finds them; after the body each
    input's buffer at its block and the output's at `out1_4` of the input blocks; the scoped rest and the generator
    register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Reg

end
-- ==== Proof.KSegs.lean ====
/-
  The run of @main over its eight items: the contents the two regions leave, every pipeline's proof data at its
  region's entry contents, each region as a segment between the thread states "every unscoped buffer at the
  boundary's contents", and the frame: every weakly fair execution terminates and every argument buffer ends as
  launched.
-/
import proofs.«159969_j68590627717599_1_alg».proof.Proof.KRegion0
import proofs.«159969_j68590627717599_1_alg».proof.Proof.KRegion1
import proofs.«159969_j68590627717599_1_alg».proof.Proof.Gen.Kernel.Regions

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline.PerCore
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents at the regions' boundaries -/

/-- The first region's entry contents (after the first host stretch), as a valuation and read at the TensorCore's
    references. -/
abbrev E1v (c : Dev nD) : Valuation τ sig (Elt F) := Gen.V1 m c
abbrev E1 : (c : Dev nD) → (b : Ref sig .tc) → Buf (Elt F) ((c : Thread nD τ).loc b) := fun c b => Gen.V1 m c b

/-- At the first region's exit: its arrays at what the pipeline leaves (the inputs as entered, the output's write-backs
    folded), every other buffer as entered. -/
def W2 (c : Dev nD) : Valuation τ sig (Elt F) :=
  Pipeline.withArrays spec0 c (Gen.V1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w

/-- What the first region leaves, as the unknown the boundary valuations are written over. -/
def outsA : Gen.Outs (F := F) := fun _ r c => W2 m c r

/-- The second region's entry contents. -/
abbrev E3 : (c : Dev nD) → (b : Ref sig .tc) → Buf (Elt F) ((c : Thread nD τ).loc b) := fun c b => Gen.V3 m (outsA m) c b

def W4 (c : Dev nD) : Valuation τ sig (Elt F) :=
  Pipeline.withArrays spec1 c (Gen.V3 m (outsA m) c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w

/-- What the two regions leave: the first region's result buffer after item 1, the second's after item 3. -/
def outs : Gen.Outs (F := F) := fun J r c => if J ≤ 2 then W2 m c r else W4 m c r

theorem outs_2 (r : Ref sig .tc) (c : Dev nD) : outs m 2 r c = W2 m c r := rfl
theorem outs_4 (r : Ref sig .tc) (c : Dev nD) : outs m 4 r c = W4 m c r := rfl
theorem V3_outs (c : Dev nD) : Gen.V3 m (outs m) c = Gen.V3 m (outsA m) c := rfl

abbrev E2v (c : Dev nD) : Valuation τ sig (Elt F) := Gen.V2 m (outs m) c
abbrev E2 : (c : Dev nD) → (b : Ref sig .tc) → Buf (Elt F) ((c : Thread nD τ).loc b) := fun c b => Gen.V2 m (outs m) c b
abbrev E3v (c : Dev nD) : Valuation τ sig (Elt F) := Gen.V3 m (outsA m) c
abbrev E4v (c : Dev nD) : Valuation τ sig (Elt F) := Gen.V4 m (outs m) c
abbrev E4 : (c : Dev nD) → (b : Ref sig .tc) → Buf (Elt F) ((c : Thread nD τ).loc b) := fun c b => Gen.V4 m (outs m) c b

/-- At the first region's exit each of its arrays holds what the pipeline leaves, and every other buffer what it held
    at entry. -/
theorem hF0 (c : Dev nD) (w : Fin cfg0.W) : (dat0 (E1 m) c).arrAt w cfg0.N = E2 m c (Pipeline.arrRef spec0 w) := by
  match w with
  | ⟨0, _⟩ => exact (((dat0 (E1 m) c).arrAt_in 0 rfl _).trans (A_eq0 (E1 m) c 0)).trans (Gen.V2_of m (outs m) c _ (by decide)).symm
  | ⟨1, _⟩ => exact (((dat0 (E1 m) c).arrAt_in 1 rfl _).trans (A_eq0 (E1 m) c 1)).trans (Gen.V2_of m (outs m) c _ (by decide)).symm
  | ⟨2, _⟩ =>
    show _ = Function.update (Gen.V1 m c) (Proc.devRef .tc main_v49) (outs m 2 main_v49 c) (Proc.devRef .tc main_v49)
    rw [Function.update_self]
    exact (W2_arr m c 2).symm
theorem hrest0 (c : Dev nD) : ∀ b, b ∉ Finset.univ.image (Pipeline.arrRef spec0) → E2 m c b = E1 m c b :=
  fun b hb => Gen.V2_of m (outs m) c b (fun h => hb (Finset.mem_image.mpr ⟨2, Finset.mem_univ _, (List.mem_singleton.mp h).symm⟩))

theorem hF1 (c : Dev nD) (w : Fin cfg1.W) : (dat1 (E3 m) c).arrAt w cfg1.N = E4 m c (Pipeline.arrRef spec1 w) := by
  match w with
  | ⟨0, _⟩ => exact (((dat1 (E3 m) c).arrAt_in 0 rfl _).trans (A_eq1 (E3 m) c 0)).trans (Gen.V4_of m (outs m) c _ (by decide)).symm
  | ⟨1, _⟩ => exact (((dat1 (E3 m) c).arrAt_in 1 rfl _).trans (A_eq1 (E3 m) c 1)).trans (Gen.V4_of m (outs m) c _ (by decide)).symm
  | ⟨2, _⟩ => exact (((dat1 (E3 m) c).arrAt_in 2 rfl _).trans (A_eq1 (E3 m) c 2)).trans (Gen.V4_of m (outs m) c _ (by decide)).symm
  | ⟨3, _⟩ => exact (((dat1 (E3 m) c).arrAt_in 3 rfl _).trans (A_eq1 (E3 m) c 3)).trans (Gen.V4_of m (outs m) c _ (by decide)).symm
  | ⟨4, _⟩ =>
    show _ = Function.update (Gen.V3 m (outs m) c) (Proc.devRef .tc main_v58) (outs m 4 main_v58 c) (Proc.devRef .tc main_v58)
    rw [Function.update_self]
    exact (W4_arr m c 4).symm
theorem hrest1 (c : Dev nD) : ∀ b, b ∉ Finset.univ.image (Pipeline.arrRef spec1) → E4 m c b = E3 m c b :=
  fun b hb => Gen.V4_of m (outs m) c b (fun h => hb (Finset.mem_image.mpr ⟨4, Finset.mem_univ _, (List.mem_singleton.mp h).symm⟩))

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (E1 m) c
  | ⟨1, _⟩ => fun c => dat1 (E3 m) c

/-- No core owes another anything: no level is assigned. -/
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- Region 0 over the thread state "every unscoped buffer at the boundary's contents, the generator register at some
    state, nothing owed": its arrays split out of the unscoped buffers at entry and put back at the exit contents. -/
def reg0 : Pipeline.RegionSeg (pcfgs (F := F)) Gen.adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (E1v m c) ∗ R c)
  post c := iprop(StableHlo.held (c : Thread nD τ) (Pipeline.ucRefs τ sig) (E2v m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays split out of the unscoped buffers at entry and put back at the exit contents. -/
def reg1 : Pipeline.RegionSeg (pcfgs (F := F)) Gen.adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (E3v m c) ∗ R c)
  post c := iprop(StableHlo.held (c : Thread nD τ) (Pipeline.ucRefs τ sig) (E4v m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

set_option backward.isDefEq.respectTransparency.types false in
/-- Every weakly fair execution of @main from memory `m` with zero counters terminates, nothing faulting, and every
    argument buffer ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Gen.frame_cond (F := F) m emb₁ () Variants.none L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl)
    (reg1 m) (fun _ => .rfl) (fun _ => .rfl)

end Cert.Kernel.Reg

end
-- ==== Proof.KiRegion0.lean ====
/-
  The first region (the aggregation kernel, grid of 8 row tiles) at arbitrary entry contents `V`:
  each window's block at a point, what the body leaves in the output block — its two stores, branch 0 and
  branch 1 of the [2, 512, 64] block, each the product of the point's [512, 4096] tile of the adjacency with one
  of the two stacked [4096, 64] matrices —, the body's triple, the proof data and the body obligation.
-/
import proofs.«159969_j68590627717599_1_alg».proof.Proof.Gen.KernelIdeal.Launch
import proofs.«159969_j68590627717599_1_alg».proof.Proof.Gen.KernelIdeal.Skeleton
import proofs.«159969_j68590627717599_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- the whole adjacency tile -/
abbrev ra0 : Rect S512x4096 := Rect.unit (s := S512x4096) ![0, 0] S512x4096.size inb_S512x4096_S512x4096_0_0
/-- branch 0 / branch 1 of the stacked matrices -/
abbrev rh0_0 : Rect S2x4096x64 := Rect.unit (s := S2x4096x64) ![0, 0, 0] S1x4096x64.size inb_S2x4096x64_S1x4096x64_0_0_0
abbrev rh0_1 : Rect S2x4096x64 := Rect.unit (s := S2x4096x64) ![1, 0, 0] S1x4096x64.size inb_S2x4096x64_S1x4096x64_1_0_0
/-- branch 0 / branch 1 of the output block -/
abbrev ro0_0 : Rect S2x512x64 := Rect.unit (s := S2x512x64) ![0, 0, 0] S1x512x64.size inb_S2x512x64_S1x512x64_0_0_0
abbrev ro0_1 : Rect S2x512x64 := Rect.unit (s := S2x512x64) ![1, 0, 0] S1x512x64.size inb_S2x512x64_S1x512x64_1_0_0

/-! ## What the body leaves in the output block -/

/-- The output block after the body, from the two input blocks: its two stores as pieces, last first. -/
def out0_2 (x0 : Vec F S512x4096 .f32) (x1 : Vec F S2x4096x64 .f32) : Vec F S2x512x64 .f32 :=
  View.canon [⟨ro0_1, k0_pay3 (View.ld x0 ra0) (View.ld x1 rh0_1)⟩, ⟨ro0_0, k0_pay2 (View.ld x0 ra0) (View.ld x1 rh0_0)⟩]

/-- The two stores tile the block, so they cover it. -/
theorem cover0_2 (p0 p1 : Vec F S1x512x64 .f32) (y : S2x512x64.Idx) :
    ∃ pc ∈ ([⟨ro0_1, p0⟩, ⟨ro0_0, p1⟩] : List (View.Piece (Elt F) S2x512x64 .f32)), y ∈ pc.1.set :=
  View.cover_of_tiled [⟨ro0_1, p0⟩, ⟨ro0_0, p1⟩] S1x512x64.size (by rfl) y

/-! ## The body's triple -/

set_option maxHeartbeats 1000000 in
/-- The body on whole staging memrefs, the inputs' at contents `x0`, `x1` and the output's at anything, runs to the
    continuation holding the inputs' as they were and the output's at `out0_2 x0 x1`. -/
theorem sound_kernel0 (c : Dev nD) (E : Set ℕ) (i : grid0.Coords) (arg1 : Memref sig .tc .vmem S512x4096 .f32) (harg1 : arg1.IsWhole)
    (arg2 : Memref sig .tc .vmem S2x4096x64 .f32) (harg2 : arg2.IsWhole) (arg3 : Memref sig .tc .vmem S2x512x64 .f32) (harg3 : arg3.IsWhole)
    (x0 : Vec F S512x4096 .f32) (x1 : Vec F S2x4096x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__agg_kernel i arg1 harg1 arg2 harg2 arg3 harg3) K := by
  simp only [cc0__agg_kernel_eq_skeleton]; unfold cc0__agg_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _)

/-! ## The proof data -/

/-- The proof data of the first pipeline on core `c`: the arrays as the region finds them; after the body each input's
    buffer at its block and the output's at `out0_2` of the input blocks; the scoped rest and the generator register
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Reg

end
-- ==== Proof.KiRegion1.lean ====
/-
  The second region (the attention kernel, grid of 32 row tiles) at arbitrary entry contents `V`: for each of
  the two branches the point's [128, 64] tile of Q times the whole Kᵀ, masked entrywise by the point's [128, 4096]
  tile of the adjacency, times the whole [4096, 64] hidden matrix — two stores, branch 0 and branch 1 of the
  [2, 128, 64] output block.
-/
import proofs.«159969_j68590627717599_1_alg».proof.Proof.Gen.KernelIdeal.Launch
import proofs.«159969_j68590627717599_1_alg».proof.Proof.Gen.KernelIdeal.Skeleton
import proofs.«159969_j68590627717599_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not
    fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- branch 0 / branch 1 of the Q tile, of K, of the hidden matrix, of the adjacency tile and of the output block -/
abbrev rq1_0 : Rect S2x128x64 := Rect.unit (s := S2x128x64) ![0, 0, 0] S1x128x64.size inb_S2x128x64_S1x128x64_0_0_0
abbrev rq1_1 : Rect S2x128x64 := Rect.unit (s := S2x128x64) ![1, 0, 0] S1x128x64.size inb_S2x128x64_S1x128x64_1_0_0
abbrev rk1_0 : Rect S2x4096x64 := Rect.unit (s := S2x4096x64) ![0, 0, 0] S1x4096x64.size inb_S2x4096x64_S1x4096x64_0_0_0
abbrev rk1_1 : Rect S2x4096x64 := Rect.unit (s := S2x4096x64) ![1, 0, 0] S1x4096x64.size inb_S2x4096x64_S1x4096x64_1_0_0
abbrev ra1_0 : Rect S2x128x4096 := Rect.unit (s := S2x128x4096) ![0, 0, 0] S1x128x4096.size inb_S2x128x4096_S1x128x4096_0_0_0
abbrev ra1_1 : Rect S2x128x4096 := Rect.unit (s := S2x128x4096) ![1, 0, 0] S1x128x4096.size inb_S2x128x4096_S1x128x4096_1_0_0

/-! ## What the body leaves in the output block -/

/-- The output block after the body, from the four input blocks (Q tile, K, hidden, adjacency tile): its two stores
    as pieces, last first. -/
def out1_4 (x0 : Vec F S2x128x64 .f32) (x1 : Vec F S2x4096x64 .f32) (x2 : Vec F S2x4096x64 .f32) (x3 : Vec F S2x128x4096 .f32) : Vec F S2x128x64 .f32 :=
  View.canon [⟨rq1_1, k1_pay1 (k1_pay3 (View.ld x0 rq1_1) (View.ld x1 rk1_1) (View.ld x3 ra1_1)) (View.ld x2 rk1_1)⟩,
    ⟨rq1_0, k1_pay2 (View.ld x0 rq1_0) (View.ld x1 rk1_0) (View.ld x3 ra1_0) (View.ld x2 rk1_0)⟩]

/-- The two stores tile the block, so they cover it. -/
theorem cover1_4 (p0 p1 : Vec F S1x128x64 .f32) (y : S2x128x64.Idx) :
    ∃ pc ∈ ([⟨rq1_1, p0⟩, ⟨rq1_0, p1⟩] : List (View.Piece (Elt F) S2x128x64 .f32)), y ∈ pc.1.set :=
  View.cover_of_tiled [⟨rq1_1, p0⟩, ⟨rq1_0, p1⟩] S1x128x64.size (by rfl) y

/-! ## The body's triple -/

set_option maxHeartbeats 1000000 in
/-- The body on whole staging memrefs, the inputs' at contents `x0 … x3` and the output's at anything, runs to the
    continuation holding the inputs' as they were and the output's at `out1_4 x0 x1 x2 x3`. -/
theorem sound_kernel1 (c : Dev nD) (E : Set ℕ) (i : grid1.Coords) (arg1 : Memref sig .tc .vmem S2x128x64 .f32) (harg1 : arg1.IsWhole)
    (arg2 : Memref sig .tc .vmem S2x4096x64 .f32) (harg2 : arg2.IsWhole) (arg3 : Memref sig .tc .vmem S2x4096x64 .f32) (harg3 : arg3.IsWhole)
    (arg4 : Memref sig .tc .vmem S2x128x4096 .f32) (harg4 : arg4.IsWhole) (arg5 : Memref sig .tc .vmem S2x128x64 .f32) (harg5 : arg5.IsWhole)
    (x0 : Vec F S2x128x64 .f32) (x1 : Vec F S2x4096x64 .f32) (x2 : Vec F S2x4096x64 .f32) (x3 : Vec F S2x128x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__attn_kernel i arg1 harg1 arg2 harg2 arg3 harg3 arg4 harg4 arg5 harg5) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover1_4 _ _)

/-! ## The proof data -/

/-- The proof data of the second pipeline on core `c`: the arrays as the region finds them; after the body each
    input's buffer at its block and the output's at `out1_4` of the input blocks; the scoped rest and the generator
    register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Reg

end
-- ==== Proof.KiSegs.lean ====
/-
  The run of @main over its eight items: the contents the two regions leave, every pipeline's proof data at its
  region's entry contents, each region as a segment between the thread states "every unscoped buffer at the
  boundary's contents", and the frame: every weakly fair execution terminates and every argument buffer ends as
  launched.
-/
import proofs.«159969_j68590627717599_1_alg».proof.Proof.KiRegion0
import proofs.«159969_j68590627717599_1_alg».proof.Proof.KiRegion1
import proofs.«159969_j68590627717599_1_alg».proof.Proof.Gen.KernelIdeal.Regions

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline.PerCore
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents at the regions' boundaries -/

/-- The first region's entry contents (after the first host stretch), as a valuation and read at the TensorCore's
    references. -/
abbrev E1v (c : Dev nD) : Valuation τ sig (Elt F) := Gen.V1 m c
abbrev E1 : (c : Dev nD) → (b : Ref sig .tc) → Buf (Elt F) ((c : Thread nD τ).loc b) := fun c b => Gen.V1 m c b

/-- At the first region's exit: its arrays at what the pipeline leaves (the inputs as entered, the output's write-backs
    folded), every other buffer as entered. -/
def W2 (c : Dev nD) : Valuation τ sig (Elt F) :=
  Pipeline.withArrays spec0 c (Gen.V1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w

/-- What the first region leaves, as the unknown the boundary valuations are written over. -/
def outsA : Gen.Outs (F := F) := fun _ r c => W2 m c r

/-- The second region's entry contents. -/
abbrev E3 : (c : Dev nD) → (b : Ref sig .tc) → Buf (Elt F) ((c : Thread nD τ).loc b) := fun c b => Gen.V3 m (outsA m) c b

def W4 (c : Dev nD) : Valuation τ sig (Elt F) :=
  Pipeline.withArrays spec1 c (Gen.V3 m (outsA m) c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w

/-- What the two regions leave: the first region's result buffer after item 1, the second's after item 3. -/
def outs : Gen.Outs (F := F) := fun J r c => if J ≤ 2 then W2 m c r else W4 m c r

theorem outs_2 (r : Ref sig .tc) (c : Dev nD) : outs m 2 r c = W2 m c r := rfl
theorem outs_4 (r : Ref sig .tc) (c : Dev nD) : outs m 4 r c = W4 m c r := rfl
theorem V3_outs (c : Dev nD) : Gen.V3 m (outs m) c = Gen.V3 m (outsA m) c := rfl

abbrev E2v (c : Dev nD) : Valuation τ sig (Elt F) := Gen.V2 m (outs m) c
abbrev E2 : (c : Dev nD) → (b : Ref sig .tc) → Buf (Elt F) ((c : Thread nD τ).loc b) := fun c b => Gen.V2 m (outs m) c b
abbrev E3v (c : Dev nD) : Valuation τ sig (Elt F) := Gen.V3 m (outsA m) c
abbrev E4v (c : Dev nD) : Valuation τ sig (Elt F) := Gen.V4 m (outs m) c
abbrev E4 : (c : Dev nD) → (b : Ref sig .tc) → Buf (Elt F) ((c : Thread nD τ).loc b) := fun c b => Gen.V4 m (outs m) c b

/-- At the first region's exit each of its arrays holds what the pipeline leaves, and every other buffer what it held
    at entry. -/
theorem hF0 (c : Dev nD) (w : Fin cfg0.W) : (dat0 (E1 m) c).arrAt w cfg0.N = E2 m c (Pipeline.arrRef spec0 w) := by
  match w with
  | ⟨0, _⟩ => exact (((dat0 (E1 m) c).arrAt_in 0 rfl _).trans (A_eq0 (E1 m) c 0)).trans (Gen.V2_of m (outs m) c _ (by decide)).symm
  | ⟨1, _⟩ => exact (((dat0 (E1 m) c).arrAt_in 1 rfl _).trans (A_eq0 (E1 m) c 1)).trans (Gen.V2_of m (outs m) c _ (by decide)).symm
  | ⟨2, _⟩ =>
    show _ = Function.update (Gen.V1 m c) (Proc.devRef .tc main_v49) (outs m 2 main_v49 c) (Proc.devRef .tc main_v49)
    rw [Function.update_self]
    exact (W2_arr m c 2).symm
theorem hrest0 (c : Dev nD) : ∀ b, b ∉ Finset.univ.image (Pipeline.arrRef spec0) → E2 m c b = E1 m c b :=
  fun b hb => Gen.V2_of m (outs m) c b (fun h => hb (Finset.mem_image.mpr ⟨2, Finset.mem_univ _, (List.mem_singleton.mp h).symm⟩))

theorem hF1 (c : Dev nD) (w : Fin cfg1.W) : (dat1 (E3 m) c).arrAt w cfg1.N = E4 m c (Pipeline.arrRef spec1 w) := by
  match w with
  | ⟨0, _⟩ => exact (((dat1 (E3 m) c).arrAt_in 0 rfl _).trans (A_eq1 (E3 m) c 0)).trans (Gen.V4_of m (outs m) c _ (by decide)).symm
  | ⟨1, _⟩ => exact (((dat1 (E3 m) c).arrAt_in 1 rfl _).trans (A_eq1 (E3 m) c 1)).trans (Gen.V4_of m (outs m) c _ (by decide)).symm
  | ⟨2, _⟩ => exact (((dat1 (E3 m) c).arrAt_in 2 rfl _).trans (A_eq1 (E3 m) c 2)).trans (Gen.V4_of m (outs m) c _ (by decide)).symm
  | ⟨3, _⟩ => exact (((dat1 (E3 m) c).arrAt_in 3 rfl _).trans (A_eq1 (E3 m) c 3)).trans (Gen.V4_of m (outs m) c _ (by decide)).symm
  | ⟨4, _⟩ =>
    show _ = Function.update (Gen.V3 m (outs m) c) (Proc.devRef .tc main_v58) (outs m 4 main_v58 c) (Proc.devRef .tc main_v58)
    rw [Function.update_self]
    exact (W4_arr m c 4).symm
theorem hrest1 (c : Dev nD) : ∀ b, b ∉ Finset.univ.image (Pipeline.arrRef spec1) → E4 m c b = E3 m c b :=
  fun b hb => Gen.V4_of m (outs m) c b (fun h => hb (Finset.mem_image.mpr ⟨4, Finset.mem_univ _, (List.mem_singleton.mp h).symm⟩))

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (E1 m) c
  | ⟨1, _⟩ => fun c => dat1 (E3 m) c

/-- No core owes another anything: no level is assigned. -/
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- Region 0 over the thread state "every unscoped buffer at the boundary's contents, the generator register at some
    state, nothing owed": its arrays split out of the unscoped buffers at entry and put back at the exit contents. -/
def reg0 : Pipeline.RegionSeg (pcfgs (F := F)) Gen.adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (E1v m c) ∗ R c)
  post c := iprop(StableHlo.held (c : Thread nD τ) (Pipeline.ucRefs τ sig) (E2v m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays split out of the unscoped buffers at entry and put back at the exit contents. -/
def reg1 : Pipeline.RegionSeg (pcfgs (F := F)) Gen.adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (E3v m c) ∗ R c)
  post c := iprop(StableHlo.held (c : Thread nD τ) (Pipeline.ucRefs τ sig) (E4v m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

set_option backward.isDefEq.respectTransparency.types false in
/-- Every weakly fair execution of @main from memory `m` with zero counters terminates, nothing faulting, and every
    argument buffer ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Gen.frame_cond (F := F) m emb₁ () Variants.none L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl)
    (reg1 m) (fun _ => .rfl) (fun _ => .rfl)

end Cert.KernelIdeal.Reg

end
-- ==== Proof.KiHostRun.lean ====
/-
  The kernel program's run, given one segment record per kernel region: every weakly fair execution of @main
  terminates, the result buffer holds what the last valuation says, and every argument buffer is as launched.
-/
import proofs.«159969_j68590627717599_1_alg».proof.Proof.Gen.KernelIdeal.Regions

set_option maxRecDepth 1048

noncomputable section

namespace Cert.KernelIdeal.HostV

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

-- the library theorem's implicit arguments are found by unifying its conclusion with this one, which takes unfolding
-- plain definitions in a metavariable's type
set_option backward.isDefEq.respectTransparency.types false in
/-- The run of @main, given the regions' records: it terminates, the result buffer `main_v85` holds the last
    valuation's value, and each argument buffer is as launched. -/
theorem run_cond (m : (ℓ : Loc nD τ sig) → Buf (Elt F) ℓ)
    {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c)) :
    θ_run defs (onTc (τ := τ) (main (F := F))) ⟨m, fun _ => 0, ρ⟩ (fun r => ∀ c : Dev nD,
      r.2.mem ((c.tc : Thread nD τ).loc main_v85) = V8 m outs c main_v85
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V8 m outs c))
    (hch := fun c => ⟨.rfl, hpre0 c, hpost0 c, hpre1 c, hpost1 c, .rfl, .rfl, .rfl, sep_mono .rfl (hE2 c)⟩)
    (hinit := ?_) (QY := fun c s => s.mem ((c.tc : Thread nD τ).loc main_v85) = V8 m outs c main_v85 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11))
    (hfin := fun c s' => ?_) (hQ := fun _ h => h)
  · -- the launch: the unscoped buffers are held at the launch valuation; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result buffer and each argument's buffer read off the last valuation
    unfold StableHlo.held
    iintro ⟨Hh, HSI⟩
    ihave Hr := (pointsTo_read_all (Pipeline.ucRefs τ sig) (fun b => ((c : Thread nD τ).1, b)) (V8 m outs c) s') $$ [Hh HSI]
    · isplitl [Hh] <;> iassumption
    icases Hr with ⟨%h, HSI⟩
    imodintro
    isplitr
    · ipureintro
      exact ⟨h (Proc.devRef .tc main_v85) (Finset.mem_filter.mpr ⟨StableHlo.devRef_mem_tcRefs main_v85, by decide⟩),
        (h (Proc.devRef .tc main_arg0) (Finset.mem_filter.mpr ⟨StableHlo.devRef_mem_tcRefs main_arg0, by decide⟩)).trans (V8_main_arg0 m outs c),
        (h (Proc.devRef .tc main_arg1) (Finset.mem_filter.mpr ⟨StableHlo.devRef_mem_tcRefs main_arg1, by decide⟩)).trans (V8_main_arg1 m outs c),
        (h (Proc.devRef .tc main_arg2) (Finset.mem_filter.mpr ⟨StableHlo.devRef_mem_tcRefs main_arg2, by decide⟩)).trans (V8_main_arg2 m outs c),
        (h (Proc.devRef .tc main_arg3) (Finset.mem_filter.mpr ⟨StableHlo.devRef_mem_tcRefs main_arg3, by decide⟩)).trans (V8_main_arg3 m outs c),
        (h (Proc.devRef .tc main_arg4) (Finset.mem_filter.mpr ⟨StableHlo.devRef_mem_tcRefs main_arg4, by decide⟩)).trans (V8_main_arg4 m outs c),
        (h (Proc.devRef .tc main_arg5) (Finset.mem_filter.mpr ⟨StableHlo.devRef_mem_tcRefs main_arg5, by decide⟩)).trans (V8_main_arg5 m outs c),
        (h (Proc.devRef .tc main_arg6) (Finset.mem_filter.mpr ⟨StableHlo.devRef_mem_tcRefs main_arg6, by decide⟩)).trans (V8_main_arg6 m outs c),
        (h (Proc.devRef .tc main_arg7) (Finset.mem_filter.mpr ⟨StableHlo.devRef_mem_tcRefs main_arg7, by decide⟩)).trans (V8_main_arg7 m outs c),
        (h (Proc.devRef .tc main_arg8) (Finset.mem_filter.mpr ⟨StableHlo.devRef_mem_tcRefs main_arg8, by decide⟩)).trans (V8_main_arg8 m outs c),
        (h (Proc.devRef .tc main_arg9) (Finset.mem_filter.mpr ⟨StableHlo.devRef_mem_tcRefs main_arg9, by decide⟩)).trans (V8_main_arg9 m outs c),
        (h (Proc.devRef .tc main_arg10) (Finset.mem_filter.mpr ⟨StableHlo.devRef_mem_tcRefs main_arg10, by decide⟩)).trans (V8_main_arg10 m outs c),
        (h (Proc.devRef .tc main_arg11) (Finset.mem_filter.mpr ⟨StableHlo.devRef_mem_tcRefs main_arg11, by decide⟩)).trans (V8_main_arg11 m outs c)⟩
    · iexact HSI

end Cert.KernelIdeal.HostV

end
-- ==== Proof.KiRunV.lean ====
/-
  The idealized kernel's run with its result named: every weakly fair execution of @main terminates with the result
  buffer at the last boundary's contents — the host operations after the second region applied to what that region
  leaves — and every argument buffer as launched.
-/
import proofs.«159969_j68590627717599_1_alg».proof.Proof.KiSegs
import proofs.«159969_j68590627717599_1_alg».proof.Proof.KiHostRun

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
theorem run_value (ρ : Dev nD → PrngReg) : θ_run defs (onTc (τ := τ) (main (F := F))) ⟨m, fun _ => 0, ρ⟩ (fun r => ∀ c : Dev nD,
      r.2.mem ((c.tc : Thread nD τ).loc main_v85) = Gen.V8 m (outs m) c main_v85
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Cert.KernelIdeal.HostV.run_cond (F := F) m emb₁ () Variants.none L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl)
    (reg1 m) (fun _ => .rfl) (fun _ => .rfl)

end Cert.KernelIdeal.Reg

end
-- ==== Proof.KMid.lean ====
/-
  The middle of the kernel program as whole-array functions at the extended reals.

  The two pallas regions leave, for each of the two stacked branches b:
    agg  a h   (b, r, j) = Σ_n a(r, n) · h(b, n, j)                              -- adj_att @ h_b
    attn q k h adj (b, r, j) = Σ_n ((Σ_d q(b, r, d) · k(b, n, d)) · adj(b, r, n)) · h(b, n, j)   -- ((Q_b K_bᵀ) ∘ adj_b) @ h_b
  and the host operations between and after them are: the stack of the two hidden matrices, the batched
  projections  o ↦ o · W_b + bias_b,  the row normalisation  o ↦ o / max(√(Σ_k o²), ε)  along the last axis,
  and the cut of one branch out of the stack.
-/
import proofs.«159969_j68590627717599_1_alg».proof.KernelIdeal
import proofs.«159969_j68590627717599_1_alg».proof.Proof.Gen.KernelIdeal
import Idealize.ShloMosaic.PureOps.Ideal
import Idealize.ShloMosaic.Lib.ValueIdx

noncomputable section

namespace Cert.KernelIdeal.Mid

open Idealize.ShloMosaic Idealize.ShloMosaic.ValueIdx Cert.KernelIdeal Cert.KernelIdeal.Facts₀ Cert.KernelIdeal.Facts

/-- An f32 array of shape `s` at the extended reals. -/
abbrev Arr (s : Shape) : Type := FVec Ideal s .f32

/-- What the first region computes: `a` times each of the two stacked matrices. -/
def agg (a : Arr S4096x4096) (h : Arr S2x4096x64) : Arr S2x4096x64 :=
  fun i => ∑ n : Fin 4096, a (ix2 (i 1) n) * h (ix3 (i 0) n (i 2))

/-- What the second region computes: the scores `q kᵀ` masked entrywise by `adj`, times `h`, branch by branch. -/
def attn (q k h : Arr S2x4096x64) (adj : Arr S2x4096x4096) : Arr S2x4096x64 :=
  fun i => ∑ n : Fin 4096,
    ((∑ d : Fin 64, q (ix3 (i 0) (i 1) d) * k (ix3 (i 0) n d)) * adj (ix3 (i 0) (i 1) n)) * h (ix3 (i 0) n (i 2))

/-- The two hidden matrices stacked along a new leading axis. -/
def stack (h1 h2 : Arr S4096x64) : Arr S2x4096x64 :=
  concatenate S2x4096x64 0
    [⟨S1x4096x64, broadcastInDim S1x4096x64 ![1, 2] bcast_S4096x64_S1x4096x64_1_2 h1⟩,
     ⟨S1x4096x64, broadcastInDim S1x4096x64 ![1, 2] bcast_S4096x64_S1x4096x64_1_2 h2⟩]
    concatenates_S1x4096x64_S1x4096x64_S2x4096x64_d0

/-- The batched projection `o_b · w_b + bias_b`. -/
def proj (o : Arr S2x4096x64) (w : Arr S2x64x64) (bias : Arr S2x64) : Arr S2x4096x64 :=
  addf (F := Ideal) (Host.dotGeneral (F := Ideal) dot_S2x4096x64_S2x64x64_S2x4096x64_2_1_1_2_0_0 none o w)
    (broadcastInDim S2x4096x64 ![0, 1, 2] bcast_S2x1x64_S2x4096x64_0_1_2
      (broadcastInDim S2x1x64 ![0, 2] bcast_S2x64_S2x1x64_0_2 bias))

/-- Each row divided by the larger of its Euclidean norm and ε. -/
def normalize (o : Arr S2x4096x64) : Arr S2x4096x64 :=
  Host.divf (F := Ideal) o
    (broadcastInDim S2x4096x64 ![0, 1, 2] bcast_S2x4096x1_S2x4096x64_0_1_2
      (maximumf (F := Ideal)
        (Host.sqrt (F := Ideal) (broadcastInDim S2x4096x1 ![0, 1] bcast_S2x4096_S2x4096x1_0_1
          (Host.reduceAdd (F := Ideal) (mulf (F := Ideal) o o) (constant (F := Ideal) S_ .f32 0x00000000#32) reducesTo_S2x4096x64_S2x4096_d2 h_S_)))
        (broadcastInDim S2x4096x1 ![] bcast_S_S2x4096x1 (constant (F := Ideal) S_ .f32 0x2B8CBCCC#32))))

/-- Branch 0 of a stack as a matrix. -/
def branch0 (o : Arr S2x4096x64) : Arr S4096x64 :=
  shapeCast _ (extractStridedSlice S1x4096x64 ![0, 0, 0] o slices_S2x4096x64_S1x4096x64_0_0_0) shapeCasts_S1x4096x64_S4096x64

/-- Branch 1 of a stack as a matrix. -/
def branch1 (o : Arr S2x4096x64) : Arr S4096x64 :=
  shapeCast _ (extractStridedSlice S1x4096x64 ![1, 0, 0] o slices_S2x4096x64_S1x4096x64_1_0_0) shapeCasts_S1x4096x64_S4096x64

/-- The whole middle: from the two hidden matrices to the normalised attention output of both branches. -/
def mid (a : Arr S4096x4096) (adj : Arr S2x4096x4096) (wq : Arr S2x64x64) (bq : Arr S2x64)
    (wk : Arr S2x64x64) (bk : Arr S2x64) (h1 h2 : Arr S4096x64) : Arr S2x4096x64 :=
  normalize (attn (proj (agg a (stack h1 h2)) wq bq) (proj (agg a (stack h1 h2)) wk bk) (stack h1 h2) adj)

end Cert.KernelIdeal.Mid

end
-- ==== Proof.KiHostDefs.lean ====
/-
  The kernel program's host operations as whole-array functions at the extended reals.

    mask att         = softmax of the three attention weights
    hidden k x w b   = x · w[k] + b[k]                         (the k-th hidden matrix, k = 0, 1, 2)
    rowNormalize h   = h / max(√(Σ_j h²), ε) row by row
    scaled k mk h    = mk[k] · h entrywise
    tail b0 mk o w2 b2 = log_softmax(relu([b0 | mk[1]·branch0(normalize o) | mk[2]·branch1(normalize o)]) · w2 + b2)
-/
import proofs.«159969_j68590627717599_1_alg».proof.Proof.KMid

noncomputable section

namespace Cert.KernelIdeal.HostV

open Idealize.ShloMosaic Cert.KernelIdeal Cert.KernelIdeal.Gen
open Cert.KernelIdeal.Mid (Arr)

/-- The attention weights shifted by their maximum and exponentiated. -/
def expShift (att : Arr S3) : Arr S3 :=
  Host.exp (F := Ideal) (subf (F := Ideal) att
    (broadcastInDim S3 ![0] bcast_S1_S3_0 (broadcastInDim S1 ![] bcast_S_S1
      (maximumf (F := Ideal) (constant (F := Ideal) S_ .f32 0xFF800000#32)
        (Host.reduce FloatOps.maximumf att (constant (F := Ideal) S_ .f32 0xFF800000#32) reducesTo_S3_S_d0 h_S_)))))

/-- The softmax of the three attention weights. -/
def mask (att : Arr S3) : Arr S3 :=
  Host.divf (F := Ideal) (expShift att)
    (broadcastInDim S3 ![0] bcast_S1_S3_0 (broadcastInDim S1 ![] bcast_S_S1
      (Host.reduceAdd (F := Ideal) (expShift att) (constant (F := Ideal) S_ .f32 0x00000000#32) reducesTo_S3_S_d0 h_S_)))

/-- One hidden matrix: `x` times the slice of the weights at offset `ow`, plus the slice of the biases at offset `ob`
    along every row. -/
def hidden (x : Arr S4096x256) (w : Arr S3x256x64) (b : Arr S3x64)
    (ow : Fin S3x256x64.rank → Nat) (hw : S3x256x64.Slices ow S1x256x64)
    (ob : Fin S3x64.rank → Nat) (hb : S3x64.Slices ob S1x64) : Arr S4096x64 :=
  addf (F := Ideal)
    (Host.dotGeneral (F := Ideal) dot_S4096x256_S256x64_S4096x64_1_0_0_1_n_n none x
      (shapeCast _ (extractStridedSlice S1x256x64 ow w hw) shapeCasts_S1x256x64_S256x64))
    (broadcastInDim S4096x64 ![0, 1] bcast_S1x64_S4096x64_0_1 (broadcastInDim S1x64 ![1] bcast_S64_S1x64_1
      (shapeCast _ (extractStridedSlice S1x64 ob b hb) shapeCasts_S1x64_S64)))

/-- The three hidden matrices. -/
def hidden0 (x : Arr S4096x256) (w : Arr S3x256x64) (b : Arr S3x64) : Arr S4096x64 :=
  hidden x w b ![0, 0, 0] slices_S3x256x64_S1x256x64_0_0_0 ![0, 0] slices_S3x64_S1x64_0_0
def hidden1 (x : Arr S4096x256) (w : Arr S3x256x64) (b : Arr S3x64) : Arr S4096x64 :=
  hidden x w b ![1, 0, 0] slices_S3x256x64_S1x256x64_1_0_0 ![1, 0] slices_S3x64_S1x64_1_0
def hidden2 (x : Arr S4096x256) (w : Arr S3x256x64) (b : Arr S3x64) : Arr S4096x64 :=
  hidden x w b ![2, 0, 0] slices_S3x256x64_S1x256x64_2_0_0 ![2, 0] slices_S3x64_S1x64_2_0

/-- Each row of a matrix divided by the larger of its Euclidean norm and ε. -/
def rowNormalize (h : Arr S4096x64) : Arr S4096x64 :=
  Host.divf (F := Ideal) h
    (broadcastInDim S4096x64 ![0, 1] bcast_S4096x1_S4096x64_0_1
      (maximumf (F := Ideal)
        (Host.sqrt (F := Ideal) (broadcastInDim S4096x1 ![0] bcast_S4096_S4096x1_0
          (Host.reduceAdd (F := Ideal) (mulf (F := Ideal) h h) (constant (F := Ideal) S_ .f32 0x00000000#32) reducesTo_S4096x64_S4096_d1 h_S_)))
        (broadcastInDim S4096x1 ![] bcast_S_S4096x1 (constant (F := Ideal) S_ .f32 0x2B8CBCCC#32))))

/-- A matrix scaled entrywise by the mask entry at offset `o`. -/
def scaled (o : Fin S3.rank → Nat) (ho : S3.Slices o S1) (mk : Arr S3) (h : Arr S4096x64) : Arr S4096x64 :=
  mulf (F := Ideal) (broadcastInDim S4096x64 ![] bcast_S_S4096x64 (shapeCast _ (extractStridedSlice S1 o mk ho) shapeCasts_S1_S_)) h

/-- The first block of columns of the concatenation: the normalised first hidden matrix scaled by the first mask entry. -/
def block0 (x : Arr S4096x256) (w : Arr S3x256x64) (b : Arr S3x64) (att : Arr S3) : Arr S4096x64 :=
  scaled ![0] slices_S3_S1_0 (mask att) (rowNormalize (hidden0 x w b))

/-- The logarithm of the softmax along every row. -/
def logSoftmax (z : Arr S4096x40) : Arr S4096x40 :=
  subf (F := Ideal)
    (subf (F := Ideal) z (broadcastInDim S4096x40 ![0, 1] bcast_S4096x1_S4096x40_0_1 (broadcastInDim S4096x1 ![0] bcast_S4096_S4096x1_0
      (maximumf (F := Ideal) (broadcastInDim S4096 ![] bcast_S_S4096 (constant (F := Ideal) S_ .f32 0xFF800000#32))
        (Host.reduce FloatOps.maximumf z (constant (F := Ideal) S_ .f32 0xFF800000#32) reducesTo_S4096x40_S4096_d1 h_S_)))))
    (broadcastInDim S4096x40 ![0, 1] bcast_S4096x1_S4096x40_0_1 (Host.log (F := Ideal) (broadcastInDim S4096x1 ![0] bcast_S4096_S4096x1_0
      (Host.reduceAdd (F := Ideal)
        (Host.exp (F := Ideal) (subf (F := Ideal) z (broadcastInDim S4096x40 ![0, 1] bcast_S4096x1_S4096x40_0_1 (broadcastInDim S4096x1 ![0] bcast_S4096_S4096x1_0
          (maximumf (F := Ideal) (broadcastInDim S4096 ![] bcast_S_S4096 (constant (F := Ideal) S_ .f32 0xFF800000#32))
            (Host.reduce FloatOps.maximumf z (constant (F := Ideal) S_ .f32 0xFF800000#32) reducesTo_S4096x40_S4096_d1 h_S_))))))
        (constant (F := Ideal) S_ .f32 0x00000000#32) reducesTo_S4096x40_S4096_d1 h_S_))))

/-- Three blocks of 64 columns side by side. -/
def concat3 (c0 c1 c2 : Arr S4096x64) : Arr S4096x192 :=
  concatenate S4096x192 1 [⟨S4096x64, c0⟩, ⟨S4096x64, c1⟩, ⟨S4096x64, c2⟩] concatenates_S4096x64_S4096x64_S4096x64_S4096x192_d1

/-- The larger of each entry and zero. -/
def relu (a : Arr S4096x192) : Arr S4096x192 :=
  maximumf (F := Ideal) a (broadcastInDim S4096x192 ![] bcast_S_S4096x192 (constant (F := Ideal) S_ .f32 0x00000000#32))

/-- The last product and its bias: `a · w2 + b2` along every row. -/
def dense (a : Arr S4096x192) (w2 : Arr S192x40) (b2 : Arr S40) : Arr S4096x40 :=
  addf (F := Ideal) (Host.dotGeneral (F := Ideal) dot_S4096x192_S192x40_S4096x40_1_0_0_1_n_n none a w2)
    (broadcastInDim S4096x40 ![0, 1] bcast_S1x40_S4096x40_0_1 (broadcastInDim S1x40 ![1] bcast_S40_S1x40_1 b2))

/-- The end of the program from the three blocks of columns: concatenate, relu, the last product, bias, log_softmax. -/
def head (c0 c1 c2 : Arr S4096x64) (w2 : Arr S192x40) (b2 : Arr S40) : Arr S4096x40 :=
  logSoftmax (dense (relu (concat3 c0 c1 c2)) w2 b2)

/-- The kernel program after its second region: the two branches of the stacked output `o` normalised, cut out, scaled
    by their mask entries, and the end of the program on the three blocks. -/
def tail (c0 : Arr S4096x64) (mk : Arr S3) (o : Arr S2x4096x64) (w2 : Arr S192x40) (b2 : Arr S40) : Arr S4096x40 :=
  head c0 (scaled ![1] slices_S3_S1_1 mk (Mid.branch0 (Mid.normalize o)))
    (scaled ![2] slices_S3_S1_2 mk (Mid.branch1 (Mid.normalize o))) w2 b2

end Cert.KernelIdeal.HostV

end
-- ==== Proof.LibNary3.lean ====
/-
  A host operation with THREE operand buffers, read in a host program's run.

  A straight-line host program's run leaves every buffer at the fold of the operations' results over the launch
  contents, and that fold is computed by rewriting each operation's result at its own buffer. For an operation whose
  operands are a FAMILY of buffers (a concatenation of several arrays) the general rule hands the operation's function
  the family `fun k => F (xs k)`, where the buffer `xs k` is no literal under the binder and no further rule applies to
  it. Nor can the contents be handed over inside the operation's function: a concatenation takes its pieces as a list
  together with a proof about that very list, and rewriting does not enter an argument that a later argument's type
  depends on. So for a literal family of three buffers the result is restated here as a three-argument application:
  the function that builds the family from three given contents (a selector, read by the operation at the literal
  positions 0, 1, 2) applied to the three buffers' contents, which stay ordinary arguments that the rewriting reaches.
  Unfolding the application and reading the selector at the literals are definitional steps, done afterwards. The same
  holds one size down: a concatenation of TWO arrays is an operation with two operand buffers whose function takes both
  into such a list, so the two-operand result is stated as a two-argument application as well.
-/
import Idealize.ShloMosaic.Lib.StableHlo.Run

noncomputable section

namespace Cert.LibNary3

open Idealize.ShloMosaic Idealize.ShloMosaic.StableHlo

/-- The family over `Fin 3` with the three given members. -/
abbrev sel3 {α : Fin 3 → Type} (a0 : α 0) (a1 : α 1) (a2 : α 2) : (k : Fin 3) → α k
  | ⟨0, _⟩ => a0
  | ⟨1, _⟩ => a1
  | ⟨2, _⟩ => a2

section
variable {α : Fin 3 → Type} (a0 : α 0) (a1 : α 1) (a2 : α 2)
theorem sel3_0 : sel3 a0 a1 a2 0 = a0 := rfl
theorem sel3_1 : sel3 a0 a1 a2 1 = a1 := rfl
theorem sel3_2 : sel3 a0 a1 a2 2 = a2 := rfl
end

/-- A function of two arguments applied to them. -/
def app2 {A0 A1 B : Type} (g : A0 → A1 → B) (a0 : A0) (a1 : A1) : B := g a0 a1

/-- A function of three arguments applied to them: the arguments stay in sight of a rewriting pass that the function's
    body may hide them from. -/
def app3 {A0 A1 A2 B : Type} (g : A0 → A1 → A2 → B) (a0 : A0) (a1 : A1) (a2 : A2) : B := g a0 a1 a2

variable {τ : Topo} {sig : RefSig} {Val : EltTy → Type}
variable {x0 x1 x2 y : Ref sig .tc}

/-- The result of a three-operand operation at its own result buffer: its function of the three operands' contents,
    each read at its own buffer. -/
theorem nary3_result
    (f : ((k : Fin 3) → ((![x0, x1, x2] : Fin 3 → Ref sig .tc) k).ty.Contents Val) → y.ty.Contents Val) (hxs hy)
    (F : Valuation τ sig Val) :
    (nary (τ := τ) ![x0, x1, x2] y f hxs hy).result F (Proc.devRef .tc y)
      = app3 (fun (a0 : x0.ty.Contents Val) (a1 : x1.ty.Contents Val) (a2 : x2.ty.Contents Val) =>
          f (sel3 (α := fun k => ((![x0, x1, x2] : Fin 3 → Ref sig .tc) k).ty.Contents Val) a0 a1 a2))
          (F (Proc.devRef .tc x0)) (F (Proc.devRef .tc x1)) (F (Proc.devRef .tc x2)) := by
  rw [nary_result]; unfold app3; congr 1; funext k; fin_cases k <;> rfl

/-- The same, stated for `simp`: the result buffer is not part of the pattern's key. -/
theorem nary3_result'
    (f : ((k : Fin 3) → ((![x0, x1, x2] : Fin 3 → Ref sig .tc) k).ty.Contents Val) → y.ty.Contents Val) (hxs hy)
    (F : Valuation τ sig Val) :
    (nary (τ := τ) ![x0, x1, x2] y f hxs hy).result F (no_index (Proc.devRef .tc y))
      = app3 (fun (a0 : x0.ty.Contents Val) (a1 : x1.ty.Contents Val) (a2 : x2.ty.Contents Val) =>
          f (sel3 (α := fun k => ((![x0, x1, x2] : Fin 3 → Ref sig .tc) k).ty.Contents Val) a0 a1 a2))
          (F (Proc.devRef .tc x0)) (F (Proc.devRef .tc x1)) (F (Proc.devRef .tc x2)) :=
  nary3_result f hxs hy F

/-- The result of a two-operand operation at its own result buffer, stated for `simp` as a two-argument application, so
    that the two operands' contents are evaluated before the operation's function takes them in. -/
theorem binary_result2' {a b : Ref sig .tc}
    (f : a.ty.Contents Val → b.ty.Contents Val → y.ty.Contents Val) (ha hb hy) (F : Valuation τ sig Val) :
    (binary (τ := τ) a b y f ha hb hy).result F (no_index (Proc.devRef .tc y))
      = app2 f (F (Proc.devRef .tc a)) (F (Proc.devRef .tc b)) :=
  binary_result a b y f ha hb hy F

/-- A called function's operations read and write their buffers through typed references, casting contents along the
    reference's type equation; a cast there and back is the identity. -/
theorem ofBuf_toBuf {T : BufTy} (x : StableHlo.TRef sig T) (v : T.Contents Val) : x.ofBuf (x.toBuf v) = v := by
  obtain ⟨r, rfl, _, _⟩ := x; rfl

/-- The fold of a literal operation list at a buffer, in one `simp` pass, for a list with a three-operand operation:
    the library's pass with the three-operand form in place of the general family form; then, definitionally, the
    applications unfolded, the selector read at its literal positions, and the casts of a called function's typed references
    there and back removed. -/
macro "after_results_simp3" : tactic =>
  `(tactic| (simp (disch := decide) only [after_cons, after_nil,
      nullary_result', unary_result', Cert.LibNary3.binary_result2', ternary_result', quaternary_result', reshape_result', nary4_result',
      Cert.LibNary3.nary3_result', unaryIndexed_result', binaryIndexed_result',
      nullary_result_ne', unary_result_ne', binary_result_ne', ternary_result_ne', quaternary_result_ne', reshape_result_ne',
      nary_result_ne', unaryIndexed_result_ne', binaryIndexed_result_ne']; try dsimp only [Cert.LibNary3.app2, Cert.LibNary3.app3, Cert.LibNary3.sel3_0, Cert.LibNary3.sel3_1, Cert.LibNary3.sel3_2]; try simp only [Cert.LibNary3.ofBuf_toBuf]))

end Cert.LibNary3

end
-- ==== Proof.KiHostRead.lean ====
/-
  The kernel program's host stretches read at the value level: what the buffers between @main's items hold, as the
  whole-array functions of the definitions module applied to the launch contents and to what the regions leave.
-/
import proofs.«159969_j68590627717599_1_alg».proof.Proof.Gen.KernelIdeal.Regions
import proofs.«159969_j68590627717599_1_alg».proof.Proof.KiHostDefs
import proofs.«159969_j68590627717599_1_alg».proof.Proof.LibNary3

set_option maxRecDepth 8192

noncomputable section

namespace Cert.KernelIdeal.HostV

open Idealize.ShloMosaic Idealize.ShloMosaic.TcCoe Idealize.SL.Sem Idealize.ShloMosaic.StableHlo
open Cert.KernelIdeal Cert.KernelIdeal.Gen Cert.LibNary3

/-! ## The stretches over an arbitrary valuation -/

/-- Contents carried to a typed reference's buffer type and back are unchanged. -/
theorem ofBuf_toBuf {T : BufTy} (x : TRef sig T) (v : T.Contents (Elt Ideal)) : x.ofBuf (x.toBuf v) = v := by
  obtain ⟨r, rfl, _, _⟩ := x; rfl

section Stretch

variable (W : Valuation τ sig (Elt Ideal))

/-- The first stretch leaves the two later hidden matrices stacked. -/
theorem after0_main_v48 : StableHlo.after hostOps0 W (Proc.devRef .tc main_v48)
    = Mid.stack (hidden1 (W main_arg0) (W main_arg3) (W main_arg4)) (hidden2 (W main_arg0) (W main_arg3) (W main_arg4)) := by
  dsimp only [hostOps0]
  after_results_simp3
  rfl

/-- The first stretch leaves the softmax of the attention weights. -/
theorem after0_main_v9 : StableHlo.after hostOps0 W (Proc.devRef .tc main_v9) = mask (W main_arg9) := by
  dsimp only [hostOps0]
  after_results_simp
  rfl

/-- The first stretch leaves the first block of columns. -/
theorem after0_main_v29 : StableHlo.after hostOps0 W (Proc.devRef .tc main_v29)
    = block0 (W main_arg0) (W main_arg3) (W main_arg4) (W main_arg9) := by
  dsimp only [hostOps0]
  after_results_simp
  rfl

/-- The stretch between the regions leaves the projection of the first region's output by the first pair of weights. -/
theorem after1_main_v53 : StableHlo.after hostOps1 W (Proc.devRef .tc main_v53)
    = Mid.proj (W main_v49) (W main_arg5) (W main_arg6) := by
  dsimp only [hostOps1]
  after_results
  rfl

/-- The stretch between the regions leaves the projection of the first region's output by the second pair of weights. -/
theorem after1_main_v57 : StableHlo.after hostOps1 W (Proc.devRef .tc main_v57)
    = Mid.proj (W main_v49) (W main_arg7) (W main_arg8) := by
  dsimp only [hostOps1]
  after_results
  rfl

/-- The stretch after the second region leaves the three blocks of columns side by side: the first block, and the two
    branches of the region's output normalised, cut out and scaled by their mask entries. -/
theorem after2_main_v79 : StableHlo.after hostOps2 W (Proc.devRef .tc main_v79)
    = concat3 (W main_v29)
        (scaled ![1] slices_S3_S1_1 (W main_v9) (Mid.branch0 (Mid.normalize (W main_v58))))
        (scaled ![2] slices_S3_S1_2 (W main_v9) (Mid.branch1 (Mid.normalize (W main_v58)))) := by
  dsimp only [hostOps2]
  after_results_simp3
  rfl

/-- The relu stretch. -/
theorem after2_1_main_v80 : StableHlo.after hostOps2_1 W (Proc.devRef .tc main_v80) = relu (W main_v79) := by
  dsimp only [hostOps2_1]
  after_results_simp
  simp only [ofBuf_toBuf]
  rfl

/-- The stretch of the last product and its bias. -/
theorem after2_2_main_v84 : StableHlo.after hostOps2_2 W (Proc.devRef .tc main_v84)
    = dense (W main_v80) (W main_arg10) (W main_arg11) := by
  dsimp only [hostOps2_2]
  after_results_simp
  rfl

/-- The log_softmax stretch. -/
theorem after2_3_main_v85 : StableHlo.after hostOps2_3 W (Proc.devRef .tc main_v85) = logSoftmax (W main_v84) := by
  dsimp only [hostOps2_3]
  after_results_simp
  simp only [ofBuf_toBuf]
  rfl

end Stretch

/-! ## The buffers between the items -/

variable (m : (ℓ : Loc nD τ sig) → Buf (Elt Ideal) ℓ) (outs : Outs (F := Ideal)) (c : Dev nD)

/-- The first region's output buffer holds what the region left there. -/
theorem V2_main_v49 : V2 m outs c main_v49 = outs 2 main_v49 c := by
  simp only [V2, Function.update_self]

/-- The second region's output buffer holds what the region left there. -/
theorem V4_main_v58 : V4 m outs c main_v58 = outs 4 main_v58 c := by
  simp only [V4, Function.update_self]

theorem V1_main_arg1 : V1 m c main_arg1 = m ((c : Thread nD τ).loc main_arg1) :=
  (V1_of m c main_arg1 (by decide)).trans rfl

theorem V3_main_arg2 : V3 m outs c main_arg2 = m ((c : Thread nD τ).loc main_arg2) :=
  (V3_of m outs c main_arg2 (by decide)).trans <| (V2_of m outs c main_arg2 (by decide)).trans <| (V1_of m c main_arg2 (by decide)).trans rfl

theorem V3_main_v48 : V3 m outs c main_v48 = V1 m c main_v48 :=
  (V3_of m outs c main_v48 (by decide)).trans (V2_of m outs c main_v48 (by decide))

theorem V2_main_arg5 : V2 m outs c main_arg5 = m ((c : Thread nD τ).loc main_arg5) :=
  (V2_of m outs c main_arg5 (by decide)).trans <| (V1_of m c main_arg5 (by decide)).trans rfl
theorem V2_main_arg6 : V2 m outs c main_arg6 = m ((c : Thread nD τ).loc main_arg6) :=
  (V2_of m outs c main_arg6 (by decide)).trans <| (V1_of m c main_arg6 (by decide)).trans rfl
theorem V2_main_arg7 : V2 m outs c main_arg7 = m ((c : Thread nD τ).loc main_arg7) :=
  (V2_of m outs c main_arg7 (by decide)).trans <| (V1_of m c main_arg7 (by decide)).trans rfl
theorem V2_main_arg8 : V2 m outs c main_arg8 = m ((c : Thread nD τ).loc main_arg8) :=
  (V2_of m outs c main_arg8 (by decide)).trans <| (V1_of m c main_arg8 (by decide)).trans rfl

/-- After the first stretch: the stack of the two later hidden matrices. -/
theorem V1_main_v48 : V1 m c main_v48
    = Mid.stack (hidden1 (m ((c : Thread nD τ).loc main_arg0)) (m ((c : Thread nD τ).loc main_arg3)) (m ((c : Thread nD τ).loc main_arg4)))
        (hidden2 (m ((c : Thread nD τ).loc main_arg0)) (m ((c : Thread nD τ).loc main_arg3)) (m ((c : Thread nD τ).loc main_arg4))) :=
  after0_main_v48 (V0 m c)

/-- After the first stretch: the mask. -/
theorem V1_main_v9 : V1 m c main_v9 = mask (m ((c : Thread nD τ).loc main_arg9)) :=
  after0_main_v9 (V0 m c)

/-- After the first stretch: the first block of columns. -/
theorem V1_main_v29 : V1 m c main_v29
    = block0 (m ((c : Thread nD τ).loc main_arg0)) (m ((c : Thread nD τ).loc main_arg3)) (m ((c : Thread nD τ).loc main_arg4))
        (m ((c : Thread nD τ).loc main_arg9)) :=
  after0_main_v29 (V0 m c)

/-- Before the second region: the projection by the first pair of weights. -/
theorem V3_main_v53 : V3 m outs c main_v53
    = Mid.proj (outs 2 main_v49 c) (m ((c : Thread nD τ).loc main_arg5)) (m ((c : Thread nD τ).loc main_arg6)) := by
  rw [← V2_main_v49 m outs c, ← V2_main_arg5 m outs c, ← V2_main_arg6 m outs c]
  exact after1_main_v53 (V2 m outs c)

/-- Before the second region: the projection by the second pair of weights. -/
theorem V3_main_v57 : V3 m outs c main_v57
    = Mid.proj (outs 2 main_v49 c) (m ((c : Thread nD τ).loc main_arg7)) (m ((c : Thread nD τ).loc main_arg8)) := by
  rw [← V2_main_v49 m outs c, ← V2_main_arg7 m outs c, ← V2_main_arg8 m outs c]
  exact after1_main_v57 (V2 m outs c)

/-- The result buffer at the end: the tail of the program applied to the first block, the mask and what the second
    region left. -/
theorem V8_main_v85 : V8 m outs c main_v85
    = tail (V1 m c main_v29) (V1 m c main_v9) (outs 4 main_v58 c)
        (m ((c : Thread nD τ).loc main_arg10)) (m ((c : Thread nD τ).loc main_arg11)) := by
  have h29 : V4 m outs c main_v29 = V1 m c main_v29 :=
    (V4_of m outs c main_v29 (by decide)).trans <| (V3_of m outs c main_v29 (by decide)).trans (V2_of m outs c main_v29 (by decide))
  have h9 : V4 m outs c main_v9 = V1 m c main_v9 :=
    (V4_of m outs c main_v9 (by decide)).trans <| (V3_of m outs c main_v9 (by decide)).trans (V2_of m outs c main_v9 (by decide))
  have h10 : V6 m outs c main_arg10 = m ((c : Thread nD τ).loc main_arg10) :=
    (V6_of m outs c main_arg10 (by decide)).trans <| (V5_of m outs c main_arg10 (by decide)).trans <| (V4_of m outs c main_arg10 (by decide)).trans <| (V3_of m outs c main_arg10 (by decide)).trans <| (V2_of m outs c main_arg10 (by decide)).trans <| (V1_of m c main_arg10 (by decide)).trans rfl
  have h11 : V6 m outs c main_arg11 = m ((c : Thread nD τ).loc main_arg11) :=
    (V6_of m outs c main_arg11 (by decide)).trans <| (V5_of m outs c main_arg11 (by decide)).trans <| (V4_of m outs c main_arg11 (by decide)).trans <| (V3_of m outs c main_arg11 (by decide)).trans <| (V2_of m outs c main_arg11 (by decide)).trans <| (V1_of m c main_arg11 (by decide)).trans rfl
  unfold tail head
  refine (after2_3_main_v85 (V7 m outs c)).trans (congrArg logSoftmax ?_)
  refine (after2_2_main_v84 (V6 m outs c)).trans ?_
  rw [h10, h11]
  refine congrArg (fun a => dense a _ _) ?_
  refine (after2_1_main_v80 (V5 m outs c)).trans (congrArg relu ?_)
  refine (after2_main_v79 (V4 m outs c)).trans ?_
  rw [h29, h9, V4_main_v58 m outs c]

end Cert.KernelIdeal.HostV

end
-- ==== Proof.KiHostRef.lean ====
/-
  The kernel program's host side against the reference program's stages. Both programs apply the same host
  operations before the first region's inputs and after the second region's outputs; here the reference's stage
  functions are identified with the kernel-side whole-array functions, and the kernel's result buffer with the
  reference's result, given that the two normalised attention branches agree.
-/
import proofs.«159969_j68590627717599_1_alg».proof.Proof.KiHostRead
import proofs.«159969_j68590627717599_1_alg».proof.Proof.RefRead

set_option maxRecDepth 8192

noncomputable section

namespace Cert.KernelIdeal.HostV

open Idealize.ShloMosaic Idealize.ShloMosaic.TcCoe Idealize.SL.Sem
open Cert.KernelIdeal Cert.KernelIdeal.Gen
open Cert.KernelIdeal.Mid (Arr)
open Cert.ReferenceIdeal.Read

/-! ## The reference's stages as the kernel-side functions -/

section Stages

variable (x0 : Arr S4096x256) (x1 : Arr S4096x4096) (x2 : Arr S2x4096x4096) (x3 : Arr S3x256x64) (x4 : Arr S3x64)
  (x5 : Arr S2x64x64) (x6 : Arr S2x64) (x7 : Arr S2x64x64) (x8 : Arr S2x64) (x9 : Arr S3) (x10 : Arr S192x40) (x11 : Arr S40)

/-- The reference's mask is the kernel's. -/
theorem mask_eq : mask x9 = val_main_v9 (F := Ideal) x9 := rfl

/-- The reference's three hidden matrices are the kernel's. -/
theorem hidden0_eq : hidden0 x0 x3 x4 = val_main_v17 (F := Ideal) x0 x3 x4 := rfl
theorem hidden1_eq : hidden1 x0 x3 x4 = val_main_v37 (F := Ideal) x0 x3 x4 := rfl
theorem hidden2_eq : hidden2 x0 x3 x4 = val_main_v80 (F := Ideal) x0 x3 x4 := rfl

/-- The reference's row normalisation of the first hidden matrix. -/
theorem rowNormalize_eq : rowNormalize (val_main_v17 (F := Ideal) x0 x3 x4) = val_main_v25 (F := Ideal) x0 x3 x4 := rfl

/-- The reference's first block of columns is the kernel's. -/
theorem block0_eq : block0 x0 x3 x4 x9 = val_main_v29 (F := Ideal) x0 x3 x4 x9 := by
  unfold block0
  rw [hidden0_eq, rowNormalize_eq, mask_eq]
  rfl

/-- The reference's scaling of its two normalised attention outputs by their mask entries. -/
theorem scaled1_eq : scaled ![1] slices_S3_S1_1 (val_main_v9 (F := Ideal) x9) (val_main_v68 (F := Ideal) x0 x1 x2 x3 x4 x5 x6 x7 x8)
    = val_main_v72 (F := Ideal) x0 x1 x2 x3 x4 x5 x6 x7 x8 x9 := rfl
theorem scaled2_eq : scaled ![2] slices_S3_S1_2 (val_main_v9 (F := Ideal) x9) (val_main_v111 (F := Ideal) x0 x1 x2 x3 x4 x5 x6 x7 x8)
    = val_main_v115 (F := Ideal) x0 x1 x2 x3 x4 x5 x6 x7 x8 x9 := rfl

/-- The reference's concatenation, relu, last product with bias, and log_softmax. -/
theorem concat3_eq : concat3 (val_main_v29 (F := Ideal) x0 x3 x4 x9) (val_main_v72 (F := Ideal) x0 x1 x2 x3 x4 x5 x6 x7 x8 x9) (val_main_v115 (F := Ideal) x0 x1 x2 x3 x4 x5 x6 x7 x8 x9)
    = val_main_v116 (F := Ideal) x0 x1 x2 x3 x4 x5 x6 x7 x8 x9 := rfl
theorem relu_eq : relu (val_main_v116 (F := Ideal) x0 x1 x2 x3 x4 x5 x6 x7 x8 x9) = val_main_v117 (F := Ideal) x0 x1 x2 x3 x4 x5 x6 x7 x8 x9 := rfl
theorem dense_eq : dense (val_main_v117 (F := Ideal) x0 x1 x2 x3 x4 x5 x6 x7 x8 x9) x10 x11 = val_main_v121 (F := Ideal) x0 x1 x2 x3 x4 x5 x6 x7 x8 x9 x10 x11 := rfl
theorem logSoftmax_eq : logSoftmax (val_main_v121 (F := Ideal) x0 x1 x2 x3 x4 x5 x6 x7 x8 x9 x10 x11) = val_main_v122 (F := Ideal) x0 x1 x2 x3 x4 x5 x6 x7 x8 x9 x10 x11 := rfl

/-- The kernel's tail on the reference's normalised attention outputs is the reference's result. -/
theorem tail_ref (o : Arr S2x4096x64)
    (h0 : Mid.branch0 (Mid.normalize o) = val_main_v68 (F := Ideal) x0 x1 x2 x3 x4 x5 x6 x7 x8)
    (h1 : Mid.branch1 (Mid.normalize o) = val_main_v111 (F := Ideal) x0 x1 x2 x3 x4 x5 x6 x7 x8) :
    tail (block0 x0 x3 x4 x9) (mask x9) o x10 x11 = val_main_v122 (F := Ideal) x0 x1 x2 x3 x4 x5 x6 x7 x8 x9 x10 x11 := by
  unfold tail head
  rw [h0, h1, block0_eq, mask_eq, scaled1_eq, scaled2_eq, concat3_eq, relu_eq, dense_eq, logSoftmax_eq]

end Stages

/-! ## The kernel's buffers against the reference's stages -/

variable (m : (ℓ : Loc nD τ sig) → Buf (Elt Ideal) ℓ) (outs : Outs (F := Ideal)) (c : Dev nD)

/-- After the first stretch the stacked buffer holds the stack of the reference's two later hidden matrices. -/
theorem V1_main_v48_ref : V1 m c main_v48
    = Mid.stack (val_main_v37 (F := Ideal) (m ((c : Thread nD τ).loc main_arg0)) (m ((c : Thread nD τ).loc main_arg3)) (m ((c : Thread nD τ).loc main_arg4)))
        (val_main_v80 (F := Ideal) (m ((c : Thread nD τ).loc main_arg0)) (m ((c : Thread nD τ).loc main_arg3)) (m ((c : Thread nD τ).loc main_arg4))) :=
  V1_main_v48 m c

/-- THE TAIL. If the two branches of the second region's output, normalised, are the reference's two normalised
    attention outputs, the kernel's result buffer holds the reference's result. -/
theorem tail_eq
    (h0 : Mid.branch0 (Mid.normalize (outs 4 main_v58 c))
      = val_main_v68 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)))
    (h1 : Mid.branch1 (Mid.normalize (outs 4 main_v58 c))
      = val_main_v111 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))) :
    V8 m outs c main_v85
      = val_main_v122 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) := by
  rw [V8_main_v85 m outs c, V1_main_v29 m c, V1_main_v9 m c]
  exact tail_ref _ _ _ _ _ _ _ _ _ _ _ _ _ h0 h1

end Cert.KernelIdeal.HostV

end
-- ==== Proof.KiRegValPay0.lean ====
/-
  The first region's two stored values read at an index: each is the product of the [512, 4096] adjacency tile with one
  [4096, 64] matrix (given with a leading unit axis), itself stored with a leading unit axis.
-/
import proofs.«159969_j68590627717599_1_alg».proof.Proof.Gen.KernelIdeal.Skeleton
import Idealize.ShloMosaic.Lib.ValueLayout
import Idealize.ShloMosaic.PureOps.Ideal.Laws

noncomputable section

namespace Cert.KernelIdeal.RegVal

open Idealize.ShloMosaic Idealize.ShloMosaic.ValueIdx Cert.KernelIdeal Cert.KernelIdeal.Gen

/-- The operand indices of the [512, 4096] × [4096, 64] product at output entry i and contraction index k. -/
theorem lhs_512_0 (i : S512x64.Idx) (k : dot_S512x4096_S4096x64_S512x64_1_0_0_1_n_n.contr.Idx) :
    (dot_S512x4096_S4096x64_S512x64_1_0_0_1_n_n.lhsIdx i k 0).val = (i 0).val := by
  unfold DotDims.lhsIdx
  rw [dif_neg (show ¬(0 : Fin S512x4096.rank) ∈ dot_S512x4096_S4096x64_S512x64_1_0_0_1_n_n.lhsBatch by decide), dif_pos (show (0 : Fin S512x4096.rank) ∈ dot_S512x4096_S4096x64_S512x64_1_0_0_1_n_n.lhsNonContracting by decide)]
  rfl
theorem lhs_512_1 (i : S512x64.Idx) (k : dot_S512x4096_S4096x64_S512x64_1_0_0_1_n_n.contr.Idx) :
    (dot_S512x4096_S4096x64_S512x64_1_0_0_1_n_n.lhsIdx i k 1).val = (k ⟨0, by decide⟩).val :=
  dot_S512x4096_S4096x64_S512x64_1_0_0_1_n_n.lhsIdx_val_of_single rfl i k
theorem rhs_512_0 (i : S512x64.Idx) (k : dot_S512x4096_S4096x64_S512x64_1_0_0_1_n_n.contr.Idx) :
    (dot_S512x4096_S4096x64_S512x64_1_0_0_1_n_n.rhsIdx i k 0).val = (k ⟨0, by decide⟩).val :=
  dot_S512x4096_S4096x64_S512x64_1_0_0_1_n_n.rhsIdx_val_of_single rfl i k
theorem rhs_512_1 (i : S512x64.Idx) (k : dot_S512x4096_S4096x64_S512x64_1_0_0_1_n_n.contr.Idx) :
    (dot_S512x4096_S4096x64_S512x64_1_0_0_1_n_n.rhsIdx i k 1).val = (i 1).val := by
  unfold DotDims.rhsIdx
  rw [dif_neg (show ¬(1 : Fin S4096x64.rank) ∈ dot_S512x4096_S4096x64_S512x64_1_0_0_1_n_n.rhsBatch by decide), dif_pos (show (1 : Fin S4096x64.rank) ∈ dot_S512x4096_S4096x64_S512x64_1_0_0_1_n_n.rhsNonContracting by decide)]
  rfl

/-- The [512, 4096] × [4096, 64] product into a zero accumulator, entry (p, q): the sum over the 4096 columns. -/
theorem matmul_512_apply (a : FVec Ideal S512x4096 .bf16) (b : FVec Ideal S4096x64 .bf16) (p : Fin 512) (q : Fin 64) :
    matmul dot_S512x4096_S4096x64_S512x64_1_0_0_1_n_n none a b (constant (F := Ideal) S512x64 .f32 0x00000000#32) (ix2 p q)
      = ∑ n : Fin 4096, a (ix2 p n) * b (ix2 n q) := by
  refine (Ideal.matmul_constant_zero_apply dot_S512x4096_S4096x64_S512x64_1_0_0_1_n_n none a b (ix2 p q)).trans ?_
  rw [← Equiv.sum_comp (contrEquiv1 dot_S512x4096_S4096x64_S512x64_1_0_0_1_n_n 4096 rfl rfl).symm]
  refine Finset.sum_congr rfl fun k _ => ?_
  have hk := contrEquiv1_symm_val dot_S512x4096_S4096x64_S512x64_1_0_0_1_n_n 4096 rfl rfl k
  have el : dot_S512x4096_S4096x64_S512x64_1_0_0_1_n_n.lhsIdx (ix2 p q) ((contrEquiv1 dot_S512x4096_S4096x64_S512x64_1_0_0_1_n_n 4096 rfl rfl).symm k) = ix2 p k :=
    funext fun a => Fin.ext (by
      match a with
      | ⟨0, _⟩ => exact lhs_512_0 _ _
      | ⟨1, _⟩ => exact (lhs_512_1 _ _).trans hk)
  have er : dot_S512x4096_S4096x64_S512x64_1_0_0_1_n_n.rhsIdx (ix2 p q) ((contrEquiv1 dot_S512x4096_S4096x64_S512x64_1_0_0_1_n_n 4096 rfl rfl).symm k) = ix2 k q :=
    funext fun a => Fin.ext (by
      match a with
      | ⟨0, _⟩ => exact (rhs_512_0 _ _).trans hk
      | ⟨1, _⟩ => exact rhs_512_1 _ _)
  rw [el, er]

/-- Branch 0's stored value at (u, p, q): row p of the tile against column q of the matrix. -/
theorem pay0_2_apply (x0 : Vec Ideal S512x4096 .f32) (x1 : Vec Ideal S1x4096x64 .f32) (u : Fin 1) (p : Fin 512) (q : Fin 64) :
    k0_pay2 (F := Ideal) x0 x1 (ix3 u p q) = ∑ n : Fin 4096, x0 (ix2 p n) * x1 (ix3 (0 : Fin 1) n q) := by
  unfold k0_pay2 k0_pay1
  refine (shapeCast_ab_1ab_apply _ shapeCasts_S512x64_S1x512x64 u p q).trans ?_
  refine (matmul_512_apply _ _ p q).trans ?_
  refine Finset.sum_congr rfl fun n _ => ?_
  exact congrArg (x0 (ix2 p n) * ·) (shapeCast_1ab_ab_apply x1 shapeCasts_S1x4096x64_S4096x64 n q)

/-- Branch 1's stored value at (u, p, q): the same product with the other matrix. -/
theorem pay0_3_apply (x0 : Vec Ideal S512x4096 .f32) (x1 : Vec Ideal S1x4096x64 .f32) (u : Fin 1) (p : Fin 512) (q : Fin 64) :
    k0_pay3 (F := Ideal) x0 x1 (ix3 u p q) = ∑ n : Fin 4096, x0 (ix2 p n) * x1 (ix3 (0 : Fin 1) n q) := by
  unfold k0_pay3 k0_pay1
  refine (shapeCast_ab_1ab_apply _ shapeCasts_S512x64_S1x512x64 u p q).trans ?_
  refine (matmul_512_apply _ _ p q).trans ?_
  refine Finset.sum_congr rfl fun n _ => ?_
  exact congrArg (x0 (ix2 p n) * ·) (shapeCast_1ab_ab_apply x1 shapeCasts_S1x4096x64_S4096x64 n q)

end Cert.KernelIdeal.RegVal

end
-- ==== Proof.KiRegVal0.lean ====
/-
  What the first region leaves in its result array, as one function of the arrays it finds.
  The body's two stores fill the [2, 512, 64] output block with  (b, p, q) ↦ Σ_n tile(p, n) · stack(b, n, q);
  at point t the tile holds rows 512 t … 512 t + 511 of the adjacency and the second block is the whole stack, and the
  output block sits at rows 512 t … of both branches; the 8 points' blocks tile the [2, 4096, 64] array, so it ends
  holding  (b, r, j) ↦ Σ_n a(r, n) · h(b, n, j).
-/
import proofs.«159969_j68590627717599_1_alg».proof.Proof.KiRegion0
import proofs.«159969_j68590627717599_1_alg».proof.Proof.KMid
import proofs.«159969_j68590627717599_1_alg».proof.Proof.KiRegValPay0
import Idealize.ShloMosaic.Lib.Pipeline.Value

noncomputable section

namespace Cert.KernelIdeal.RegVal

open Idealize.ShloMosaic Idealize.ShloMosaic.ValueIdx Idealize.ShloMosaic.TcCoe Idealize.SL.Sem
open Idealize.ShloMosaic.Pipeline (Dat)
open Cert.KernelIdeal Cert.KernelIdeal.Gen

/-- Entry (b, p, q) of the output block as a function of the two input blocks: row p of the adjacency tile against
    column q of stacked matrix b. -/
def aggBlk (x0 : Vec Ideal S512x4096 .f32) (x1 : Vec Ideal S2x4096x64 .f32) : Vec Ideal S2x512x64 .f32 :=
  fun y => ∑ n : Fin 4096, x0 (ix2 (y 1) n) * x1 (ix3 (y 0) n (y 2))

theorem ra0_idx (p : Fin 512) (n : Fin 4096) : Reg.ra0.idx (ix2 p n) = ix2 p n :=
  funext fun a => Fin.ext (by
    match a with
    | ⟨0, _⟩ => show 0 + 1 * p.val = p.val; omega
    | ⟨1, _⟩ => show 0 + 1 * n.val = n.val; omega)

theorem rh0_idx_0 (u : Fin 1) (n : Fin 4096) (q : Fin 64) : Reg.rh0_0.idx (ix3 u n q) = ix3 (0 : Fin 2) n q :=
  funext fun a => Fin.ext (by
    match a with
    | ⟨0, _⟩ => show 0 + 1 * u.val = 0; omega
    | ⟨1, _⟩ => show 0 + 1 * n.val = n.val; omega
    | ⟨2, _⟩ => show 0 + 1 * q.val = q.val; omega)

theorem rh0_idx_1 (u : Fin 1) (n : Fin 4096) (q : Fin 64) : Reg.rh0_1.idx (ix3 u n q) = ix3 (1 : Fin 2) n q :=
  funext fun a => Fin.ext (by
    match a with
    | ⟨0, _⟩ => show 1 + 1 * u.val = 1; omega
    | ⟨1, _⟩ => show 0 + 1 * n.val = n.val; omega
    | ⟨2, _⟩ => show 0 + 1 * q.val = q.val; omega)

theorem ro0_emb_0 (u : Fin 1) (p : Fin 512) (q : Fin 64) : Reg.ro0_0.emb (ix3 u p q) = ix3 (0 : Fin 2) p q :=
  funext fun a => Fin.ext (by
    match a with
    | ⟨0, _⟩ => show 0 + 1 * u.val = 0; omega
    | ⟨1, _⟩ => show 0 + 1 * p.val = p.val; omega
    | ⟨2, _⟩ => show 0 + 1 * q.val = q.val; omega)

theorem ro0_emb_1 (u : Fin 1) (p : Fin 512) (q : Fin 64) : Reg.ro0_1.emb (ix3 u p q) = ix3 (1 : Fin 2) p q :=
  funext fun a => Fin.ext (by
    match a with
    | ⟨0, _⟩ => show 1 + 1 * u.val = 1; omega
    | ⟨1, _⟩ => show 0 + 1 * p.val = p.val; omega
    | ⟨2, _⟩ => show 0 + 1 * q.val = q.val; omega)

/-- The body's two stores leave exactly that function in the output block. -/
theorem out0_2_eq (x0 : Vec Ideal S512x4096 .f32) (x1 : Vec Ideal S2x4096x64 .f32) :
    Reg.out0_2 (F := Ideal) x0 x1 = aggBlk x0 x1 := by
  funext y
  unfold Reg.out0_2
  refine View.canon_apply_of_pieces (aggBlk x0 x1) _ ?_ y (Reg.cover0_2 _ _ y)
  intro pc hpc x
  simp only [List.mem_cons, List.not_mem_nil, or_false] at hpc
  rcases hpc with rfl | rfl
  · obtain ⟨u, p, q, rfl⟩ : ∃ (u : Fin 1) (p : Fin 512) (q : Fin 64), x = ix3 u p q := ⟨x 0, x 1, x 2, eq_ix3 x⟩
    show k0_pay3 (F := Ideal) (View.ld x0 Reg.ra0) (View.ld x1 Reg.rh0_1) (ix3 u p q) = aggBlk x0 x1 (Reg.ro0_1.emb (ix3 u p q))
    rw [ro0_emb_1]
    refine (pay0_3_apply _ _ u p q).trans (Finset.sum_congr rfl fun n _ => ?_)
    show x0 (Reg.ra0.idx (ix2 p n)) * x1 (Reg.rh0_1.idx (ix3 (0 : Fin 1) n q)) = x0 (ix2 p n) * x1 (ix3 (1 : Fin 2) n q)
    rw [ra0_idx, rh0_idx_1]
  · obtain ⟨u, p, q, rfl⟩ : ∃ (u : Fin 1) (p : Fin 512) (q : Fin 64), x = ix3 u p q := ⟨x 0, x 1, x 2, eq_ix3 x⟩
    show k0_pay2 (F := Ideal) (View.ld x0 Reg.ra0) (View.ld x1 Reg.rh0_0) (ix3 u p q) = aggBlk x0 x1 (Reg.ro0_0.emb (ix3 u p q))
    rw [ro0_emb_0]
    refine (pay0_2_apply _ _ u p q).trans (Finset.sum_congr rfl fun n _ => ?_)
    show x0 (Reg.ra0.idx (ix2 p n)) * x1 (Reg.rh0_0.idx (ix3 (0 : Fin 1) n q)) = x0 (ix2 p n) * x1 (ix3 (0 : Fin 2) n q)
    rw [ra0_idx, rh0_idx_0]

variable (V : (c : Dev nD) → (b : Ref sig .tc) → Buf (Elt Ideal) ((c : Thread nD τ).loc b))

/-- The printed index maps over the 8 points: the adjacency tile and the output block move along the rows with the
    point; the stack stays whole. -/
theorem idx_facts0 : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = t.val ∧ win0_2.index t (2 : Fin 3) = 0 :=
  (by decide +kernel : ∀ t : Fin grid0.N, _)

/-- The adjacency tile at point t holds rows 512 t … 512 t + 511 of the adjacency. -/
theorem iblk0_0_apply (c : Dev nD) (t : Fin cfg0.N) (p : Fin 512) (n : Fin 4096) (k : S4096x4096.Idx)
    (hk0 : (k 0).val = t.val * 512 + p.val) (hk1 : (k 1).val = n.val) :
    (Reg.iblk0 V c 0 t : Vec Ideal S512x4096 .f32) (ix2 p n) = (V c main_arg1 : S4096x4096.Idx → EReal) k := by
  obtain ⟨e0, e1, -⟩ := idx_facts0 t
  unfold Reg.iblk0
  rw [View.read_apply]
  show (V c main_arg1 : S4096x4096.Idx → EReal) _ = _
  refine congrArg _ (funext fun a => Fin.ext ?_)
  match a with
  | ⟨0, _⟩ => show win0_0.index t (0 : Fin 2) * 512 + 1 * p.val = (k 0).val; rw [e0, hk0]; omega
  | ⟨1, _⟩ => show win0_0.index t (1 : Fin 2) * 4096 + 1 * n.val = (k 1).val; rw [e1, hk1]; omega

/-- The stack's block at every point is the whole stack. -/
theorem iblk0_1_apply (c : Dev nD) (t : Fin cfg0.N) (b : Fin 2) (n : Fin 4096) (q : Fin 64) :
    (Reg.iblk0 V c 1 t : Vec Ideal S2x4096x64 .f32) (ix3 b n q) = (V c main_v48 : S2x4096x64.Idx → EReal) (ix3 b n q) := by
  obtain ⟨-, -, e0, e1, e2, -⟩ := idx_facts0 t
  unfold Reg.iblk0
  rw [View.read_apply]
  show (V c main_v48 : S2x4096x64.Idx → EReal) _ = _
  refine congrArg _ (funext fun a => Fin.ext ?_)
  match a with
  | ⟨0, _⟩ => show win0_1.index t (0 : Fin 3) * 2 + 1 * b.val = b.val; rw [e0]; omega
  | ⟨1, _⟩ => show win0_1.index t (1 : Fin 3) * 4096 + 1 * n.val = n.val; rw [e1]; omega
  | ⟨2, _⟩ => show win0_1.index t (2 : Fin 3) * 64 + 1 * q.val = q.val; rw [e2]; omega

/-- One output block against the whole-array function: with the tile holding rows 512 T … of `a` and the second block
    holding `h`, the block's entry (b, p, q) is entry (b, 512 T + p, q) of `a` times the stack. -/
theorem point0 (a : Mid.Arr S4096x4096) (h : Mid.Arr S2x4096x64) (T : ℕ)
    (x0 : Vec Ideal S512x4096 .f32) (x1 : Vec Ideal S2x4096x64 .f32)
    (h0 : ∀ (p : Fin 512) (n : Fin 4096) (k : S4096x4096.Idx), (k 0).val = T * 512 + p.val → (k 1).val = n.val → x0 (ix2 p n) = a k)
    (h1 : ∀ (b : Fin 2) (n : Fin 4096) (q : Fin 64), x1 (ix3 b n q) = h (ix3 b n q))
    (y : S2x512x64.Idx) (i : S2x4096x64.Idx)
    (hi0 : (i 0).val = (y 0).val) (hi1 : (i 1).val = T * 512 + (y 1).val) (hi2 : (i 2).val = (y 2).val) :
    Reg.out0_2 (F := Ideal) x0 x1 y = Mid.agg a h i := by
  obtain ⟨b, p, q, rfl⟩ : ∃ (b : Fin 2) (p : Fin 512) (q : Fin 64), y = ix3 b p q := ⟨y 0, y 1, y 2, eq_ix3 y⟩
  obtain ⟨b', r, q', rfl⟩ : ∃ (b' : Fin 2) (r : Fin 4096) (q' : Fin 64), i = ix3 b' r q' := ⟨i 0, i 1, i 2, eq_ix3 i⟩
  obtain rfl : b' = b := Fin.ext hi0
  obtain rfl : q' = q := Fin.ext hi2
  rw [out0_2_eq]
  show ∑ n : Fin 4096, x0 (ix2 p n) * x1 (ix3 b' n q') = ∑ n : Fin 4096, a (ix2 r n) * h (ix3 b' n q')
  refine Finset.sum_congr rfl fun n _ => ?_
  rw [h0 p n (ix2 r n) hi1 rfl, h1]

/-- What point t writes back is block t of the whole-array function. -/
theorem flushed0_eq (c : Dev nD) (t : Fin cfg0.N) :
    (Reg.dat0 (F := Ideal) V c).flushed 2 t
      = ((cfg0.win 2).blk t).view.read (Elt Ideal) (Mid.agg (V c main_arg1) (V c main_v48)) := by
  show (cfg0.win 2).cut (grid0.coords t) ((Reg.dat0 (F := Ideal) V c).after 2 t) = _
  rw [Reg.after0_2]
  obtain ⟨-, -, -, -, -, e0, e1, e2⟩ := idx_facts0 t
  funext j
  rw [View.read_apply]
  refine point0 (V c main_arg1) (V c main_v48) t.val (Reg.iblk0 V c 0 t) (Reg.iblk0 V c 1 t)
    (fun p n k hk0 hk1 => iblk0_0_apply V c t p n k hk0 hk1) (fun b n q => iblk0_1_apply V c t b n q)
    ((cfg0.win 2).xinj (grid0.coords t) j) (((cfg0.win 2).blk t).view.emb j) ?_ ?_ ?_
  · show win0_2.index t (0 : Fin 3) * 2 + 1 * (j 0).val = (j 0).val; rw [e0]; omega
  · show win0_2.index t (1 : Fin 3) * 512 + 1 * (j 1).val = t.val * 512 + (j 1).val; rw [e1]; omega
  · show win0_2.index t (2 : Fin 3) * 64 + 1 * (j 2).val = (j 2).val; rw [e2]; omega

/-- An index of the result array is in point t's block iff each coordinate is in the block's range on its axis. -/
theorem mem_blk0 (t : Fin cfg0.N) (i : S2x4096x64.Idx) :
    i ∈ ((cfg0.win 2).blk t).view.set ↔ ∀ a : Fin 3, win0_2.index t a * S2x512x64.size a ≤ (i a).val ∧ (i a).val < win0_2.index t a * S2x512x64.size a + S2x512x64.size a := by
  show i ∈ ((View.whole main_v49).slice (win0_2.rect t)).set ↔ _
  rw [View.set_slice_whole, Rect.mem_set_unit]
  exact Iff.rfl

/-- Row r of either branch is written at point r / 512. -/
theorem cover0 (i : S2x4096x64.Idx) : ∃ t : Fin cfg0.N, (cfg0.win 2).flush t = true ∧ i ∈ ((cfg0.win 2).blk t).view.set := by
  have hi0 : (i 0).val < 2 := (i 0).isLt
  have hi1 : (i 1).val < 4096 := (i 1).isLt
  have hi2 : (i 2).val < 64 := (i 2).isLt
  have hN : cfg0.N = 8 := N_0
  obtain ⟨t, ht⟩ : ∃ t : Fin cfg0.N, t.val = (i 1).val / 512 := ⟨⟨(i 1).val / 512, by rw [hN]; omega⟩, rfl⟩
  obtain ⟨-, -, -, -, -, e0, e1, e2⟩ := idx_facts0 t
  refine ⟨t, flush0_2 t, ?_⟩
  rw [mem_blk0]
  intro a
  match a with
  | ⟨0, _⟩ => show win0_2.index t (0 : Fin 3) * 2 ≤ (i 0).val ∧ (i 0).val < win0_2.index t (0 : Fin 3) * 2 + 2; rw [e0]; omega
  | ⟨1, _⟩ => show win0_2.index t (1 : Fin 3) * 512 ≤ (i 1).val ∧ (i 1).val < win0_2.index t (1 : Fin 3) * 512 + 512; rw [e1, ht]; omega
  | ⟨2, _⟩ => show win0_2.index t (2 : Fin 3) * 64 ≤ (i 2).val ∧ (i 2).val < win0_2.index t (2 : Fin 3) * 64 + 64; rw [e2]; omega

/-- THE FIRST REGION'S RESULT: the adjacency times each of the two stacked matrices. -/
theorem agg_final (c : Dev nD) :
    (Reg.dat0 (F := Ideal) V c).arrAt 2 cfg0.N = Mid.agg (V c main_arg1) (V c main_v48) :=
  (Reg.dat0 (F := Ideal) V c).arrAt_eq_of_cover 2 (Mid.agg (V c main_arg1) (V c main_v48)) (fun t _ => flushed0_eq V c t) cover0

end Cert.KernelIdeal.RegVal

end
-- ==== Proof.KiRegValPay1.lean ====
/-
  The second region's stored values read at an index. For one branch: the scores  s(p, n) = Σ_d q(p, d) · k(n, d)
  of the [128, 64] tile of Q against the whole K (transposed by the body), masked entrywise by the [128, 4096]
  adjacency tile, then the [128, 4096] × [4096, 64] product with the hidden matrix.
-/
import proofs.«159969_j68590627717599_1_alg».proof.Proof.Gen.KernelIdeal.Skeleton
import Idealize.ShloMosaic.Lib.ValueLayout
import Idealize.ShloMosaic.PureOps.Ideal.Laws

noncomputable section

namespace Cert.KernelIdeal.RegVal

open Idealize.ShloMosaic Idealize.ShloMosaic.ValueIdx Cert.KernelIdeal Cert.KernelIdeal.Gen

/-- The operand indices of the [128, 64] × [64, 4096] product at output entry i and contraction index k. -/
theorem lhs_sc_0 (i : S128x4096.Idx) (k : dot_S128x64_S64x4096_S128x4096_1_0_0_1_n_n.contr.Idx) :
    (dot_S128x64_S64x4096_S128x4096_1_0_0_1_n_n.lhsIdx i k 0).val = (i 0).val := by
  unfold DotDims.lhsIdx
  rw [dif_neg (show ¬(0 : Fin S128x64.rank) ∈ dot_S128x64_S64x4096_S128x4096_1_0_0_1_n_n.lhsBatch by decide), dif_pos (show (0 : Fin S128x64.rank) ∈ dot_S128x64_S64x4096_S128x4096_1_0_0_1_n_n.lhsNonContracting by decide)]
  rfl
theorem lhs_sc_1 (i : S128x4096.Idx) (k : dot_S128x64_S64x4096_S128x4096_1_0_0_1_n_n.contr.Idx) :
    (dot_S128x64_S64x4096_S128x4096_1_0_0_1_n_n.lhsIdx i k 1).val = (k ⟨0, by decide⟩).val :=
  dot_S128x64_S64x4096_S128x4096_1_0_0_1_n_n.lhsIdx_val_of_single rfl i k
theorem rhs_sc_0 (i : S128x4096.Idx) (k : dot_S128x64_S64x4096_S128x4096_1_0_0_1_n_n.contr.Idx) :
    (dot_S128x64_S64x4096_S128x4096_1_0_0_1_n_n.rhsIdx i k 0).val = (k ⟨0, by decide⟩).val :=
  dot_S128x64_S64x4096_S128x4096_1_0_0_1_n_n.rhsIdx_val_of_single rfl i k
theorem rhs_sc_1 (i : S128x4096.Idx) (k : dot_S128x64_S64x4096_S128x4096_1_0_0_1_n_n.contr.Idx) :
    (dot_S128x64_S64x4096_S128x4096_1_0_0_1_n_n.rhsIdx i k 1).val = (i 1).val := by
  unfold DotDims.rhsIdx
  rw [dif_neg (show ¬(1 : Fin S64x4096.rank) ∈ dot_S128x64_S64x4096_S128x4096_1_0_0_1_n_n.rhsBatch by decide), dif_pos (show (1 : Fin S64x4096.rank) ∈ dot_S128x64_S64x4096_S128x4096_1_0_0_1_n_n.rhsNonContracting by decide)]
  rfl

/-- The [128, 64] × [64, 4096] product into a zero accumulator, entry (p, q): the sum over the 64 contracted positions. -/
theorem matmul_sc_apply (a : FVec Ideal S128x64 .bf16) (b : FVec Ideal S64x4096 .bf16) (p : Fin 128) (q : Fin 4096) :
    matmul dot_S128x64_S64x4096_S128x4096_1_0_0_1_n_n none a b (constant (F := Ideal) S128x4096 .f32 0x00000000#32) (ix2 p q)
      = ∑ n : Fin 64, a (ix2 p n) * b (ix2 n q) := by
  refine (Ideal.matmul_constant_zero_apply dot_S128x64_S64x4096_S128x4096_1_0_0_1_n_n none a b (ix2 p q)).trans ?_
  rw [← Equiv.sum_comp (contrEquiv1 dot_S128x64_S64x4096_S128x4096_1_0_0_1_n_n 64 rfl rfl).symm]
  refine Finset.sum_congr rfl fun k _ => ?_
  have hk := contrEquiv1_symm_val dot_S128x64_S64x4096_S128x4096_1_0_0_1_n_n 64 rfl rfl k
  have el : dot_S128x64_S64x4096_S128x4096_1_0_0_1_n_n.lhsIdx (ix2 p q) ((contrEquiv1 dot_S128x64_S64x4096_S128x4096_1_0_0_1_n_n 64 rfl rfl).symm k) = ix2 p k :=
    funext fun a => Fin.ext (by
      match a with
      | ⟨0, _⟩ => exact lhs_sc_0 _ _
      | ⟨1, _⟩ => exact (lhs_sc_1 _ _).trans hk)
  have er : dot_S128x64_S64x4096_S128x4096_1_0_0_1_n_n.rhsIdx (ix2 p q) ((contrEquiv1 dot_S128x64_S64x4096_S128x4096_1_0_0_1_n_n 64 rfl rfl).symm k) = ix2 k q :=
    funext fun a => Fin.ext (by
      match a with
      | ⟨0, _⟩ => exact (rhs_sc_0 _ _).trans hk
      | ⟨1, _⟩ => exact rhs_sc_1 _ _)
  rw [el, er]

/-- The operand indices of the [128, 4096] × [4096, 64] product at output entry i and contraction index k. -/
theorem lhs_av_0 (i : S128x64.Idx) (k : dot_S128x4096_S4096x64_S128x64_1_0_0_1_n_n.contr.Idx) :
    (dot_S128x4096_S4096x64_S128x64_1_0_0_1_n_n.lhsIdx i k 0).val = (i 0).val := by
  unfold DotDims.lhsIdx
  rw [dif_neg (show ¬(0 : Fin S128x4096.rank) ∈ dot_S128x4096_S4096x64_S128x64_1_0_0_1_n_n.lhsBatch by decide), dif_pos (show (0 : Fin S128x4096.rank) ∈ dot_S128x4096_S4096x64_S128x64_1_0_0_1_n_n.lhsNonContracting by decide)]
  rfl
theorem lhs_av_1 (i : S128x64.Idx) (k : dot_S128x4096_S4096x64_S128x64_1_0_0_1_n_n.contr.Idx) :
    (dot_S128x4096_S4096x64_S128x64_1_0_0_1_n_n.lhsIdx i k 1).val = (k ⟨0, by decide⟩).val :=
  dot_S128x4096_S4096x64_S128x64_1_0_0_1_n_n.lhsIdx_val_of_single rfl i k
theorem rhs_av_0 (i : S128x64.Idx) (k : dot_S128x4096_S4096x64_S128x64_1_0_0_1_n_n.contr.Idx) :
    (dot_S128x4096_S4096x64_S128x64_1_0_0_1_n_n.rhsIdx i k 0).val = (k ⟨0, by decide⟩).val :=
  dot_S128x4096_S4096x64_S128x64_1_0_0_1_n_n.rhsIdx_val_of_single rfl i k
theorem rhs_av_1 (i : S128x64.Idx) (k : dot_S128x4096_S4096x64_S128x64_1_0_0_1_n_n.contr.Idx) :
    (dot_S128x4096_S4096x64_S128x64_1_0_0_1_n_n.rhsIdx i k 1).val = (i 1).val := by
  unfold DotDims.rhsIdx
  rw [dif_neg (show ¬(1 : Fin S4096x64.rank) ∈ dot_S128x4096_S4096x64_S128x64_1_0_0_1_n_n.rhsBatch by decide), dif_pos (show (1 : Fin S4096x64.rank) ∈ dot_S128x4096_S4096x64_S128x64_1_0_0_1_n_n.rhsNonContracting by decide)]
  rfl

/-- The [128, 4096] × [4096, 64] product into a zero accumulator, entry (p, q): the sum over the 4096 contracted positions. -/
theorem matmul_av_apply (a : FVec Ideal S128x4096 .bf16) (b : FVec Ideal S4096x64 .bf16) (p : Fin 128) (q : Fin 64) :
    matmul dot_S128x4096_S4096x64_S128x64_1_0_0_1_n_n none a b (constant (F := Ideal) S128x64 .f32 0x00000000#32) (ix2 p q)
      = ∑ n : Fin 4096, a (ix2 p n) * b (ix2 n q) := by
  refine (Ideal.matmul_constant_zero_apply dot_S128x4096_S4096x64_S128x64_1_0_0_1_n_n none a b (ix2 p q)).trans ?_
  rw [← Equiv.sum_comp (contrEquiv1 dot_S128x4096_S4096x64_S128x64_1_0_0_1_n_n 4096 rfl rfl).symm]
  refine Finset.sum_congr rfl fun k _ => ?_
  have hk := contrEquiv1_symm_val dot_S128x4096_S4096x64_S128x64_1_0_0_1_n_n 4096 rfl rfl k
  have el : dot_S128x4096_S4096x64_S128x64_1_0_0_1_n_n.lhsIdx (ix2 p q) ((contrEquiv1 dot_S128x4096_S4096x64_S128x64_1_0_0_1_n_n 4096 rfl rfl).symm k) = ix2 p k :=
    funext fun a => Fin.ext (by
      match a with
      | ⟨0, _⟩ => exact lhs_av_0 _ _
      | ⟨1, _⟩ => exact (lhs_av_1 _ _).trans hk)
  have er : dot_S128x4096_S4096x64_S128x64_1_0_0_1_n_n.rhsIdx (ix2 p q) ((contrEquiv1 dot_S128x4096_S4096x64_S128x64_1_0_0_1_n_n 4096 rfl rfl).symm k) = ix2 k q :=
    funext fun a => Fin.ext (by
      match a with
      | ⟨0, _⟩ => exact (rhs_av_0 _ _).trans hk
      | ⟨1, _⟩ => exact rhs_av_1 _ _)
  rw [el, er]

/-- The masked scores at (p, n): the dot product of row p of the Q tile with row n of K, times the adjacency entry. -/
theorem pay1_3_apply (xq : Vec Ideal S1x128x64 .f32) (xk : Vec Ideal S1x4096x64 .f32) (xa : Vec Ideal S1x128x4096 .f32)
    (p : Fin 128) (n : Fin 4096) :
    k1_pay3 (F := Ideal) xq xk xa (ix2 p n)
      = (∑ d : Fin 64, xq (ix3 (0 : Fin 1) p d) * xk (ix3 (0 : Fin 1) n d)) * xa (ix3 (0 : Fin 1) p n) := by
  unfold k1_pay3
  show matmul dot_S128x64_S64x4096_S128x4096_1_0_0_1_n_n none _ _ (constant (F := Ideal) S128x4096 .f32 0x00000000#32) (ix2 p n)
      * shapeCast S128x4096 xa shapeCasts_S1x128x4096_S128x4096 (ix2 p n) = _
  refine congrArg₂ (· * ·) ((matmul_sc_apply _ _ p n).trans (Finset.sum_congr rfl fun d _ => ?_))
    (shapeCast_1ab_ab_apply xa shapeCasts_S1x128x4096_S128x4096 p n)
  refine congrArg₂ (· * ·) (shapeCast_1ab_ab_apply xq shapeCasts_S1x128x64_S128x64 p d) ?_
  refine (transpose_ix2_apply _ transposes_S4096x64_p1_0_S64x4096 d n).trans ?_
  exact shapeCast_1ab_ab_apply xk shapeCasts_S1x4096x64_S4096x64 n d

/-- The stored value at (u, p, q): row p of a [128, 4096] matrix against column q of the hidden matrix. -/
theorem pay1_1_apply (s : FVec Ideal S128x4096 .f32) (xh : Vec Ideal S1x4096x64 .f32) (u : Fin 1) (p : Fin 128) (q : Fin 64) :
    k1_pay1 (F := Ideal) s xh (ix3 u p q) = ∑ n : Fin 4096, s (ix2 p n) * xh (ix3 (0 : Fin 1) n q) := by
  unfold k1_pay1
  refine (shapeCast_ab_1ab_apply _ shapeCasts_S128x64_S1x128x64 u p q).trans ?_
  refine (matmul_av_apply _ _ p q).trans (Finset.sum_congr rfl fun n _ => ?_)
  exact congrArg (s (ix2 p n) * ·) (shapeCast_1ab_ab_apply xh shapeCasts_S1x4096x64_S4096x64 n q)

/-- Branch 0's stored value is branch 1's composition: the masked scores, then the product with the hidden matrix. -/
theorem pay1_2_eq (xq : Vec Ideal S1x128x64 .f32) (xk : Vec Ideal S1x4096x64 .f32) (xa : Vec Ideal S1x128x4096 .f32)
    (xh : Vec Ideal S1x4096x64 .f32) :
    k1_pay2 (F := Ideal) xq xk xa xh = k1_pay1 (k1_pay3 xq xk xa) xh := rfl

end Cert.KernelIdeal.RegVal

end
-- ==== Proof.KiRegVal1.lean ====
/-
  What the second region leaves in its result array, as one function of the arrays it finds.
  For each branch b the body's store fills its half of the [2, 128, 64] output block with
    (b, p, j) ↦ Σ_n ((Σ_d qtile(b, p, d) · k(b, n, d)) · atile(b, p, n)) · h(b, n, j);
  at point t the Q tile and the adjacency tile hold rows 128 t … 128 t + 127 of their arrays, K and the hidden stack
  are whole, and the output block sits at rows 128 t … of both branches; the 32 points' blocks tile the
  [2, 4096, 64] array, so it ends holding the masked attention product of every row.
-/
import proofs.«159969_j68590627717599_1_alg».proof.Proof.KiRegion1
import proofs.«159969_j68590627717599_1_alg».proof.Proof.KMid
import proofs.«159969_j68590627717599_1_alg».proof.Proof.KiRegValPay1
import Idealize.ShloMosaic.Lib.Pipeline.Value

noncomputable section

namespace Cert.KernelIdeal.RegVal

open Idealize.ShloMosaic Idealize.ShloMosaic.ValueIdx Idealize.ShloMosaic.TcCoe Idealize.SL.Sem
open Idealize.ShloMosaic.Pipeline (Dat)
open Cert.KernelIdeal Cert.KernelIdeal.Gen

/-- Entry (b, p, j) of the output block as a function of the four input blocks (Q tile, K, hidden stack, adjacency tile). -/
def attnBlk (x0 : Vec Ideal S2x128x64 .f32) (x1 x2 : Vec Ideal S2x4096x64 .f32) (x3 : Vec Ideal S2x128x4096 .f32) :
    Vec Ideal S2x128x64 .f32 :=
  fun y => ∑ n : Fin 4096,
    ((∑ d : Fin 64, x0 (ix3 (y 0) (y 1) d) * x1 (ix3 (y 0) n d)) * x3 (ix3 (y 0) (y 1) n)) * x2 (ix3 (y 0) n (y 2))

/-! Each access rectangle is one branch of its block: local index (u, ·, ·) sits at (b, ·, ·). -/
theorem rq1_idx_0 (u : Fin 1) (p : Fin 128) (d : Fin 64) : Reg.rq1_0.idx (ix3 u p d) = ix3 (0 : Fin 2) p d :=
  funext fun a => Fin.ext (by
    match a with
    | ⟨0, _⟩ => show 0 + 1 * u.val = 0; omega
    | ⟨1, _⟩ => show 0 + 1 * p.val = p.val; omega
    | ⟨2, _⟩ => show 0 + 1 * d.val = d.val; omega)

theorem rq1_idx_1 (u : Fin 1) (p : Fin 128) (d : Fin 64) : Reg.rq1_1.idx (ix3 u p d) = ix3 (1 : Fin 2) p d :=
  funext fun a => Fin.ext (by
    match a with
    | ⟨0, _⟩ => show 1 + 1 * u.val = 1; omega
    | ⟨1, _⟩ => show 0 + 1 * p.val = p.val; omega
    | ⟨2, _⟩ => show 0 + 1 * d.val = d.val; omega)

theorem rk1_idx_0 (u : Fin 1) (n : Fin 4096) (d : Fin 64) : Reg.rk1_0.idx (ix3 u n d) = ix3 (0 : Fin 2) n d :=
  funext fun a => Fin.ext (by
    match a with
    | ⟨0, _⟩ => show 0 + 1 * u.val = 0; omega
    | ⟨1, _⟩ => show 0 + 1 * n.val = n.val; omega
    | ⟨2, _⟩ => show 0 + 1 * d.val = d.val; omega)

theorem rk1_idx_1 (u : Fin 1) (n : Fin 4096) (d : Fin 64) : Reg.rk1_1.idx (ix3 u n d) = ix3 (1 : Fin 2) n d :=
  funext fun a => Fin.ext (by
    match a with
    | ⟨0, _⟩ => show 1 + 1 * u.val = 1; omega
    | ⟨1, _⟩ => show 0 + 1 * n.val = n.val; omega
    | ⟨2, _⟩ => show 0 + 1 * d.val = d.val; omega)

theorem ra1_idx_0 (u : Fin 1) (p : Fin 128) (n : Fin 4096) : Reg.ra1_0.idx (ix3 u p n) = ix3 (0 : Fin 2) p n :=
  funext fun a => Fin.ext (by
    match a with
    | ⟨0, _⟩ => show 0 + 1 * u.val = 0; omega
    | ⟨1, _⟩ => show 0 + 1 * p.val = p.val; omega
    | ⟨2, _⟩ => show 0 + 1 * n.val = n.val; omega)

theorem ra1_idx_1 (u : Fin 1) (p : Fin 128) (n : Fin 4096) : Reg.ra1_1.idx (ix3 u p n) = ix3 (1 : Fin 2) p n :=
  funext fun a => Fin.ext (by
    match a with
    | ⟨0, _⟩ => show 1 + 1 * u.val = 1; omega
    | ⟨1, _⟩ => show 0 + 1 * p.val = p.val; omega
    | ⟨2, _⟩ => show 0 + 1 * n.val = n.val; omega)

theorem rq1_emb_0 (u : Fin 1) (p : Fin 128) (d : Fin 64) : Reg.rq1_0.emb (ix3 u p d) = ix3 (0 : Fin 2) p d := rq1_idx_0 u p d
theorem rq1_emb_1 (u : Fin 1) (p : Fin 128) (d : Fin 64) : Reg.rq1_1.emb (ix3 u p d) = ix3 (1 : Fin 2) p d := rq1_idx_1 u p d

/-- The body's two stores leave exactly that function in the output block. -/
theorem out1_4_eq (x0 : Vec Ideal S2x128x64 .f32) (x1 x2 : Vec Ideal S2x4096x64 .f32) (x3 : Vec Ideal S2x128x4096 .f32) :
    Reg.out1_4 (F := Ideal) x0 x1 x2 x3 = attnBlk x0 x1 x2 x3 := by
  funext y
  unfold Reg.out1_4
  refine View.canon_apply_of_pieces (attnBlk x0 x1 x2 x3) _ ?_ y (Reg.cover1_4 _ _ y)
  intro pc hpc x
  simp only [List.mem_cons, List.not_mem_nil, or_false] at hpc
  rcases hpc with rfl | rfl
  · obtain ⟨u, p, j, rfl⟩ : ∃ (u : Fin 1) (p : Fin 128) (j : Fin 64), x = ix3 u p j := ⟨x 0, x 1, x 2, eq_ix3 x⟩
    show k1_pay1 (F := Ideal) (k1_pay3 (View.ld x0 Reg.rq1_1) (View.ld x1 Reg.rk1_1) (View.ld x3 Reg.ra1_1)) (View.ld x2 Reg.rk1_1) (ix3 u p j)
      = attnBlk x0 x1 x2 x3 (Reg.rq1_1.emb (ix3 u p j))
    rw [rq1_emb_1]
    refine (pay1_1_apply _ _ u p j).trans (Finset.sum_congr rfl fun n _ => ?_)
    refine congrArg₂ (· * ·) ((pay1_3_apply _ _ _ p n).trans ?_) ?_
    · show (∑ d : Fin 64, x0 (Reg.rq1_1.idx (ix3 (0 : Fin 1) p d)) * x1 (Reg.rk1_1.idx (ix3 (0 : Fin 1) n d))) * x3 (Reg.ra1_1.idx (ix3 (0 : Fin 1) p n))
        = (∑ d : Fin 64, x0 (ix3 (1 : Fin 2) p d) * x1 (ix3 (1 : Fin 2) n d)) * x3 (ix3 (1 : Fin 2) p n)
      simp only [rq1_idx_1, rk1_idx_1, ra1_idx_1]
    · show x2 (Reg.rk1_1.idx (ix3 (0 : Fin 1) n j)) = x2 (ix3 (1 : Fin 2) n j)
      rw [rk1_idx_1]
  · obtain ⟨u, p, j, rfl⟩ : ∃ (u : Fin 1) (p : Fin 128) (j : Fin 64), x = ix3 u p j := ⟨x 0, x 1, x 2, eq_ix3 x⟩
    show k1_pay2 (F := Ideal) (View.ld x0 Reg.rq1_0) (View.ld x1 Reg.rk1_0) (View.ld x3 Reg.ra1_0) (View.ld x2 Reg.rk1_0) (ix3 u p j)
      = attnBlk x0 x1 x2 x3 (Reg.rq1_0.emb (ix3 u p j))
    rw [rq1_emb_0, pay1_2_eq]
    refine (pay1_1_apply _ _ u p j).trans (Finset.sum_congr rfl fun n _ => ?_)
    refine congrArg₂ (· * ·) ((pay1_3_apply _ _ _ p n).trans ?_) ?_
    · show (∑ d : Fin 64, x0 (Reg.rq1_0.idx (ix3 (0 : Fin 1) p d)) * x1 (Reg.rk1_0.idx (ix3 (0 : Fin 1) n d))) * x3 (Reg.ra1_0.idx (ix3 (0 : Fin 1) p n))
        = (∑ d : Fin 64, x0 (ix3 (0 : Fin 2) p d) * x1 (ix3 (0 : Fin 2) n d)) * x3 (ix3 (0 : Fin 2) p n)
      simp only [rq1_idx_0, rk1_idx_0, ra1_idx_0]
    · show x2 (Reg.rk1_0.idx (ix3 (0 : Fin 1) n j)) = x2 (ix3 (0 : Fin 2) n j)
      rw [rk1_idx_0]

variable (V : (c : Dev nD) → (b : Ref sig .tc) → Buf (Elt Ideal) ((c : Thread nD τ).loc b))

/-! The printed index maps over the 32 points: the Q tile, the adjacency tile and the output block move along the rows
    with the point; K and the hidden stack stay whole. -/
theorem idx_facts1_0 : ∀ t : Fin cfg1.N,
    win1_0.index t (0 : Fin 3) = 0 ∧ win1_0.index t (1 : Fin 3) = t.val ∧ win1_0.index t (2 : Fin 3) = 0 :=
  (by decide +kernel : ∀ t : Fin grid1.N, _)
theorem idx_facts1_1 : ∀ t : Fin cfg1.N,
    win1_1.index t (0 : Fin 3) = 0 ∧ win1_1.index t (1 : Fin 3) = 0 ∧ win1_1.index t (2 : Fin 3) = 0 :=
  (by decide +kernel : ∀ t : Fin grid1.N, _)
theorem idx_facts1_2 : ∀ t : Fin cfg1.N,
    win1_2.index t (0 : Fin 3) = 0 ∧ win1_2.index t (1 : Fin 3) = 0 ∧ win1_2.index t (2 : Fin 3) = 0 :=
  (by decide +kernel : ∀ t : Fin grid1.N, _)
theorem idx_facts1_3 : ∀ t : Fin cfg1.N,
    win1_3.index t (0 : Fin 3) = 0 ∧ win1_3.index t (1 : Fin 3) = t.val ∧ win1_3.index t (2 : Fin 3) = 0 :=
  (by decide +kernel : ∀ t : Fin grid1.N, _)
theorem idx_facts1_4 : ∀ t : Fin cfg1.N,
    win1_4.index t (0 : Fin 3) = 0 ∧ win1_4.index t (1 : Fin 3) = t.val ∧ win1_4.index t (2 : Fin 3) = 0 :=
  (by decide +kernel : ∀ t : Fin grid1.N, _)

/-- The Q tile at point t holds rows 128 t … 128 t + 127 of both branches of Q. -/
theorem iblk1_0_apply (c : Dev nD) (t : Fin cfg1.N) (b : Fin 2) (p : Fin 128) (d : Fin 64) (k : S2x4096x64.Idx)
    (hk0 : (k 0).val = b.val) (hk1 : (k 1).val = t.val * 128 + p.val) (hk2 : (k 2).val = d.val) :
    (Reg.iblk1 V c 0 t : Vec Ideal S2x128x64 .f32) (ix3 b p d) = (V c main_v53 : S2x4096x64.Idx → EReal) k := by
  obtain ⟨e0, e1, e2⟩ := idx_facts1_0 t
  unfold Reg.iblk1
  rw [View.read_apply]
  show (V c main_v53 : S2x4096x64.Idx → EReal) _ = _
  refine congrArg _ (funext fun a => Fin.ext ?_)
  match a with
  | ⟨0, _⟩ => show win1_0.index t (0 : Fin 3) * 2 + 1 * b.val = (k 0).val; rw [e0, hk0]; omega
  | ⟨1, _⟩ => show win1_0.index t (1 : Fin 3) * 128 + 1 * p.val = (k 1).val; rw [e1, hk1]; omega
  | ⟨2, _⟩ => show win1_0.index t (2 : Fin 3) * 64 + 1 * d.val = (k 2).val; rw [e2, hk2]; omega

/-- K's block at every point is the whole of K. -/
theorem iblk1_1_apply (c : Dev nD) (t : Fin cfg1.N) (b : Fin 2) (n : Fin 4096) (d : Fin 64) :
    (Reg.iblk1 V c 1 t : Vec Ideal S2x4096x64 .f32) (ix3 b n d) = (V c main_v57 : S2x4096x64.Idx → EReal) (ix3 b n d) := by
  obtain ⟨e0, e1, e2⟩ := idx_facts1_1 t
  unfold Reg.iblk1
  rw [View.read_apply]
  show (V c main_v57 : S2x4096x64.Idx → EReal) _ = _
  refine congrArg _ (funext fun a => Fin.ext ?_)
  match a with
  | ⟨0, _⟩ => show win1_1.index t (0 : Fin 3) * 2 + 1 * b.val = b.val; rw [e0]; omega
  | ⟨1, _⟩ => show win1_1.index t (1 : Fin 3) * 4096 + 1 * n.val = n.val; rw [e1]; omega
  | ⟨2, _⟩ => show win1_1.index t (2 : Fin 3) * 64 + 1 * d.val = d.val; rw [e2]; omega

/-- The hidden stack's block at every point is the whole stack. -/
theorem iblk1_2_apply (c : Dev nD) (t : Fin cfg1.N) (b : Fin 2) (n : Fin 4096) (j : Fin 64) :
    (Reg.iblk1 V c 2 t : Vec Ideal S2x4096x64 .f32) (ix3 b n j) = (V c main_v48 : S2x4096x64.Idx → EReal) (ix3 b n j) := by
  obtain ⟨e0, e1, e2⟩ := idx_facts1_2 t
  unfold Reg.iblk1
  rw [View.read_apply]
  show (V c main_v48 : S2x4096x64.Idx → EReal) _ = _
  refine congrArg _ (funext fun a => Fin.ext ?_)
  match a with
  | ⟨0, _⟩ => show win1_2.index t (0 : Fin 3) * 2 + 1 * b.val = b.val; rw [e0]; omega
  | ⟨1, _⟩ => show win1_2.index t (1 : Fin 3) * 4096 + 1 * n.val = n.val; rw [e1]; omega
  | ⟨2, _⟩ => show win1_2.index t (2 : Fin 3) * 64 + 1 * j.val = j.val; rw [e2]; omega

/-- The adjacency tile at point t holds rows 128 t … 128 t + 127 of both adjacency matrices. -/
theorem iblk1_3_apply (c : Dev nD) (t : Fin cfg1.N) (b : Fin 2) (p : Fin 128) (n : Fin 4096) (k : S2x4096x4096.Idx)
    (hk0 : (k 0).val = b.val) (hk1 : (k 1).val = t.val * 128 + p.val) (hk2 : (k 2).val = n.val) :
    (Reg.iblk1 V c 3 t : Vec Ideal S2x128x4096 .f32) (ix3 b p n) = (V c main_arg2 : S2x4096x4096.Idx → EReal) k := by
  obtain ⟨e0, e1, e2⟩ := idx_facts1_3 t
  unfold Reg.iblk1
  rw [View.read_apply]
  show (V c main_arg2 : S2x4096x4096.Idx → EReal) _ = _
  refine congrArg _ (funext fun a => Fin.ext ?_)
  match a with
  | ⟨0, _⟩ => show win1_3.index t (0 : Fin 3) * 2 + 1 * b.val = (k 0).val; rw [e0, hk0]; omega
  | ⟨1, _⟩ => show win1_3.index t (1 : Fin 3) * 128 + 1 * p.val = (k 1).val; rw [e1, hk1]; omega
  | ⟨2, _⟩ => show win1_3.index t (2 : Fin 3) * 4096 + 1 * n.val = (k 2).val; rw [e2, hk2]; omega

/-- One output block against the whole-array function: with the two tiles holding rows 128 T … of `aq` and `aa` and the
    other two blocks holding `ak` and `ah`, the block's entry (b, p, j) is entry (b, 128 T + p, j) of the masked attention
    product. -/
theorem point1 (aq ak ah : Mid.Arr S2x4096x64) (aa : Mid.Arr S2x4096x4096) (T : ℕ)
    (x0 : Vec Ideal S2x128x64 .f32) (x1 x2 : Vec Ideal S2x4096x64 .f32) (x3 : Vec Ideal S2x128x4096 .f32)
    (h0 : ∀ (b : Fin 2) (p : Fin 128) (d : Fin 64) (k : S2x4096x64.Idx),
      (k 0).val = b.val → (k 1).val = T * 128 + p.val → (k 2).val = d.val → x0 (ix3 b p d) = aq k)
    (h1 : ∀ (b : Fin 2) (n : Fin 4096) (d : Fin 64), x1 (ix3 b n d) = ak (ix3 b n d))
    (h2 : ∀ (b : Fin 2) (n : Fin 4096) (j : Fin 64), x2 (ix3 b n j) = ah (ix3 b n j))
    (h3 : ∀ (b : Fin 2) (p : Fin 128) (n : Fin 4096) (k : S2x4096x4096.Idx),
      (k 0).val = b.val → (k 1).val = T * 128 + p.val → (k 2).val = n.val → x3 (ix3 b p n) = aa k)
    (y : S2x128x64.Idx) (i : S2x4096x64.Idx)
    (hi0 : (i 0).val = (y 0).val) (hi1 : (i 1).val = T * 128 + (y 1).val) (hi2 : (i 2).val = (y 2).val) :
    Reg.out1_4 (F := Ideal) x0 x1 x2 x3 y = Mid.attn aq ak ah aa i := by
  obtain ⟨b, p, j, rfl⟩ : ∃ (b : Fin 2) (p : Fin 128) (j : Fin 64), y = ix3 b p j := ⟨y 0, y 1, y 2, eq_ix3 y⟩
  obtain ⟨b', r, j', rfl⟩ : ∃ (b' : Fin 2) (r : Fin 4096) (j' : Fin 64), i = ix3 b' r j' := ⟨i 0, i 1, i 2, eq_ix3 i⟩
  obtain rfl : b' = b := Fin.ext hi0
  obtain rfl : j' = j := Fin.ext hi2
  rw [out1_4_eq]
  show ∑ n : Fin 4096, ((∑ d : Fin 64, x0 (ix3 b' p d) * x1 (ix3 b' n d)) * x3 (ix3 b' p n)) * x2 (ix3 b' n j')
    = ∑ n : Fin 4096, ((∑ d : Fin 64, aq (ix3 b' r d) * ak (ix3 b' n d)) * aa (ix3 b' r n)) * ah (ix3 b' n j')
  refine Finset.sum_congr rfl fun n _ => ?_
  have es : ∑ d : Fin 64, x0 (ix3 b' p d) * x1 (ix3 b' n d) = ∑ d : Fin 64, aq (ix3 b' r d) * ak (ix3 b' n d) :=
    Finset.sum_congr rfl fun d _ => by rw [h0 b' p d (ix3 b' r d) rfl hi1 rfl, h1]
  rw [es, h3 b' p n (ix3 b' r n) rfl hi1 rfl, h2]

/-- What point t writes back is block t of the whole-array function. -/
theorem flushed1_eq (c : Dev nD) (t : Fin cfg1.N) :
    (Reg.dat1 (F := Ideal) V c).flushed 4 t
      = ((cfg1.win 4).blk t).view.read (Elt Ideal) (Mid.attn (V c main_v53) (V c main_v57) (V c main_v48) (V c main_arg2)) := by
  show (cfg1.win 4).cut (grid1.coords t) ((Reg.dat1 (F := Ideal) V c).after 4 t) = _
  rw [Reg.after1_4]
  obtain ⟨e0, e1, e2⟩ := idx_facts1_4 t
  funext j
  rw [View.read_apply]
  refine point1 (V c main_v53) (V c main_v57) (V c main_v48) (V c main_arg2) t.val
    (Reg.iblk1 V c 0 t) (Reg.iblk1 V c 1 t) (Reg.iblk1 V c 2 t) (Reg.iblk1 V c 3 t)
    (fun b p d k hk0 hk1 hk2 => iblk1_0_apply V c t b p d k hk0 hk1 hk2) (fun b n d => iblk1_1_apply V c t b n d)
    (fun b n j => iblk1_2_apply V c t b n j) (fun b p n k hk0 hk1 hk2 => iblk1_3_apply V c t b p n k hk0 hk1 hk2)
    ((cfg1.win 4).xinj (grid1.coords t) j) (((cfg1.win 4).blk t).view.emb j) ?_ ?_ ?_
  · show win1_4.index t (0 : Fin 3) * 2 + 1 * (j 0).val = (j 0).val; rw [e0]; omega
  · show win1_4.index t (1 : Fin 3) * 128 + 1 * (j 1).val = t.val * 128 + (j 1).val; rw [e1]; omega
  · show win1_4.index t (2 : Fin 3) * 64 + 1 * (j 2).val = (j 2).val; rw [e2]; omega

/-- An index of the result array is in point t's block iff each coordinate is in the block's range on its axis. -/
theorem mem_blk1 (t : Fin cfg1.N) (i : S2x4096x64.Idx) :
    i ∈ ((cfg1.win 4).blk t).view.set ↔ ∀ a : Fin 3, win1_4.index t a * S2x128x64.size a ≤ (i a).val ∧ (i a).val < win1_4.index t a * S2x128x64.size a + S2x128x64.size a := by
  show i ∈ ((View.whole main_v58).slice (win1_4.rect t)).set ↔ _
  rw [View.set_slice_whole, Rect.mem_set_unit]
  exact Iff.rfl

/-- Row r of either branch is written at point r / 128. -/
theorem cover1 (i : S2x4096x64.Idx) : ∃ t : Fin cfg1.N, (cfg1.win 4).flush t = true ∧ i ∈ ((cfg1.win 4).blk t).view.set := by
  have hi0 : (i 0).val < 2 := (i 0).isLt
  have hi1 : (i 1).val < 4096 := (i 1).isLt
  have hi2 : (i 2).val < 64 := (i 2).isLt
  have hN : cfg1.N = 32 := N_1
  obtain ⟨t, ht⟩ : ∃ t : Fin cfg1.N, t.val = (i 1).val / 128 := ⟨⟨(i 1).val / 128, by rw [hN]; omega⟩, rfl⟩
  obtain ⟨e0, e1, e2⟩ := idx_facts1_4 t
  refine ⟨t, flush1_4 t, ?_⟩
  rw [mem_blk1]
  intro a
  match a with
  | ⟨0, _⟩ => show win1_4.index t (0 : Fin 3) * 2 ≤ (i 0).val ∧ (i 0).val < win1_4.index t (0 : Fin 3) * 2 + 2; rw [e0]; omega
  | ⟨1, _⟩ => show win1_4.index t (1 : Fin 3) * 128 ≤ (i 1).val ∧ (i 1).val < win1_4.index t (1 : Fin 3) * 128 + 128; rw [e1, ht]; omega
  | ⟨2, _⟩ => show win1_4.index t (2 : Fin 3) * 64 ≤ (i 2).val ∧ (i 2).val < win1_4.index t (2 : Fin 3) * 64 + 64; rw [e2]; omega

/-- THE SECOND REGION'S RESULT: for each branch, the scores Q Kᵀ masked by the adjacency, times the hidden matrix. -/
theorem attn_final (c : Dev nD) :
    (Reg.dat1 (F := Ideal) V c).arrAt 4 cfg1.N = Mid.attn (V c main_v53) (V c main_v57) (V c main_v48) (V c main_arg2) :=
  (Reg.dat1 (F := Ideal) V c).arrAt_eq_of_cover 4 (Mid.attn (V c main_v53) (V c main_v57) (V c main_v48) (V c main_arg2))
    (fun t _ => flushed1_eq V c t) cover1

end Cert.KernelIdeal.RegVal

end
-- ==== Proof.MidBridgeSpec.lean ====
/-
  The middle of the network as index-by-index sums over literal coordinate ranges, at the extended reals.

  For one branch, with the adjacency `A`, the hidden matrix `h`, the two projections `(wq, bq)`, `(wk, bk)` and the
  branch's mask `adj`, all given as functions of their coordinates:
    aggS  A h        (r, e) = Σ_n A(r, n) · h(n, e)
    projS o w bias   (r, d) = (Σ_e o(r, e) · w(e, d)) + bias(d)
    attnS q k adj h  (r, j) = Σ_n ((Σ_d q(r, d) · k(n, d)) · adj(r, n)) · h(n, j)
    normS o          (r, j) = o(r, j) / max(√(0 + Σ_k o(r, k) · o(r, k)), ε)
  and `midS` is their composition. Both programs' middles are shown equal to `midS` of the same coordinate
  functions; no law of the extended reals is used beyond the sums being taken term by term.
-/
import Idealize.ShloMosaic.PureOps.Ideal
import Idealize.ShloMosaic.Lib.ValueIdx

noncomputable section

open scoped BigOperators

namespace Cert.Bridge

open Idealize.ShloMosaic Idealize.ShloMosaic.ValueIdx

/-- A matrix as a function of its two coordinates. -/
def mat {m n : Nat} (x : FVec Ideal ⟨2, ![m, n]⟩ .f32) (r : Fin m) (j : Fin n) : EReal := x (ix2 r j)

/-- Plane `b` of a rank-3 array as a function of the other two coordinates. -/
def plane {p m n : Nat} (x : FVec Ideal ⟨3, ![p, m, n]⟩ .f32) (b : Fin p) (r : Fin m) (j : Fin n) : EReal := x (ix3 b r j)

/-- The adjacency times the hidden matrix: entry `(r, e)` is `Σ_n A(r, n) · h(n, e)`. -/
def aggS (A : Fin 4096 → Fin 4096 → EReal) (h : Fin 4096 → Fin 64 → EReal) (r : Fin 4096) (e : Fin 64) : EReal :=
  ∑ n : Fin 4096, A r n * h n e

/-- A projection: entry `(r, d)` is `(Σ_e o(r, e) · w(e, d)) + bias(d)`. -/
def projS (o : Fin 4096 → Fin 64 → EReal) (w : Fin 64 → Fin 64 → EReal) (bias : Fin 64 → EReal)
    (r : Fin 4096) (d : Fin 64) : EReal :=
  (∑ e : Fin 64, o r e * w e d) + bias d

/-- The masked attention product: entry `(r, j)` is `Σ_n ((Σ_d q(r, d) · k(n, d)) · adj(r, n)) · h(n, j)`. -/
def attnS (q k : Fin 4096 → Fin 64 → EReal) (adj : Fin 4096 → Fin 4096 → EReal) (h : Fin 4096 → Fin 64 → EReal)
    (r : Fin 4096) (j : Fin 64) : EReal :=
  ∑ n : Fin 4096, ((∑ d : Fin 64, q r d * k n d) * adj r n) * h n j

/-- A row divided by the larger of its Euclidean norm and ε (the sum of squares starts from the zero word's value). -/
def normS (o : Fin 4096 → Fin 64 → EReal) (r : Fin 4096) (j : Fin 64) : EReal :=
  Ideal.div (o r j)
    (max (Ideal.sqrt (Ideal.ofBits .f32 0x00000000#32 + ∑ k : Fin 64, o r k * o r k)) (Ideal.ofBits .f32 0x2B8CBCCC#32))

/-- One branch of the middle: aggregate, project twice, attend, normalise. -/
def midS (A : Fin 4096 → Fin 4096 → EReal) (adj : Fin 4096 → Fin 4096 → EReal)
    (wq : Fin 64 → Fin 64 → EReal) (bq : Fin 64 → EReal) (wk : Fin 64 → Fin 64 → EReal) (bk : Fin 64 → EReal)
    (h : Fin 4096 → Fin 64 → EReal) (r : Fin 4096) (j : Fin 64) : EReal :=
  normS (attnS (projS (aggS A h) wq bq) (projS (aggS A h) wk bk) adj h) r j

end Cert.Bridge

end
-- ==== Proof.MidBridgeProj.lean ====
/-
  The batched projection read at an index: for a stack `o` of two [4096, 64] matrices, a stack `w` of two
  [64, 64] matrices and a stack `bias` of two rows,
    proj o w bias (b, r, d) = (Σ_e o(b, r, e) · w(b, e, d)) + bias(b, d).
  The product is a contraction with one batch axis (axis 0 of both operands and of the result) and one contracted
  axis (axis 2 of the left operand, axis 1 of the right): at result index (b, r, d) and contraction position e the
  left operand is read at (b, r, e) and the right at (b, e, d). The bias is broadcast [2, 64] → [2, 1, 64] → [2, 4096, 64].
-/
import proofs.«159969_j68590627717599_1_alg».proof.Proof.KMid
import Idealize.ShloMosaic.Lib.Pipeline.Value
import Idealize.ShloMosaic.PureOps.Ideal.Laws

noncomputable section

open scoped BigOperators

namespace Cert.Bridge

open Idealize.ShloMosaic Idealize.ShloMosaic.ValueIdx Cert.KernelIdeal Cert.KernelIdeal.Facts₀ Cert.KernelIdeal.Facts
open Cert.KernelIdeal.Mid

/-- The left operand's batch axis reads the result's batch coordinate. -/
theorem lhs_proj_0 (i : S2x4096x64.Idx) (q : dot_S2x4096x64_S2x64x64_S2x4096x64_2_1_1_2_0_0.contr.Idx) :
    (dot_S2x4096x64_S2x64x64_S2x4096x64_2_1_1_2_0_0.lhsIdx i q 0).val = (i 0).val := by
  unfold DotDims.lhsIdx
  rw [dif_pos (show (0 : Fin S2x4096x64.rank) ∈ dot_S2x4096x64_S2x64x64_S2x4096x64_2_1_1_2_0_0.lhsBatch by decide)]
  rfl

/-- The left operand's row axis reads the result's row coordinate. -/
theorem lhs_proj_1 (i : S2x4096x64.Idx) (q : dot_S2x4096x64_S2x64x64_S2x4096x64_2_1_1_2_0_0.contr.Idx) :
    (dot_S2x4096x64_S2x64x64_S2x4096x64_2_1_1_2_0_0.lhsIdx i q 1).val = (i 1).val := by
  unfold DotDims.lhsIdx
  rw [dif_neg (show ¬(1 : Fin S2x4096x64.rank) ∈ dot_S2x4096x64_S2x64x64_S2x4096x64_2_1_1_2_0_0.lhsBatch by decide),
    dif_pos (show (1 : Fin S2x4096x64.rank) ∈ dot_S2x4096x64_S2x64x64_S2x4096x64_2_1_1_2_0_0.lhsNonContracting by decide)]
  rfl

/-- The left operand's contracted axis reads the contraction position. -/
theorem lhs_proj_2 (i : S2x4096x64.Idx) (q : dot_S2x4096x64_S2x64x64_S2x4096x64_2_1_1_2_0_0.contr.Idx) :
    (dot_S2x4096x64_S2x64x64_S2x4096x64_2_1_1_2_0_0.lhsIdx i q 2).val = (q ⟨0, by decide⟩).val :=
  dot_S2x4096x64_S2x64x64_S2x4096x64_2_1_1_2_0_0.lhsIdx_val_of_single rfl i q

/-- The right operand's batch axis reads the result's batch coordinate. -/
theorem rhs_proj_0 (i : S2x4096x64.Idx) (q : dot_S2x4096x64_S2x64x64_S2x4096x64_2_1_1_2_0_0.contr.Idx) :
    (dot_S2x4096x64_S2x64x64_S2x4096x64_2_1_1_2_0_0.rhsIdx i q 0).val = (i 0).val := by
  unfold DotDims.rhsIdx
  rw [dif_pos (show (0 : Fin S2x64x64.rank) ∈ dot_S2x4096x64_S2x64x64_S2x4096x64_2_1_1_2_0_0.rhsBatch by decide)]
  rfl

/-- The right operand's contracted axis reads the contraction position. -/
theorem rhs_proj_1 (i : S2x4096x64.Idx) (q : dot_S2x4096x64_S2x64x64_S2x4096x64_2_1_1_2_0_0.contr.Idx) :
    (dot_S2x4096x64_S2x64x64_S2x4096x64_2_1_1_2_0_0.rhsIdx i q 1).val = (q ⟨0, by decide⟩).val :=
  dot_S2x4096x64_S2x64x64_S2x4096x64_2_1_1_2_0_0.rhsIdx_val_of_single rfl i q

/-- The right operand's column axis reads the result's column coordinate. -/
theorem rhs_proj_2 (i : S2x4096x64.Idx) (q : dot_S2x4096x64_S2x64x64_S2x4096x64_2_1_1_2_0_0.contr.Idx) :
    (dot_S2x4096x64_S2x64x64_S2x4096x64_2_1_1_2_0_0.rhsIdx i q 2).val = (i 2).val := by
  unfold DotDims.rhsIdx
  rw [dif_neg (show ¬(2 : Fin S2x64x64.rank) ∈ dot_S2x4096x64_S2x64x64_S2x4096x64_2_1_1_2_0_0.rhsBatch by decide),
    dif_pos (show (2 : Fin S2x64x64.rank) ∈ dot_S2x4096x64_S2x64x64_S2x4096x64_2_1_1_2_0_0.rhsNonContracting by decide)]
  rfl

/-- The batched product at `(b, r, d)`: `Σ_e o(b, r, e) · w(b, e, d)`. -/
theorem dotP_apply (o : Arr S2x4096x64) (w : Arr S2x64x64) (b : Fin 2) (r : Fin 4096) (d : Fin 64) :
    Host.dotGeneral (F := Ideal) dot_S2x4096x64_S2x64x64_S2x4096x64_2_1_1_2_0_0 none o w (ix3 b r d)
      = ∑ e : Fin 64, o (ix3 b r e) * w (ix3 b e d) := by
  simp only [Host.dotGeneral]
  rw [Ideal.dotGeneral_apply, ← Equiv.sum_comp (contrEquiv1 dot_S2x4096x64_S2x64x64_S2x4096x64_2_1_1_2_0_0 64 rfl rfl).symm]
  refine Finset.sum_congr rfl fun e _ => ?_
  have hk := contrEquiv1_symm_val dot_S2x4096x64_S2x64x64_S2x4096x64_2_1_1_2_0_0 64 rfl rfl e
  have el : dot_S2x4096x64_S2x64x64_S2x4096x64_2_1_1_2_0_0.lhsIdx (ix3 b r d)
      ((contrEquiv1 dot_S2x4096x64_S2x64x64_S2x4096x64_2_1_1_2_0_0 64 rfl rfl).symm e) = ix3 b r e :=
    funext fun a => Fin.ext (by
      match a with
      | ⟨0, _⟩ => exact lhs_proj_0 _ _
      | ⟨1, _⟩ => exact lhs_proj_1 _ _
      | ⟨2, _⟩ => exact (lhs_proj_2 _ _).trans hk)
  have er : dot_S2x4096x64_S2x64x64_S2x4096x64_2_1_1_2_0_0.rhsIdx (ix3 b r d)
      ((contrEquiv1 dot_S2x4096x64_S2x64x64_S2x4096x64_2_1_1_2_0_0 64 rfl rfl).symm e) = ix3 b e d :=
    funext fun a => Fin.ext (by
      match a with
      | ⟨0, _⟩ => exact rhs_proj_0 _ _
      | ⟨1, _⟩ => exact (rhs_proj_1 _ _).trans hk
      | ⟨2, _⟩ => exact rhs_proj_2 _ _)
  rw [el, er]

/-- The bias, broadcast along the rows, at `(b, r, d)`: `bias(b, d)`. -/
theorem biasP_apply (bias : Arr S2x64) (b : Fin 2) (r : Fin 4096) (d : Fin 64) :
    broadcastInDim S2x4096x64 ![0, 1, 2] bcast_S2x1x64_S2x4096x64_0_1_2
      (broadcastInDim S2x1x64 ![0, 2] bcast_S2x64_S2x1x64_0_2 bias) (ix3 b r d) = bias (ix2 b d) := by
  refine (broadcastInDim_apply _ bcast_S2x1x64_S2x4096x64_0_1_2 _ (ix3 b r d) (ix3 b (0 : Fin 1) d) (fun a => match a with
    | ⟨0, _⟩ => by show b.val = if (2 : Nat) = 1 then 0 else b.val; rw [if_neg (by decide)]
    | ⟨1, _⟩ => by show 0 = if (1 : Nat) = 1 then 0 else r.val; rw [if_pos rfl]
    | ⟨2, _⟩ => by show d.val = if (64 : Nat) = 1 then 0 else d.val; rw [if_neg (by decide)])).trans ?_
  exact broadcastInDim_apply _ bcast_S2x64_S2x1x64_0_2 bias (ix3 b (0 : Fin 1) d) (ix2 b d) (fun a => match a with
    | ⟨0, _⟩ => by show b.val = if (2 : Nat) = 1 then 0 else b.val; rw [if_neg (by decide)]
    | ⟨1, _⟩ => by show d.val = if (64 : Nat) = 1 then 0 else d.val; rw [if_neg (by decide)])

/-- The batched projection at `(b, r, d)`. -/
theorem proj_apply (o : Arr S2x4096x64) (w : Arr S2x64x64) (bias : Arr S2x64) (b : Fin 2) (r : Fin 4096) (d : Fin 64) :
    proj o w bias (ix3 b r d) = (∑ e : Fin 64, o (ix3 b r e) * w (ix3 b e d)) + bias (ix2 b d) := by
  unfold proj
  rw [addf_apply, dotP_apply, biasP_apply]

end Cert.Bridge

end
-- ==== Proof.MidBridgeLayout.lean ====
/-
  The kernel's layout operations and its row normalisation read at an index.
    stack h1 h2 (0, n, j) = h1(n, j),   stack h1 h2 (1, n, j) = h2(n, j)
      (each matrix is given a leading unit axis and the two are joined along it);
    branch0 o (r, j) = o(0, r, j),      branch1 o (r, j) = o(1, r, j)
      (a unit-thick slice along the leading axis, then the unit axis dropped: the row-major position is kept);
    normalize o (b, r, j) = o(b, r, j) / max(√(0 + Σ_k o(b, r, k) · o(b, r, k)), ε)
      (the sum of squares along the last axis, kept as a unit axis, broadcast back along it).
-/
import proofs.«159969_j68590627717599_1_alg».proof.Proof.KMid
import Idealize.ShloMosaic.Lib.Pipeline.Value
import Idealize.ShloMosaic.PureOps.Ideal.Laws

noncomputable section

open scoped BigOperators

namespace Cert.Bridge

open Idealize.ShloMosaic Idealize.ShloMosaic.ValueIdx Cert.KernelIdeal Cert.KernelIdeal.Facts₀ Cert.KernelIdeal.Facts
open Cert.KernelIdeal.Mid

/-- A matrix given a leading unit axis, at `(0, n, j)`. -/
theorem lead_apply (h : Arr S4096x64) (n : Fin 4096) (j : Fin 64) :
    broadcastInDim S1x4096x64 ![1, 2] bcast_S4096x64_S1x4096x64_1_2 h (ix3 (0 : Fin 1) n j) = h (ix2 n j) :=
  broadcastInDim_apply _ bcast_S4096x64_S1x4096x64_1_2 h (ix3 (0 : Fin 1) n j) (ix2 n j) (fun a => match a with
    | ⟨0, _⟩ => by show n.val = if (4096 : Nat) = 1 then 0 else n.val; rw [if_neg (by decide)]
    | ⟨1, _⟩ => by show j.val = if (64 : Nat) = 1 then 0 else j.val; rw [if_neg (by decide)])

/-- The stack's first plane is the first matrix. -/
theorem stack_apply0 (h1 h2 : Arr S4096x64) (n : Fin 4096) (j : Fin 64) :
    stack h1 h2 (ix3 (0 : Fin 2) n j) = h1 (ix2 n j) := by
  unfold stack
  refine (concatenate_pair_apply_left (0 : Fin S2x4096x64.rank) _ _ concatenates_S1x4096x64_S1x4096x64_S2x4096x64_d0
    (ix3 (0 : Fin 2) n j) rfl (ix3 (0 : Fin 1) n j) (fun b => match b with
      | ⟨0, _⟩ => rfl
      | ⟨1, _⟩ => rfl
      | ⟨2, _⟩ => rfl)).trans ?_
  exact lead_apply h1 n j

/-- The stack's second plane is the second matrix. -/
theorem stack_apply1 (h1 h2 : Arr S4096x64) (n : Fin 4096) (j : Fin 64) :
    stack h1 h2 (ix3 (1 : Fin 2) n j) = h2 (ix2 n j) := by
  unfold stack
  refine (concatenate_pair_apply_right (0 : Fin S2x4096x64.rank) _ _ concatenates_S1x4096x64_S1x4096x64_S2x4096x64_d0
    (ix3 (1 : Fin 2) n j) rfl rfl (ix3 (0 : Fin 1) n j) (fun b => match b with
      | ⟨0, _⟩ => fun hb => absurd rfl hb
      | ⟨1, _⟩ => fun _ => rfl
      | ⟨2, _⟩ => fun _ => rfl) rfl).trans ?_
  exact lead_apply h2 n j

/-- Branch 0 of a stack at `(r, j)`. -/
theorem branch0_apply (o : Arr S2x4096x64) (r : Fin 4096) (j : Fin 64) :
    branch0 o (ix2 r j) = o (ix3 (0 : Fin 2) r j) := by
  unfold branch0
  refine (shapeCast_apply _ shapeCasts_S1x4096x64_S4096x64 (ix2 r j) (ix3 (0 : Fin 1) r j)
    (by rewrite [Shape.rowMajor_val_three, Shape.rowMajor_val_two]
        show (0 * 4096 + r.val) * 64 + j.val = r.val * 64 + j.val; omega)).trans ?_
  exact extractStridedSlice_apply ![0, 0, 0] o slices_S2x4096x64_S1x4096x64_0_0_0 (ix3 (0 : Fin 1) r j) (ix3 (0 : Fin 2) r j)
    (fun a => match a with
      | ⟨0, _⟩ => by show 0 = 0 + 0; omega
      | ⟨1, _⟩ => by show r.val = 0 + r.val; omega
      | ⟨2, _⟩ => by show j.val = 0 + j.val; omega)

/-- Branch 1 of a stack at `(r, j)`. -/
theorem branch1_apply (o : Arr S2x4096x64) (r : Fin 4096) (j : Fin 64) :
    branch1 o (ix2 r j) = o (ix3 (1 : Fin 2) r j) := by
  unfold branch1
  refine (shapeCast_apply _ shapeCasts_S1x4096x64_S4096x64 (ix2 r j) (ix3 (0 : Fin 1) r j)
    (by rewrite [Shape.rowMajor_val_three, Shape.rowMajor_val_two]
        show (0 * 4096 + r.val) * 64 + j.val = r.val * 64 + j.val; omega)).trans ?_
  exact extractStridedSlice_apply ![1, 0, 0] o slices_S2x4096x64_S1x4096x64_1_0_0 (ix3 (0 : Fin 1) r j) (ix3 (1 : Fin 2) r j)
    (fun a => match a with
      | ⟨0, _⟩ => by show 1 = 1 + 0; omega
      | ⟨1, _⟩ => by show r.val = 0 + r.val; omega
      | ⟨2, _⟩ => by show j.val = 0 + j.val; omega)

/-- The sum of squares along the last axis at `(b, r)`: the zero word's value plus `Σ_k o(b, r, k) · o(b, r, k)`. -/
theorem sumsq_apply (o : Arr S2x4096x64) (b : Fin 2) (r : Fin 4096) :
    Host.reduceAdd (F := Ideal) (mulf (F := Ideal) o o) (constant (F := Ideal) S_ .f32 0x00000000#32)
        reducesTo_S2x4096x64_S2x4096_d2 h_S_ (ix2 b r)
      = Ideal.ofBits .f32 0x00000000#32 + ∑ k : Fin 64, o (ix3 b r k) * o (ix3 b r k) := by
  generalize hy : mulf (F := Ideal) o o = y
  simp only [Host.reduceAdd, Ideal.hostReduceAdd_def]
  rw [Ideal.hostReduceAdd_single reducesTo_S2x4096x64_S2x4096_d2 (by decide)]
  refine congrArg₂ (· + ·) rfl (Finset.sum_congr rfl fun k _ => ?_)
  subst hy
  show o _ * o _ = _
  have e : (Shape.Reduces.lift (by decide : S2x4096x64.Reduces [2] S2x4096) (ix2 b r) k) = ix3 b r k :=
    funext fun a => Fin.ext (by match a with | ⟨0, _⟩ => rfl | ⟨1, _⟩ => rfl | ⟨2, _⟩ => rfl)
  rw [e]
  rfl

/-- The row normalisation at `(b, r, j)`. -/
theorem normalize_apply (o : Arr S2x4096x64) (b : Fin 2) (r : Fin 4096) (j : Fin 64) :
    Mid.normalize o (ix3 b r j)
      = Ideal.div (o (ix3 b r j))
          (max (Ideal.sqrt (Ideal.ofBits .f32 0x00000000#32 + ∑ k : Fin 64, o (ix3 b r k) * o (ix3 b r k)))
            (Ideal.ofBits .f32 0x2B8CBCCC#32)) := by
  unfold Mid.normalize
  show Ideal.div (o (ix3 b r j)) _ = _
  refine congrArg (Ideal.div (o (ix3 b r j))) ?_
  refine (broadcastInDim_apply _ bcast_S2x4096x1_S2x4096x64_0_1_2 _ (ix3 b r j) (ix3 b r (0 : Fin 1)) (fun a => match a with
    | ⟨0, _⟩ => by show b.val = if (2 : Nat) = 1 then 0 else b.val; rw [if_neg (by decide)]
    | ⟨1, _⟩ => by show r.val = if (4096 : Nat) = 1 then 0 else r.val; rw [if_neg (by decide)]
    | ⟨2, _⟩ => by show 0 = if (1 : Nat) = 1 then 0 else j.val; rw [if_pos rfl])).trans ?_
  rw [maximumf_apply]
  refine congrArg₂ max ?_ ?_
  · show Ideal.sqrt _ = _
    refine congrArg Ideal.sqrt ?_
    refine (broadcastInDim_apply _ bcast_S2x4096_S2x4096x1_0_1 _ (ix3 b r (0 : Fin 1)) (ix2 b r) (fun a => match a with
      | ⟨0, _⟩ => by show b.val = if (2 : Nat) = 1 then 0 else b.val; rw [if_neg (by decide)]
      | ⟨1, _⟩ => by show r.val = if (4096 : Nat) = 1 then 0 else r.val; rw [if_neg (by decide)])).trans ?_
    exact sumsq_apply o b r
  · exact broadcastInDim_apply _ bcast_S_S2x4096x1 (constant (F := Ideal) S_ .f32 0x2B8CBCCC#32) (ix3 b r (0 : Fin 1)) ix0
      (fun a => a.elim0)

end Cert.Bridge

end
-- ==== Proof.MidBridgeKer.lean ====
/-
  The kernel's middle, plane by plane, is `midS` of the coordinate views of its inputs.

  Each stage of the middle maps planes to planes:
    plane (agg a hs) b            = aggS (mat a) (plane hs b)
    plane (proj o w bias) b       = projS (plane o b) (plane w b) (mat bias b)
    plane (attn q k hs adj) b     = attnS (plane q b) (plane k b) (plane adj b) (plane hs b)
    plane (normalize o) b         = normS (plane o b)
  so plane `b` of the whole middle is `midS` of plane `b` of every stacked input; plane 0 and plane 1 of the stack are
  the two hidden matrices, and the two cuts `branch0`, `branch1` are plane 0 and plane 1 as matrices.
-/
import proofs.«159969_j68590627717599_1_alg».proof.Proof.KMid
import proofs.«159969_j68590627717599_1_alg».proof.Proof.MidBridgeSpec
import proofs.«159969_j68590627717599_1_alg».proof.Proof.MidBridgeProj
import proofs.«159969_j68590627717599_1_alg».proof.Proof.MidBridgeLayout

noncomputable section

open scoped BigOperators

namespace Cert.Bridge

open Idealize.ShloMosaic Idealize.ShloMosaic.ValueIdx Cert.KernelIdeal Cert.KernelIdeal.Facts₀ Cert.KernelIdeal.Facts
open Cert.KernelIdeal.Mid

/-- The aggregation, plane by plane. -/
theorem plane_agg (a : Arr S4096x4096) (hs : Arr S2x4096x64) (b : Fin 2) :
    plane (agg a hs) b = aggS (mat a) (plane hs b) :=
  funext fun r => funext fun e => rfl

/-- The batched projection, plane by plane. -/
theorem plane_proj (o : Arr S2x4096x64) (w : Arr S2x64x64) (bias : Arr S2x64) (b : Fin 2) :
    plane (proj o w bias) b = projS (plane o b) (plane w b) (mat bias b) :=
  funext fun r => funext fun d => proj_apply o w bias b r d

/-- The masked attention product, plane by plane. -/
theorem plane_attn (q k hs : Arr S2x4096x64) (adj : Arr S2x4096x4096) (b : Fin 2) :
    plane (attn q k hs adj) b = attnS (plane q b) (plane k b) (plane adj b) (plane hs b) :=
  funext fun r => funext fun j => rfl

/-- The row normalisation, plane by plane. -/
theorem plane_normalize (o : Arr S2x4096x64) (b : Fin 2) : plane (Mid.normalize o) b = normS (plane o b) :=
  funext fun r => funext fun j => normalize_apply o b r j

/-- Plane 0 of the stack is the first hidden matrix. -/
theorem plane_stack0 (h1 h2 : Arr S4096x64) : plane (stack h1 h2) (0 : Fin 2) = mat h1 :=
  funext fun n => funext fun j => stack_apply0 h1 h2 n j

/-- Plane 1 of the stack is the second hidden matrix. -/
theorem plane_stack1 (h1 h2 : Arr S4096x64) : plane (stack h1 h2) (1 : Fin 2) = mat h2 :=
  funext fun n => funext fun j => stack_apply1 h1 h2 n j

/-- Branch 0 as a matrix is plane 0. -/
theorem mat_branch0 (o : Arr S2x4096x64) : mat (branch0 o) = plane o (0 : Fin 2) :=
  funext fun r => funext fun j => branch0_apply o r j

/-- Branch 1 as a matrix is plane 1. -/
theorem mat_branch1 (o : Arr S2x4096x64) : mat (branch1 o) = plane o (1 : Fin 2) :=
  funext fun r => funext fun j => branch1_apply o r j

/-- Plane `b` of the whole middle. -/
theorem plane_mid (a : Arr S4096x4096) (adj : Arr S2x4096x4096) (wq : Arr S2x64x64) (bq : Arr S2x64)
    (wk : Arr S2x64x64) (bk : Arr S2x64) (h1 h2 : Arr S4096x64) (b : Fin 2) :
    plane (mid a adj wq bq wk bk h1 h2) b
      = midS (mat a) (plane adj b) (plane wq b) (mat bq b) (plane wk b) (mat bk b) (plane (stack h1 h2) b) := by
  unfold mid
  rw [plane_normalize, plane_attn, plane_proj, plane_proj, plane_agg]
  rfl

/-- Branch 0 of the middle is `midS` over plane 0 of the stacked inputs and the first hidden matrix. -/
theorem branch0_midK (a : Arr S4096x4096) (adj : Arr S2x4096x4096) (wq : Arr S2x64x64) (bq : Arr S2x64)
    (wk : Arr S2x64x64) (bk : Arr S2x64) (h1 h2 : Arr S4096x64) :
    mat (branch0 (mid a adj wq bq wk bk h1 h2))
      = midS (mat a) (plane adj (0 : Fin 2)) (plane wq (0 : Fin 2)) (mat bq (0 : Fin 2)) (plane wk (0 : Fin 2))
          (mat bk (0 : Fin 2)) (mat h1) := by
  rw [mat_branch0, plane_mid, plane_stack0]

/-- Branch 1 of the middle is `midS` over plane 1 of the stacked inputs and the second hidden matrix. -/
theorem branch1_midK (a : Arr S4096x4096) (adj : Arr S2x4096x4096) (wq : Arr S2x64x64) (bq : Arr S2x64)
    (wk : Arr S2x64x64) (bk : Arr S2x64) (h1 h2 : Arr S4096x64) :
    mat (branch1 (mid a adj wq bq wk bk h1 h2))
      = midS (mat a) (plane adj (1 : Fin 2)) (plane wq (1 : Fin 2)) (mat bq (1 : Fin 2)) (plane wk (1 : Fin 2))
          (mat bk (1 : Fin 2)) (mat h2) := by
  rw [mat_branch1, plane_mid, plane_stack1]

end Cert.Bridge

end
-- ==== Proof.MidBridgeRef0.lean ====
/-
  Branch 0 of the reference's middle is `midS` of the coordinate views of its inputs.

  The reference works on matrices: it cuts plane 0 out of each stacked parameter (a unit-thick slice, then the unit
  axis dropped), multiplies layer by layer, and normalises the rows of the result. Read at coordinates:
    adjacency times the first hidden matrix           = aggS
    that times a [64, 64] plane, plus a broadcast row     = projS
    (Q Kᵀ) ∘ mask, times the hidden matrix                = attnS   (Kᵀ is a transpose read at the swapped index)
    divided by max(√(0 + Σ squares along the row), ε)     = normS
  Every step identifies the operand indices of one operation, at explicit coordinates, with `ix2` / `ix3` indices.
-/
import proofs.«159969_j68590627717599_1_alg».proof.Proof.RefRead
import proofs.«159969_j68590627717599_1_alg».proof.Proof.MidBridgeSpec

noncomputable section

open scoped BigOperators

namespace Cert.Bridge.Ref0

open Idealize.ShloMosaic Idealize.ShloMosaic.ValueIdx Cert.ReferenceIdeal Cert.ReferenceIdeal.Read Cert.Bridge

/-- Two rank-2 indices with the same coordinates. -/
local macro "idx2" : tactic => `(tactic| (funext a; match a with | ⟨0, _⟩ => rfl | ⟨1, _⟩ => rfl))

variable (x0 : (⟨S4096x256, .f32⟩ : BufTy).Contents (Elt Ideal)) (x1 : (⟨S4096x4096, .f32⟩ : BufTy).Contents (Elt Ideal))
  (x2 : (⟨S2x4096x4096, .f32⟩ : BufTy).Contents (Elt Ideal)) (x3 : (⟨S3x256x64, .f32⟩ : BufTy).Contents (Elt Ideal))
  (x4 : (⟨S3x64, .f32⟩ : BufTy).Contents (Elt Ideal)) (x5 : (⟨S2x64x64, .f32⟩ : BufTy).Contents (Elt Ideal))
  (x6 : (⟨S2x64, .f32⟩ : BufTy).Contents (Elt Ideal)) (x7 : (⟨S2x64x64, .f32⟩ : BufTy).Contents (Elt Ideal))
  (x8 : (⟨S2x64, .f32⟩ : BufTy).Contents (Elt Ideal))

/-- Plane 0 of a [2, 64, 64] parameter, as the reference cuts it out (slice, then the unit axis dropped). -/
theorem plane64 (x : (⟨S2x64x64, .f32⟩ : BufTy).Contents (Elt Ideal)) (e d : Fin 64) :
    x (idx_main_v39 (idx_main_v40 (ix2 e d))) = x (ix3 (0 : Fin 2) e d) :=
  congrArg x (by
    funext a; refine Fin.ext ?_
    have he := e.isLt; have hd := d.isLt
    match a with
    | ⟨0, _⟩ => rfl
    | ⟨1, _⟩ => show (e.val * 64 + d.val) / 64 % 64 = e.val; omega
    | ⟨2, _⟩ => show (e.val * 64 + d.val) % 64 = d.val; omega)

/-- The query weights: plane 0 of `x5`. -/
theorem mat_wq : mat (val_main_v40 (F := Ideal) x5) = plane x5 (0 : Fin 2) := by
  funext e d
  show val_main_v40 (F := Ideal) x5 (ix2 e d) = x5 (ix3 (0 : Fin 2) e d)
  rw [val_main_v40_apply, val_main_v39_apply]
  exact plane64 x5 e d

/-- The key weights: plane 0 of `x7`. -/
theorem mat_wk : mat (val_main_v48 (F := Ideal) x7) = plane x7 (0 : Fin 2) := by
  funext e d
  show val_main_v48 (F := Ideal) x7 (ix2 e d) = x7 (ix3 (0 : Fin 2) e d)
  rw [val_main_v48_apply, val_main_v47_apply]
  exact plane64 x7 e d

/-- Row 0 of a [2, 64] parameter broadcast along the rows, at `(r, d)` (slice, unit axis dropped, unit axis added, broadcast). -/
theorem row64 (x : (⟨S2x64, .f32⟩ : BufTy).Contents (Elt Ideal)) (r : Fin 4096) (d : Fin 64) :
    x (idx_main_v42 (idx_main_v43 (idx_main_v44 (idx_main_v45 (ix2 r d))))) = x (ix2 (0 : Fin 2) d) :=
  congrArg x (by
    funext a; refine Fin.ext ?_
    have hd := d.isLt
    match a with
    | ⟨0, _⟩ => rfl
    | ⟨1, _⟩ => show d.val % 64 = d.val; omega)

/-- The query bias at `(r, d)`: row 0 of `x6`. -/
theorem bq_at (r : Fin 4096) (d : Fin 64) : val_main_v45 (F := Ideal) x6 (ix2 r d) = mat x6 (0 : Fin 2) d := by
  rw [val_main_v45_apply, val_main_v44_apply, val_main_v43_apply, val_main_v42_apply]
  exact row64 x6 r d

/-- The key bias at `(r, d)`: row 0 of `x8`. -/
theorem bk_at (r : Fin 4096) (d : Fin 64) : val_main_v53 (F := Ideal) x8 (ix2 r d) = mat x8 (0 : Fin 2) d := by
  rw [val_main_v53_apply, val_main_v52_apply, val_main_v51_apply, val_main_v50_apply]
  exact row64 x8 r d

/-- The mask: plane 0 of `x2`. -/
theorem mat_adj : mat (val_main_v58 (F := Ideal) x2) = plane x2 (0 : Fin 2) := by
  funext r n
  show val_main_v58 (F := Ideal) x2 (ix2 r n) = x2 (ix3 (0 : Fin 2) r n)
  rw [val_main_v58_apply, val_main_v57_apply]
  exact congrArg x2 (by
    funext a; refine Fin.ext ?_
    have hr := r.isLt; have hn := n.isLt
    match a with
    | ⟨0, _⟩ => rfl
    | ⟨1, _⟩ => show (r.val * 4096 + n.val) / 4096 % 4096 = r.val; omega
    | ⟨2, _⟩ => show (r.val * 4096 + n.val) % 4096 = n.val; omega)

/-- The aggregation: the adjacency times the first hidden matrix. -/
theorem mat_agg : mat (val_main_v38 (F := Ideal) x0 x1 x3 x4) = aggS (mat x1) (mat (val_main_v37 (F := Ideal) x0 x3 x4)) := by
  funext r e
  show val_main_v38 (F := Ideal) x0 x1 x3 x4 (ix2 r e) = ∑ n : Fin 4096, x1 (ix2 r n) * (val_main_v37 (F := Ideal) x0 x3 x4) (ix2 n e)
  rw [val_main_v38_apply]
  refine Finset.sum_congr rfl fun n _ => ?_
  rw [show lidx_main_v38 (ix2 r e) n = ix2 r n from by idx2, show ridx_main_v38 (ix2 r e) n = ix2 n e from by idx2]

/-- The queries. -/
theorem mat_q : mat (val_main_v46 (F := Ideal) x0 x1 x3 x4 x5 x6) = projS (mat (val_main_v38 (F := Ideal) x0 x1 x3 x4)) (mat (val_main_v40 (F := Ideal) x5)) (mat x6 (0 : Fin 2)) := by
  funext r d
  show val_main_v46 (F := Ideal) x0 x1 x3 x4 x5 x6 (ix2 r d)
    = (∑ e : Fin 64, (val_main_v38 (F := Ideal) x0 x1 x3 x4) (ix2 r e) * (val_main_v40 (F := Ideal) x5) (ix2 e d)) + mat x6 (0 : Fin 2) d
  rw [val_main_v46_apply, val_main_v41_apply, bq_at, Ideal.addf_def]
  refine congrArg₂ (· + ·) (Finset.sum_congr rfl fun e _ => ?_) rfl
  rw [show lidx_main_v41 (ix2 r d) e = ix2 r e from by idx2, show ridx_main_v41 (ix2 r d) e = ix2 e d from by idx2]

/-- The keys. -/
theorem mat_k : mat (val_main_v54 (F := Ideal) x0 x1 x3 x4 x7 x8) = projS (mat (val_main_v38 (F := Ideal) x0 x1 x3 x4)) (mat (val_main_v48 (F := Ideal) x7)) (mat x8 (0 : Fin 2)) := by
  funext r d
  show val_main_v54 (F := Ideal) x0 x1 x3 x4 x7 x8 (ix2 r d)
    = (∑ e : Fin 64, (val_main_v38 (F := Ideal) x0 x1 x3 x4) (ix2 r e) * (val_main_v48 (F := Ideal) x7) (ix2 e d)) + mat x8 (0 : Fin 2) d
  rw [val_main_v54_apply, val_main_v49_apply, bk_at, Ideal.addf_def]
  refine congrArg₂ (· + ·) (Finset.sum_congr rfl fun e _ => ?_) rfl
  rw [show lidx_main_v49 (ix2 r d) e = ix2 r e from by idx2, show ridx_main_v49 (ix2 r d) e = ix2 e d from by idx2]

/-- The masked attention product. -/
theorem mat_out : mat (val_main_v60 (F := Ideal) x0 x1 x2 x3 x4 x5 x6 x7 x8) = attnS (mat (val_main_v46 (F := Ideal) x0 x1 x3 x4 x5 x6)) (mat (val_main_v54 (F := Ideal) x0 x1 x3 x4 x7 x8)) (mat (val_main_v58 (F := Ideal) x2)) (mat (val_main_v37 (F := Ideal) x0 x3 x4)) := by
  funext r j
  show val_main_v60 (F := Ideal) x0 x1 x2 x3 x4 x5 x6 x7 x8 (ix2 r j)
    = ∑ n : Fin 4096, ((∑ d : Fin 64, (val_main_v46 (F := Ideal) x0 x1 x3 x4 x5 x6) (ix2 r d) * (val_main_v54 (F := Ideal) x0 x1 x3 x4 x7 x8) (ix2 n d)) * (val_main_v58 (F := Ideal) x2) (ix2 r n)) * (val_main_v37 (F := Ideal) x0 x3 x4) (ix2 n j)
  rw [val_main_v60_apply]
  refine Finset.sum_congr rfl fun n _ => ?_
  rw [show lidx_main_v60 (ix2 r j) n = ix2 r n from by idx2, show ridx_main_v60 (ix2 r j) n = ix2 n j from by idx2,
    val_main_v59_apply, val_main_v56_apply, Ideal.mulf_def]
  refine congrArg₂ (· * ·) (congrArg₂ (· * ·) (Finset.sum_congr rfl fun d _ => ?_) rfl) rfl
  rw [show lidx_main_v56 (ix2 r n) d = ix2 r d from by idx2, show ridx_main_v56 (ix2 r n) d = ix2 d n from by idx2,
    val_main_v55_apply, show idx_main_v55 (ix2 d n) = ix2 n d from by idx2]

/-- The row normalisation. -/
theorem mat_norm : mat (val_main_v68 (F := Ideal) x0 x1 x2 x3 x4 x5 x6 x7 x8) = normS (mat (val_main_v60 (F := Ideal) x0 x1 x2 x3 x4 x5 x6 x7 x8)) := by
  funext r j
  show val_main_v68 (F := Ideal) x0 x1 x2 x3 x4 x5 x6 x7 x8 (ix2 r j)
    = Ideal.div ((val_main_v60 (F := Ideal) x0 x1 x2 x3 x4 x5 x6 x7 x8) (ix2 r j))
        (max (Ideal.sqrt (Ideal.ofBits .f32 0x00000000#32 + ∑ k : Fin 64, (val_main_v60 (F := Ideal) x0 x1 x2 x3 x4 x5 x6 x7 x8) (ix2 r k) * (val_main_v60 (F := Ideal) x0 x1 x2 x3 x4 x5 x6 x7 x8) (ix2 r k)))
          (Ideal.ofBits .f32 0x2B8CBCCC#32))
  rw [val_main_v68_apply, val_main_v67_apply, val_main_v66_apply, val_main_v64_apply, val_main_v63_apply, val_main_v62_apply, val_main_v65_apply,
    val_main_cst_5_apply, val_main_cst_4_apply, Ideal.hostDivf_def, Ideal.maximumf_def, Ideal.hostUnary_sqrt_def, Ideal.ofBits_def, Ideal.ofBits_def]
  refine congrArg (Ideal.div _) (congrArg₂ max (congrArg Ideal.sqrt (congrArg₂ (· + ·) rfl (Finset.sum_congr rfl fun k _ => ?_))) rfl)
  rw [show idx_main_v62 (idx_main_v63 (idx_main_v67 (ix2 r j))) k = ix2 r k from by idx2, val_main_v61_apply, Ideal.mulf_def]

/-- Branch 0 of the reference's middle. -/
theorem mat_mid : mat (val_main_v68 (F := Ideal) x0 x1 x2 x3 x4 x5 x6 x7 x8)
    = midS (mat x1) (plane x2 (0 : Fin 2)) (plane x5 (0 : Fin 2)) (mat x6 (0 : Fin 2)) (plane x7 (0 : Fin 2)) (mat x8 (0 : Fin 2)) (mat (val_main_v37 (F := Ideal) x0 x3 x4)) := by
  rw [mat_norm, mat_out, mat_q, mat_k, mat_agg, mat_wq, mat_wk, mat_adj]
  rfl

end Cert.Bridge.Ref0

end
-- ==== Proof.MidBridgeRef1.lean ====
/-
  Branch 1 of the reference's middle is `midS` of the coordinate views of its inputs.

  The reference works on matrices: it cuts plane 1 out of each stacked parameter (a unit-thick slice, then the unit
  axis dropped), multiplies layer by layer, and normalises the rows of the result. Read at coordinates:
    adjacency times the second hidden matrix           = aggS
    that times a [64, 64] plane, plus a broadcast row     = projS
    (Q Kᵀ) ∘ mask, times the hidden matrix                = attnS   (Kᵀ is a transpose read at the swapped index)
    divided by max(√(0 + Σ squares along the row), ε)     = normS
  Every step identifies the operand indices of one operation, at explicit coordinates, with `ix2` / `ix3` indices.
-/
import proofs.«159969_j68590627717599_1_alg».proof.Proof.RefRead
import proofs.«159969_j68590627717599_1_alg».proof.Proof.MidBridgeSpec

noncomputable section

open scoped BigOperators

namespace Cert.Bridge.Ref1

open Idealize.ShloMosaic Idealize.ShloMosaic.ValueIdx Cert.ReferenceIdeal Cert.ReferenceIdeal.Read Cert.Bridge

/-- Two rank-2 indices with the same coordinates. -/
local macro "idx2" : tactic => `(tactic| (funext a; match a with | ⟨0, _⟩ => rfl | ⟨1, _⟩ => rfl))

variable (x0 : (⟨S4096x256, .f32⟩ : BufTy).Contents (Elt Ideal)) (x1 : (⟨S4096x4096, .f32⟩ : BufTy).Contents (Elt Ideal))
  (x2 : (⟨S2x4096x4096, .f32⟩ : BufTy).Contents (Elt Ideal)) (x3 : (⟨S3x256x64, .f32⟩ : BufTy).Contents (Elt Ideal))
  (x4 : (⟨S3x64, .f32⟩ : BufTy).Contents (Elt Ideal)) (x5 : (⟨S2x64x64, .f32⟩ : BufTy).Contents (Elt Ideal))
  (x6 : (⟨S2x64, .f32⟩ : BufTy).Contents (Elt Ideal)) (x7 : (⟨S2x64x64, .f32⟩ : BufTy).Contents (Elt Ideal))
  (x8 : (⟨S2x64, .f32⟩ : BufTy).Contents (Elt Ideal))

/-- Plane 1 of a [2, 64, 64] parameter, as the reference cuts it out (slice, then the unit axis dropped). -/
theorem plane64 (x : (⟨S2x64x64, .f32⟩ : BufTy).Contents (Elt Ideal)) (e d : Fin 64) :
    x (idx_main_v82 (idx_main_v83 (ix2 e d))) = x (ix3 (1 : Fin 2) e d) :=
  congrArg x (by
    funext a; refine Fin.ext ?_
    have he := e.isLt; have hd := d.isLt
    match a with
    | ⟨0, _⟩ => rfl
    | ⟨1, _⟩ => show (e.val * 64 + d.val) / 64 % 64 = e.val; omega
    | ⟨2, _⟩ => show (e.val * 64 + d.val) % 64 = d.val; omega)

/-- The query weights: plane 1 of `x5`. -/
theorem mat_wq : mat (val_main_v83 (F := Ideal) x5) = plane x5 (1 : Fin 2) := by
  funext e d
  show val_main_v83 (F := Ideal) x5 (ix2 e d) = x5 (ix3 (1 : Fin 2) e d)
  rw [val_main_v83_apply, val_main_v82_apply]
  exact plane64 x5 e d

/-- The key weights: plane 1 of `x7`. -/
theorem mat_wk : mat (val_main_v91 (F := Ideal) x7) = plane x7 (1 : Fin 2) := by
  funext e d
  show val_main_v91 (F := Ideal) x7 (ix2 e d) = x7 (ix3 (1 : Fin 2) e d)
  rw [val_main_v91_apply, val_main_v90_apply]
  exact plane64 x7 e d

/-- Row 1 of a [2, 64] parameter broadcast along the rows, at `(r, d)` (slice, unit axis dropped, unit axis added, broadcast). -/
theorem row64 (x : (⟨S2x64, .f32⟩ : BufTy).Contents (Elt Ideal)) (r : Fin 4096) (d : Fin 64) :
    x (idx_main_v85 (idx_main_v86 (idx_main_v87 (idx_main_v88 (ix2 r d))))) = x (ix2 (1 : Fin 2) d) :=
  congrArg x (by
    funext a; refine Fin.ext ?_
    have hd := d.isLt
    match a with
    | ⟨0, _⟩ => rfl
    | ⟨1, _⟩ => show d.val % 64 = d.val; omega)

/-- The query bias at `(r, d)`: row 1 of `x6`. -/
theorem bq_at (r : Fin 4096) (d : Fin 64) : val_main_v88 (F := Ideal) x6 (ix2 r d) = mat x6 (1 : Fin 2) d := by
  rw [val_main_v88_apply, val_main_v87_apply, val_main_v86_apply, val_main_v85_apply]
  exact row64 x6 r d

/-- The key bias at `(r, d)`: row 1 of `x8`. -/
theorem bk_at (r : Fin 4096) (d : Fin 64) : val_main_v96 (F := Ideal) x8 (ix2 r d) = mat x8 (1 : Fin 2) d := by
  rw [val_main_v96_apply, val_main_v95_apply, val_main_v94_apply, val_main_v93_apply]
  exact row64 x8 r d

/-- The mask: plane 1 of `x2`. -/
theorem mat_adj : mat (val_main_v101 (F := Ideal) x2) = plane x2 (1 : Fin 2) := by
  funext r n
  show val_main_v101 (F := Ideal) x2 (ix2 r n) = x2 (ix3 (1 : Fin 2) r n)
  rw [val_main_v101_apply, val_main_v100_apply]
  exact congrArg x2 (by
    funext a; refine Fin.ext ?_
    have hr := r.isLt; have hn := n.isLt
    match a with
    | ⟨0, _⟩ => rfl
    | ⟨1, _⟩ => show (r.val * 4096 + n.val) / 4096 % 4096 = r.val; omega
    | ⟨2, _⟩ => show (r.val * 4096 + n.val) % 4096 = n.val; omega)

/-- The aggregation: the adjacency times the second hidden matrix. -/
theorem mat_agg : mat (val_main_v81 (F := Ideal) x0 x1 x3 x4) = aggS (mat x1) (mat (val_main_v80 (F := Ideal) x0 x3 x4)) := by
  funext r e
  show val_main_v81 (F := Ideal) x0 x1 x3 x4 (ix2 r e) = ∑ n : Fin 4096, x1 (ix2 r n) * (val_main_v80 (F := Ideal) x0 x3 x4) (ix2 n e)
  rw [val_main_v81_apply]
  refine Finset.sum_congr rfl fun n _ => ?_
  rw [show lidx_main_v81 (ix2 r e) n = ix2 r n from by idx2, show ridx_main_v81 (ix2 r e) n = ix2 n e from by idx2]

/-- The queries. -/
theorem mat_q : mat (val_main_v89 (F := Ideal) x0 x1 x3 x4 x5 x6) = projS (mat (val_main_v81 (F := Ideal) x0 x1 x3 x4)) (mat (val_main_v83 (F := Ideal) x5)) (mat x6 (1 : Fin 2)) := by
  funext r d
  show val_main_v89 (F := Ideal) x0 x1 x3 x4 x5 x6 (ix2 r d)
    = (∑ e : Fin 64, (val_main_v81 (F := Ideal) x0 x1 x3 x4) (ix2 r e) * (val_main_v83 (F := Ideal) x5) (ix2 e d)) + mat x6 (1 : Fin 2) d
  rw [val_main_v89_apply, val_main_v84_apply, bq_at, Ideal.addf_def]
  refine congrArg₂ (· + ·) (Finset.sum_congr rfl fun e _ => ?_) rfl
  rw [show lidx_main_v84 (ix2 r d) e = ix2 r e from by idx2, show ridx_main_v84 (ix2 r d) e = ix2 e d from by idx2]

/-- The keys. -/
theorem mat_k : mat (val_main_v97 (F := Ideal) x0 x1 x3 x4 x7 x8) = projS (mat (val_main_v81 (F := Ideal) x0 x1 x3 x4)) (mat (val_main_v91 (F := Ideal) x7)) (mat x8 (1 : Fin 2)) := by
  funext r d
  show val_main_v97 (F := Ideal) x0 x1 x3 x4 x7 x8 (ix2 r d)
    = (∑ e : Fin 64, (val_main_v81 (F := Ideal) x0 x1 x3 x4) (ix2 r e) * (val_main_v91 (F := Ideal) x7) (ix2 e d)) + mat x8 (1 : Fin 2) d
  rw [val_main_v97_apply, val_main_v92_apply, bk_at, Ideal.addf_def]
  refine congrArg₂ (· + ·) (Finset.sum_congr rfl fun e _ => ?_) rfl
  rw [show lidx_main_v92 (ix2 r d) e = ix2 r e from by idx2, show ridx_main_v92 (ix2 r d) e = ix2 e d from by idx2]

/-- The masked attention product. -/
theorem mat_out : mat (val_main_v103 (F := Ideal) x0 x1 x2 x3 x4 x5 x6 x7 x8) = attnS (mat (val_main_v89 (F := Ideal) x0 x1 x3 x4 x5 x6)) (mat (val_main_v97 (F := Ideal) x0 x1 x3 x4 x7 x8)) (mat (val_main_v101 (F := Ideal) x2)) (mat (val_main_v80 (F := Ideal) x0 x3 x4)) := by
  funext r j
  show val_main_v103 (F := Ideal) x0 x1 x2 x3 x4 x5 x6 x7 x8 (ix2 r j)
    = ∑ n : Fin 4096, ((∑ d : Fin 64, (val_main_v89 (F := Ideal) x0 x1 x3 x4 x5 x6) (ix2 r d) * (val_main_v97 (F := Ideal) x0 x1 x3 x4 x7 x8) (ix2 n d)) * (val_main_v101 (F := Ideal) x2) (ix2 r n)) * (val_main_v80 (F := Ideal) x0 x3 x4) (ix2 n j)
  rw [val_main_v103_apply]
  refine Finset.sum_congr rfl fun n _ => ?_
  rw [show lidx_main_v103 (ix2 r j) n = ix2 r n from by idx2, show ridx_main_v103 (ix2 r j) n = ix2 n j from by idx2,
    val_main_v102_apply, val_main_v99_apply, Ideal.mulf_def]
  refine congrArg₂ (· * ·) (congrArg₂ (· * ·) (Finset.sum_congr rfl fun d _ => ?_) rfl) rfl
  rw [show lidx_main_v99 (ix2 r n) d = ix2 r d from by idx2, show ridx_main_v99 (ix2 r n) d = ix2 d n from by idx2,
    val_main_v98_apply, show idx_main_v98 (ix2 d n) = ix2 n d from by idx2]

/-- The row normalisation. -/
theorem mat_norm : mat (val_main_v111 (F := Ideal) x0 x1 x2 x3 x4 x5 x6 x7 x8) = normS (mat (val_main_v103 (F := Ideal) x0 x1 x2 x3 x4 x5 x6 x7 x8)) := by
  funext r j
  show val_main_v111 (F := Ideal) x0 x1 x2 x3 x4 x5 x6 x7 x8 (ix2 r j)
    = Ideal.div ((val_main_v103 (F := Ideal) x0 x1 x2 x3 x4 x5 x6 x7 x8) (ix2 r j))
        (max (Ideal.sqrt (Ideal.ofBits .f32 0x00000000#32 + ∑ k : Fin 64, (val_main_v103 (F := Ideal) x0 x1 x2 x3 x4 x5 x6 x7 x8) (ix2 r k) * (val_main_v103 (F := Ideal) x0 x1 x2 x3 x4 x5 x6 x7 x8) (ix2 r k)))
          (Ideal.ofBits .f32 0x2B8CBCCC#32))
  rw [val_main_v111_apply, val_main_v110_apply, val_main_v109_apply, val_main_v107_apply, val_main_v106_apply, val_main_v105_apply, val_main_v108_apply,
    val_main_cst_7_apply, val_main_cst_6_apply, Ideal.hostDivf_def, Ideal.maximumf_def, Ideal.hostUnary_sqrt_def, Ideal.ofBits_def, Ideal.ofBits_def]
  refine congrArg (Ideal.div _) (congrArg₂ max (congrArg Ideal.sqrt (congrArg₂ (· + ·) rfl (Finset.sum_congr rfl fun k _ => ?_))) rfl)
  rw [show idx_main_v105 (idx_main_v106 (idx_main_v110 (ix2 r j))) k = ix2 r k from by idx2, val_main_v104_apply, Ideal.mulf_def]

/-- Branch 1 of the reference's middle. -/
theorem mat_mid : mat (val_main_v111 (F := Ideal) x0 x1 x2 x3 x4 x5 x6 x7 x8)
    = midS (mat x1) (plane x2 (1 : Fin 2)) (plane x5 (1 : Fin 2)) (mat x6 (1 : Fin 2)) (plane x7 (1 : Fin 2)) (mat x8 (1 : Fin 2)) (mat (val_main_v80 (F := Ideal) x0 x3 x4)) := by
  rw [mat_norm, mat_out, mat_q, mat_k, mat_agg, mat_wq, mat_wk, mat_adj]
  rfl

end Cert.Bridge.Ref1

end
-- ==== Proof.MidBridge.lean ====
/-
  The middle of the two programs agrees, branch by branch.

  Plane 0 (plane 1) of the kernel's stacked middle, cut out as a matrix, and the reference's normalised attention
  output of its first (second) layer are both `midS` of the same coordinate functions — the adjacency, plane 0
  (plane 1) of the mask and of each stacked parameter, and the first (second) hidden matrix — hence equal entry by entry.
-/
import proofs.«159969_j68590627717599_1_alg».proof.Proof.KMid
import proofs.«159969_j68590627717599_1_alg».proof.Proof.RefRead
import proofs.«159969_j68590627717599_1_alg».proof.Proof.MidBridgeSpec
import proofs.«159969_j68590627717599_1_alg».proof.Proof.MidBridgeKer
import proofs.«159969_j68590627717599_1_alg».proof.Proof.MidBridgeRef0
import proofs.«159969_j68590627717599_1_alg».proof.Proof.MidBridgeRef1

noncomputable section

namespace Cert.Bridge

open Idealize.ShloMosaic Idealize.ShloMosaic.ValueIdx Cert.ReferenceIdeal.Read

variable (x0 : (⟨Cert.ReferenceIdeal.S4096x256, .f32⟩ : BufTy).Contents (Elt Ideal))
  (x1 : (⟨Cert.ReferenceIdeal.S4096x4096, .f32⟩ : BufTy).Contents (Elt Ideal))
  (x2 : (⟨Cert.ReferenceIdeal.S2x4096x4096, .f32⟩ : BufTy).Contents (Elt Ideal))
  (x3 : (⟨Cert.ReferenceIdeal.S3x256x64, .f32⟩ : BufTy).Contents (Elt Ideal))
  (x4 : (⟨Cert.ReferenceIdeal.S3x64, .f32⟩ : BufTy).Contents (Elt Ideal))
  (x5 : (⟨Cert.ReferenceIdeal.S2x64x64, .f32⟩ : BufTy).Contents (Elt Ideal))
  (x6 : (⟨Cert.ReferenceIdeal.S2x64, .f32⟩ : BufTy).Contents (Elt Ideal))
  (x7 : (⟨Cert.ReferenceIdeal.S2x64x64, .f32⟩ : BufTy).Contents (Elt Ideal))
  (x8 : (⟨Cert.ReferenceIdeal.S2x64, .f32⟩ : BufTy).Contents (Elt Ideal))

/-- Branch 0 of the kernel's middle is the reference's first normalised attention output. -/
theorem branch0_mid :
    Cert.KernelIdeal.Mid.branch0 (Cert.KernelIdeal.Mid.mid x1 x2 x5 x6 x7 x8
        (val_main_v37 (F := Ideal) x0 x3 x4) (val_main_v80 (F := Ideal) x0 x3 x4))
      = val_main_v68 (F := Ideal) x0 x1 x2 x3 x4 x5 x6 x7 x8 := by
  funext i
  obtain ⟨r, j, rfl⟩ : ∃ (r : Fin 4096) (j : Fin 64), i = ix2 r j := ⟨i 0, i 1, eq_ix2 i⟩
  exact congrFun (congrFun ((branch0_midK x1 x2 x5 x6 x7 x8 (val_main_v37 (F := Ideal) x0 x3 x4)
    (val_main_v80 (F := Ideal) x0 x3 x4)).trans (Ref0.mat_mid x0 x1 x2 x3 x4 x5 x6 x7 x8).symm) r) j

/-- Branch 1 of the kernel's middle is the reference's second normalised attention output. -/
theorem branch1_mid :
    Cert.KernelIdeal.Mid.branch1 (Cert.KernelIdeal.Mid.mid x1 x2 x5 x6 x7 x8
        (val_main_v37 (F := Ideal) x0 x3 x4) (val_main_v80 (F := Ideal) x0 x3 x4))
      = val_main_v111 (F := Ideal) x0 x1 x2 x3 x4 x5 x6 x7 x8 := by
  funext i
  obtain ⟨r, j, rfl⟩ : ∃ (r : Fin 4096) (j : Fin 64), i = ix2 r j := ⟨i 0, i 1, eq_ix2 i⟩
  exact congrFun (congrFun ((branch1_midK x1 x2 x5 x6 x7 x8 (val_main_v37 (F := Ideal) x0 x3 x4)
    (val_main_v80 (F := Ideal) x0 x3 x4)).trans (Ref1.mat_mid x0 x1 x2 x3 x4 x5 x6 x7 x8).symm) r) j

end Cert.Bridge

end
-- ==== Proof.KiValue.lean ====
/-
  The idealized kernel's result buffer is the reference's last stage of the arguments.

  What the first region leaves is adj_att times the stack of the two later hidden matrices; what the second leaves is
  the masked attention product of the two projections of that, the stack and the adjacency masks; its two normalised
  branches are the reference's two normalised attention outputs, and the host tail after the second region is the
  reference's tail.
-/
import proofs.«159969_j68590627717599_1_alg».proof.Proof.KiRunV
import proofs.«159969_j68590627717599_1_alg».proof.Proof.KiHostRef
import proofs.«159969_j68590627717599_1_alg».proof.Proof.KiRegVal0
import proofs.«159969_j68590627717599_1_alg».proof.Proof.KiRegVal1
import proofs.«159969_j68590627717599_1_alg».proof.Proof.MidBridge

set_option maxRecDepth 16384

noncomputable section

namespace Cert.KernelIdeal.Val

open Idealize.ShloMosaic Idealize.ShloMosaic.TcCoe Idealize.SL.Sem
open Cert.KernelIdeal Cert.KernelIdeal.Gen

variable (m : (ℓ : Loc nD τ sig) → Buf (Elt Ideal) ℓ) (c : Dev nD)

/-- What the first region leaves in its result buffer: adj_att times each of the two stacked hidden matrices. -/
theorem out49 : Reg.outs m 2 main_v49 c = Mid.agg (m ((c : Thread nD τ).loc main_arg1)) (Mid.stack (Cert.ReferenceIdeal.Read.val_main_v37 (F := Ideal) (m ((c : Thread nD τ).loc main_arg0)) (m ((c : Thread nD τ).loc main_arg3)) (m ((c : Thread nD τ).loc main_arg4))) (Cert.ReferenceIdeal.Read.val_main_v80 (F := Ideal) (m ((c : Thread nD τ).loc main_arg0)) (m ((c : Thread nD τ).loc main_arg3)) (m ((c : Thread nD τ).loc main_arg4)))) := by
  rw [Reg.outs_2]
  refine (Reg.W2_arr m c 2).trans ?_
  rw [RegVal.agg_final (Reg.E1 m) c]
  show Mid.agg (Gen.V1 m c main_arg1) (Gen.V1 m c main_v48) = _
  rw [HostV.V1_main_arg1, HostV.V1_main_v48_ref]

/-- What the second region leaves in its result buffer: the masked attention product. -/
theorem out58 : Reg.outs m 4 main_v58 c
    = Mid.attn (Mid.proj (Mid.agg (m ((c : Thread nD τ).loc main_arg1)) (Mid.stack (Cert.ReferenceIdeal.Read.val_main_v37 (F := Ideal) (m ((c : Thread nD τ).loc main_arg0)) (m ((c : Thread nD τ).loc main_arg3)) (m ((c : Thread nD τ).loc main_arg4))) (Cert.ReferenceIdeal.Read.val_main_v80 (F := Ideal) (m ((c : Thread nD τ).loc main_arg0)) (m ((c : Thread nD τ).loc main_arg3)) (m ((c : Thread nD τ).loc main_arg4))))) (m ((c : Thread nD τ).loc main_arg5)) (m ((c : Thread nD τ).loc main_arg6))) (Mid.proj (Mid.agg (m ((c : Thread nD τ).loc main_arg1)) (Mid.stack (Cert.ReferenceIdeal.Read.val_main_v37 (F := Ideal) (m ((c : Thread nD τ).loc main_arg0)) (m ((c : Thread nD τ).loc main_arg3)) (m ((c : Thread nD τ).loc main_arg4))) (Cert.ReferenceIdeal.Read.val_main_v80 (F := Ideal) (m ((c : Thread nD τ).loc main_arg0)) (m ((c : Thread nD τ).loc main_arg3)) (m ((c : Thread nD τ).loc main_arg4))))) (m ((c : Thread nD τ).loc main_arg7)) (m ((c : Thread nD τ).loc main_arg8))) (Mid.stack (Cert.ReferenceIdeal.Read.val_main_v37 (F := Ideal) (m ((c : Thread nD τ).loc main_arg0)) (m ((c : Thread nD τ).loc main_arg3)) (m ((c : Thread nD τ).loc main_arg4))) (Cert.ReferenceIdeal.Read.val_main_v80 (F := Ideal) (m ((c : Thread nD τ).loc main_arg0)) (m ((c : Thread nD τ).loc main_arg3)) (m ((c : Thread nD τ).loc main_arg4)))) (m ((c : Thread nD τ).loc main_arg2)) := by
  rw [Reg.outs_4]
  refine (Reg.W4_arr m c 4).trans ?_
  rw [RegVal.attn_final (Reg.E3 m) c]
  show Mid.attn (Gen.V3 m (Reg.outsA m) c main_v53) (Gen.V3 m (Reg.outsA m) c main_v57) (Gen.V3 m (Reg.outsA m) c main_v48)
      (Gen.V3 m (Reg.outsA m) c main_arg2) = _
  rw [HostV.V3_main_v53, HostV.V3_main_v57, HostV.V3_main_v48, HostV.V3_main_arg2, HostV.V1_main_v48_ref]
  show Mid.attn (Mid.proj (Reg.outs m 2 main_v49 c) _ _) (Mid.proj (Reg.outs m 2 main_v49 c) _ _) _ _ = _
  rw [out49]

/-- The result buffer at the end of the idealized kernel's run. -/
theorem kernel_value : Gen.V8 m (Reg.outs m) c main_v85
    = Cert.ReferenceIdeal.Read.val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine HostV.tail_eq m (Reg.outs m) c ?_ ?_
  · rw [out58]
    exact Cert.Bridge.branch0_mid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
  · rw [out58]
    exact Cert.Bridge.branch1_mid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

end Cert.KernelIdeal.Val

end
-- ==== Proof.RefResult.lean ====
/-
  The reference's run ends with its result buffer at the last stage of the arguments: the run's composed term of the
  148 operations is, by unfolding, the stage function of the arguments' launch contents.
-/
import proofs.«159969_j68590627717599_1_alg».proof.Proof.RefRun
import proofs.«159969_j68590627717599_1_alg».proof.Proof.RefRead

noncomputable section

namespace Cert.ReferenceIdeal.Result

open Cert.ReferenceIdeal Cert.ReferenceIdeal.Gen Idealize.ShloMosaic Idealize.ShloMosaic.TcCoe Idealize.SL.Sem
open Cert.ReferenceIdeal.Read

variable {F : FTy → Type} [FloatOps F]

set_option maxRecDepth 400000 in
/-- The term the run names for the result is the last stage. -/
theorem res_eq (m : (ℓ : Loc nD τ sig) → Buf (Elt F) ℓ) (c : Dev nD) :
    Cert.ReferenceIdeal.Value.res_main_v122 m c = val_main_v122 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold Cert.ReferenceIdeal.Value.res_main_v122; rfl

end Cert.ReferenceIdeal.Result

end
-- ==== Proof.lean ====
/-
  The certificate of the dense-attention message-passing kernel against its layer-by-layer reference.

  Both programs compute, at the extended reals: mask = softmax(att); h_i = x·W1[i] + b1[i] for the three branches;
  for branches 1 and 2 the attention output  ((Q Kᵀ) ∘ adjs[i−1]) · h_i  with Q = (adj_att·h_i)·WQ[i−1] + bQ[i−1] and K
  likewise; each branch divided row by row by max(‖row‖₂, ε) and scaled by its mask entry; the three joined along
  the columns, relu, ·W2 + b2, log-softmax along the rows.  The kernel stacks branches 1 and 2 into one [2, 4096, 64]
  array, computes adj_att·h in one tiled region (8 row tiles) and the masked attention product in a second (32 row
  tiles), Q and K by batched products between them, and normalises the stack along its last axis; the reference does
  each branch with 2-D operations.  No algebraic law beyond re-indexing of finite sums joins the two sides, so the
  finiteness precondition is never opened.

  * frames: the kernel programs through the conditional run of @main over its eight items, given one segment record
    per region (the body's triple by symbolic execution, the proof data naming what each point writes back); the
    reference through its run read back.
  * preserves: the idealization rewrote no operation.
  * algebraic: the kernel's result buffer is the host tail applied to what the second region leaves; that is the
    masked attention product of the whole arrays (blocks to array by the cover of the row tiles); its normalised
    branches are the reference's normalised attention outputs index by index; the tail is the same operations.
-/
import proofs.«159969_j68590627717599_1_alg».proof.Defs
import proofs.«159969_j68590627717599_1_alg».proof.Proof.Gen.Kernel
import proofs.«159969_j68590627717599_1_alg».proof.Proof.Gen.KernelIdeal
import proofs.«159969_j68590627717599_1_alg».proof.Proof.Gen.ReferenceIdeal
import proofs.«159969_j68590627717599_1_alg».proof.Proof.Gen.Pre_finite_inputs
import proofs.«159969_j68590627717599_1_alg».proof.Proof.KSegs
import proofs.«159969_j68590627717599_1_alg».proof.Proof.KiValue
import proofs.«159969_j68590627717599_1_alg».proof.Proof.RefResult
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Reg.frame (F := Bits) m ρ
theorem frame_ki : Cert.frame_KernelIdeal := fun m ρ _ => Cert.KernelIdeal.Reg.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result buffer at the reference's last stage of the (agreeing) arguments. -/
theorem algebraic : Cert.algebraic_KernelIdeal_ReferenceIdeal := by
  intro m ρ m' ρ' _ hagree
  refine ⟨fun c => Cert.ReferenceIdeal.Read.val_main_v122 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun _ h c => ⟨(h c).1.trans (Cert.KernelIdeal.Val.kernel_value m c), (h c).2⟩)
      (Cert.KernelIdeal.Reg.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Result.res_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
